-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 103
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S_, .f32⟩
  | .hbm, ⟨74, _⟩ => ⟨S800000, .f32⟩
  | .hbm, ⟨75, _⟩ => ⟨S_, .f32⟩
  | .hbm, ⟨76, _⟩ => ⟨S50000, .f32⟩
  | .hbm, ⟨77, _⟩ => ⟨S800000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S50000x128, .f32⟩
  | .hbm, ⟨100, _⟩ => ⟨S1x128, .f32⟩
  | .hbm, ⟨101, _⟩ => ⟨S1x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54_0 : Ref sig .tc := ⟨.hbm, 86, rfl⟩
abbrev main_v54_1 : Ref sig .tc := ⟨.hbm, 87, rfl⟩
abbrev main_v54_2 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v54_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v33) S5000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v66) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call0_cst : Ref sig .tc := ⟨.hbm, 81, rfl⟩
abbrev main_call0_v0 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_cst_18 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call1_cst : Ref sig .tc := ⟨.hbm, 145, rfl⟩
abbrev main_call1_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_call2_cst : Ref sig .tc := ⟨.hbm, 152, rfl⟩
abbrev main_call2_v0 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run, with its result named.

  The program is five pipelined regions among stretches of host operations. The contents of every buffer at each of
  the eleven segment boundaries are a fold from the launch memory: a host stretch rewrites the buffers its operations
  write, a region leaves its arrays at what its write-backs leave and every other buffer as it was. The last of these
  valuations, W10, is what every buffer that outlives the regions holds when the program returns. So from any memory
  with zero counters, every weakly fair execution terminates with the result buffer at W10's value for it, and with
  the sixteen argument buffers at their launch contents (each is read back through the fold unchanged).

  This is the library's theorem on a run of segments, applied to the program's segment list, thread states and proof
  data; beside the sixteen argument buffers the post reads one more buffer of the final state, the result's.
-/
import proofs.«180070_j13675175870684_1_alg».proof.Proof.Gen.KernelIdeal.Frame
import Idealize.ShloMosaic.PureOps.Ideal

set_option maxRecDepth 16384

noncomputable section

namespace Cert.Enc.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the library theorem's implicit arguments are found by unifying its conclusion with this one, which takes unfolding
-- plain definitions in a metavariable's type
set_option backward.isDefEq.respectTransparency.types false in
/-- From any memory with zero counters, every weakly fair execution of the kernel program terminates; in the final
    state the result buffer holds the last boundary valuation's value for it and every argument buffer its launch
    contents. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.Enc.KRun

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«180070_j13675175870684_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«180070_j13675175870684_1_alg».proof.Proof.LibMatmulRows
import proofs.«180070_j13675175870684_1_alg».proof.Proof.LibBiasRows
import proofs.«180070_j13675175870684_1_alg».proof.Proof.LibLayout
import proofs.«180070_j13675175870684_1_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«180070_j13675175870684_1_alg».proof.Proof.LibMatmulRows
import proofs.«180070_j13675175870684_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.Spec.lean ====
/-
  A two-layer mean-aggregating graph encoder with column normalisation and a residual two-layer perceptron, on extended
  reals, as functions of whole matrices. Nothing here mentions a program; the neighbour aggregation is a parameter.

  One layer, for node features x (R rows, C columns) and aggregated neighbour features a of the same shape:
      A = (a · Wl + x · Wr) + b                          (the pre-activation of the copied graph-layer file)
      y = max (g · ((A - mean) · rsqrt (var + eps)) + beta) 0      column by column,
  where mean and var are the mean and the variance of a column of A over its R rows, divided by the single-precision
  word of 50000. The variance is written in two arrangements: from the column's sum and sum of squares,
  var1 = ss/n - (s/n)², and from the squared deviations, var2 = (Σ (A - s/n)²)/n. They agree when the column's entries
  are real numbers (and not in general: at an infinite entry ⊤ - ⊤ reads ⊥).  The scaled deviation is grouped either as
  g · ((A - mean) · r) or as (g · (A - mean)) · r: multiplication of extended reals is associative, so these agree always.
  The network is two such layers followed by   x1 + (max (x2 · Wm1 + bm1) 0 · Wm2 + bm2).
-/
import Idealize.ShloMosaic.PureOps.Ideal
import Idealize.ShloMosaic.PureOps.Ideal.Laws
import Idealize.ShloMosaic.Lib.ValueIdx
import proofs.«180070_j13675175870684_1_alg».proof.Proof.LibSageLayers
import proofs.«180070_j13675175870684_1_alg».proof.Proof.LibDenseLayers

noncomputable section

namespace Cert.Encoder

open Idealize.ShloMosaic Idealize.ShloMosaic.ValueIdx Cert.Sage
open scoped BigOperators

/-- The divisor: the single-precision word of 50000. -/
abbrev nW : EReal := Ideal.ofBits .f32 0x47435000#32
/-- The variance offset: the single-precision word nearest 1e-5. -/
abbrev eW : EReal := Ideal.ofBits .f32 0x3727C5AC#32
/-- The single-precision zero word. -/
abbrev zW : EReal := Ideal.ofBits .f32 0x00000000#32

variable {R C : ℕ}

/-- The layer's pre-activation as a matrix: (a · Wl + x · Wr) + b. -/
def pre (a x : Mat R C) (Wl : Mat C C) (b : Vc C) (Wr : Mat C C) : Mat R C :=
  fun i => preAt a x Wl b Wr (i 0) (i 1)

/-- The sum of column q. -/
def colSum (A : Mat R C) (q : Fin C) : EReal := ∑ p : Fin R, A (ix2 p q)
/-- The sum of the squares of column q. -/
def colSq (A : Mat R C) (q : Fin C) : EReal := ∑ p : Fin R, A (ix2 p q) * A (ix2 p q)
/-- The mean of column q: its sum divided by the divisor word. -/
def mean1 (A : Mat R C) (q : Fin C) : EReal := Ideal.div (colSum A q) nW
/-- The variance of column q from its sum and its sum of squares: ss/n - (s/n)². -/
def var1 (A : Mat R C) (q : Fin C) : EReal := Ideal.div (colSq A q) nW - mean1 A q * mean1 A q
/-- The variance of column q from the squared deviations from the mean. -/
def var2 (A : Mat R C) (q : Fin C) : EReal :=
  Ideal.div (∑ p : Fin R, (A (ix2 p q) - mean1 A q) * (A (ix2 p q) - mean1 A q)) nW

/-- One normalised, scaled, shifted and rectified entry, the deviation scaled first by the reciprocal root. -/
def normK (y μ v g b : EReal) : EReal := max (g * ((y - μ) * Ideal.rsqrt (v + eW)) + b) zW
/-- The same entry, the deviation scaled first by g. -/
def normR (y μ v g b : EReal) : EReal := max (g * (y - μ) * Ideal.rsqrt (v + eW) + b) zW

/-- Column normalisation with GIVEN per-column mean μ and variance v, scale g and shift b, then the rectifier. -/
def normWith (A : Mat R C) (μ v g b : Fin C → EReal) : Mat R C :=
  fun i => normK (A i) (μ (i 1)) (v (i 1)) (g (i 1)) (b (i 1))

/-- The normalised layer with the variance from sum and sum of squares. -/
def bnK (A : Mat R C) (g b : Vc C) : Mat R C :=
  normWith A (mean1 A) (var1 A) (fun q => g (ix1 q)) (fun q => b (ix1 q))
/-- The normalised layer with the variance from squared deviations and the other grouping of the product. -/
def bnR (A : Mat R C) (g b : Vc C) : Mat R C :=
  fun i => normR (A i) (mean1 A (i 1)) (var2 A (i 1)) (g (ix1 (i 1))) (b (ix1 (i 1)))

/-- The residual perceptron: x1 + (max (x2 · W1 + b1) 0 · W2 + b2). -/
def mlp (x2 : Mat R C) (W1 : Mat C C) (b1 : Vc C) (W2 : Mat C C) (b2 : Vc C) (x1 : Mat R C) : Mat R C :=
  fun i => x1 i + Cert.LibDenseLayers.affine (Cert.LibDenseLayers.stage1 x2 W1 b1) W2 b2 i

/-- The encoder's weights. -/
structure Params (C : ℕ) where
  W1l : Mat C C
  b1 : Vc C
  W1r : Mat C C
  g1 : Vc C
  be1 : Vc C
  W2l : Mat C C
  b2 : Vc C
  W2r : Mat C C
  g2 : Vc C
  be2 : Vc C
  Wm1 : Mat C C
  bm1 : Vc C
  Wm2 : Mat C C
  bm2 : Vc C

/-- The first layer's output, one-pass variance. -/
def layer1K (agg : Mat R C → Mat R C) (x : Mat R C) (P : Params C) : Mat R C :=
  bnK (pre (agg x) x P.W1l P.b1 P.W1r) P.g1 P.be1
/-- The second layer's output, one-pass variance. -/
def layer2K (agg : Mat R C → Mat R C) (x : Mat R C) (P : Params C) : Mat R C :=
  bnK (pre (agg (layer1K agg x P)) (layer1K agg x P) P.W2l P.b2 P.W2r) P.g2 P.be2
/-- The encoder with one-pass variances. -/
def netK (agg : Mat R C → Mat R C) (x : Mat R C) (P : Params C) : Mat R C :=
  mlp (layer2K agg x P) P.Wm1 P.bm1 P.Wm2 P.bm2 (layer1K agg x P)

/-- The first layer's output, two-pass variance. -/
def layer1R (agg : Mat R C → Mat R C) (x : Mat R C) (P : Params C) : Mat R C :=
  bnR (pre (agg x) x P.W1l P.b1 P.W1r) P.g1 P.be1
/-- The second layer's output, two-pass variance. -/
def layer2R (agg : Mat R C → Mat R C) (x : Mat R C) (P : Params C) : Mat R C :=
  bnR (pre (agg (layer1R agg x P)) (layer1R agg x P) P.W2l P.b2 P.W2r) P.g2 P.be2
/-- The encoder with two-pass variances. -/
def netR (agg : Mat R C → Mat R C) (x : Mat R C) (P : Params C) : Mat R C :=
  mlp (layer2R agg x P) P.Wm1 P.bm1 P.Wm2 P.bm2 (layer1R agg x P)

end Cert.Encoder

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«180070_j13675175870684_1_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.RefAgg.lean ====
/-
  The neighbour aggregation of the reference program, as one function of the node features x and the edge list e.

  e has two rows of 800000 signed 32-bit words: row 0 holds the source node of every edge, row 1 its destination node.
  A negative source word has 50000 added to it (the wrap-around of a negative position) and is otherwise kept. The
  rows x[src] of the node features are gathered, one per edge, and added into an all-zero 50000 × 128 matrix at the
  row given by the edge's destination; ones are added into an all-zero vector of length 50000 at the destination,
  which counts the edges arriving at each node. Every row of sums is divided by the larger of its count and 1: the
  mean of the incoming neighbours' features (a node without incoming edges keeps the zero row).

  Everything is on extended reals. The result has real entries whenever x has: a gather selects entries of x, an
  accumulating scatter adds finitely many of them to zero, the divisor is a real number that is at least 1.
-/
import proofs.«180070_j13675175870684_1_alg».proof.Proof.Gen.ReferenceIdeal
import proofs.«180070_j13675175870684_1_alg».proof.Proof.Spec
import proofs.«180070_j13675175870684_1_alg».proof.Proof.LibMoments
import proofs.«180070_j13675175870684_1_alg».proof.Proof.LibRealArrays

noncomputable section

namespace Cert.Enc.RefSide

open Cert.ReferenceIdeal Cert.ReferenceIdeal.Gen Idealize.ShloMosaic Idealize.ShloMosaic.ValueIdx
open Cert.LibMoments

/-- The edge list: two rows of 800000 signed 32-bit words. -/
abbrev Edges : Type := (⟨S2x800000, .i32⟩ : BufTy).Contents (Elt Ideal)

/-- The mean of the incoming neighbours' rows of x, node by node: gather by source, add by destination, divide by the
    larger of the number of incoming edges and 1. -/
def aggR (e : Edges) (x : Cert.Sage.Mat 50000 128) : Cert.Sage.Mat 50000 128 :=
  Host.divf (F := Ideal) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x128 ![0, 1] bcast_S50000x1_S50000x128_0_1 (broadcastInDim S50000x1 ![0] bcast_S50000_S50000x1_0 (maximumf (F := Ideal) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant (F := Ideal) S_ .f32 0x3F800000#32))) (broadcastInDim S50000 ![] bcast_S_S50000 (constant (F := Ideal) S_ .f32 0x3F800000#32)))))

/-- A broadcast only selects: if every entry of y is real, so is every entry of a broadcast of y. -/
theorem isR_broadcastInDim {s t : Shape} (dims : Fin s.rank → Fin t.rank) (h : s.BroadcastsInDim t dims)
    (y : s.Idx → EReal) (hy : ∀ j, IsR (y j)) (i : t.Idx) : IsR (broadcastInDim t dims h y i) :=
  hy _

/-- The single-precision zero word, splat, has real entries. -/
theorem isR_zeros (s : Shape) (j : s.Idx) : IsR (constant (F := Ideal) s .f32 0x00000000#32 j) :=
  ⟨0, ofBits_zero.trans EReal.coe_zero.symm⟩

/-- The single-precision one word, splat, has real entries. -/
theorem isR_ones (s : Shape) (j : s.Idx) : IsR (constant (F := Ideal) s .f32 0x3F800000#32 j) :=
  ⟨1, ofBits_one.trans EReal.coe_one.symm⟩

/-- The host's quotient of two arrays, read at an index: real over a nonzero real is real. -/
theorem isR_hostDivf {s : Shape} (N D : FVec Ideal s .f32) (i : s.Idx) (hN : IsR (N i)) (hD : IsR (D i)) (h0 : D i ≠ 0) :
    IsR (Host.divf (F := Ideal) N D i) :=
  IsR.div_real hN _ hD h0

/-- The larger of two reals is real, read at an index of two arrays. -/
theorem isR_maximumf {s : Shape} (a b : FVec Ideal s .f32) (j : s.Idx) (ha : IsR (a j)) (hb : IsR (b j)) :
    IsR (maximumf (F := Ideal) a b j) :=
  IsR.max ha hb

/-- The larger of anything and 1 is not zero. -/
theorem maximumf_one_ne_zero {s : Shape} (a b : FVec Ideal s .f32) (hb : ∀ j, b j = 1) (j : s.Idx) :
    maximumf (F := Ideal) a b j ≠ 0 := by
  show max (a j) (b j) ≠ 0
  rw [hb j]
  exact max_one_ne_zero _

/-- A broadcast only selects: if no entry of y is zero, no entry of a broadcast of y is. -/
theorem broadcastInDim_ne_zero {s t : Shape} (dims : Fin s.rank → Fin t.rank) (h : s.BroadcastsInDim t dims)
    (y : s.Idx → EReal) (hy : ∀ j, y j ≠ 0) (i : t.Idx) : broadcastInDim t dims h y i ≠ 0 :=
  hy _

/-- The aggregation of a matrix of reals is a matrix of reals. -/
theorem aggR_real (e : Edges) (x : Cert.Sage.Mat 50000 128) (hx : ∀ i, IsR (x i)) : ∀ i, IsR (aggR e x i) := by
  intro i
  unfold aggR
  refine isR_hostDivf _ _ i ?_ ?_ ?_
  · exact isR_scatterAdd _ _ (fun j => isR_broadcastInDim _ _ _ (isR_zeros _) j) _ _ (fun j => isR_gather _ x hx _ j) i
  · refine isR_broadcastInDim _ _ _ (fun j => isR_broadcastInDim _ _ _ (fun j => ?_) j) i
    refine isR_maximumf _ _ j ?_ ?_
    · exact isR_scatterAdd _ _ (fun j => isR_broadcastInDim _ _ _ (isR_zeros _) j) _ _
        (fun j => isR_broadcastInDim _ _ _ (isR_ones _) j) j
    · exact isR_broadcastInDim _ _ _ (isR_ones _) j
  · refine broadcastInDim_ne_zero _ _ _ (fun j => broadcastInDim_ne_zero _ _ _ (fun j => ?_) j) i
    exact maximumf_one_ne_zero _ _ (fun j => ofBits_one) j

end Cert.Enc.RefSide

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«180070_j13675175870684_1_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.RefLayer1.lean ====
/-
  The first layer of the reference program is the specification's first layer with the two-pass variance.

  The reference forms the aggregated neighbour features (the function aggR of the edge list and the node features), the
  pre-activation A = (a · Wl + b) + x · Wr as a product, a bias broadcast along the rows and a second product, then per
  column q: the sum of the column from the zero word divided by the divisor word (the mean), the sum of the squared
  deviations from that mean divided by the divisor word (the variance), the reciprocal root of the variance plus the
  offset word; and per entry gamma(q) · (A(p, q) - mean(q)), times that reciprocal root, plus beta(q), and the larger of
  this and zero. Read entry by entry this is the specification's normalised entry: a sum that starts from the zero word
  is the sum, and a vector broadcast to one row and then along the rows is read at the column index.
-/
import proofs.«180070_j13675175870684_1_alg».proof.Proof.Gen.ReferenceIdeal.Read
import proofs.«180070_j13675175870684_1_alg».proof.Proof.RefAgg
import proofs.«180070_j13675175870684_1_alg».proof.Proof.Spec
import proofs.«180070_j13675175870684_1_alg».proof.Proof.LibSageLayers
import proofs.«180070_j13675175870684_1_alg».proof.Proof.LibMoments

noncomputable section

namespace Cert.Enc.RefSide

open Cert.ReferenceIdeal Cert.ReferenceIdeal.Gen Cert.ReferenceIdeal.Read Idealize.ShloMosaic Idealize.ShloMosaic.ValueIdx
open Cert.Sage Cert.Encoder Cert.LibMoments
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-! ### The aggregation stage and the pre-activation -/

/-- The host lines that aggregate the neighbours of the input features are the function aggR. -/
theorem l1_agg : val_main_v22 (F := Ideal) x0 x1 = aggR x1 x0 := by
  unfold val_main_v22 val_main_v13 val_main_v11 val_main_cst val_main_v12 val_main_v3 val_main_v2 val_main_v10 val_main_v9 val_main_v8 val_main_v5 val_main_v1 val_main_v0 val_main_v4 val_main_c val_main_v7 val_main_v6 val_main_c_0 val_main_v21 val_main_v20 val_main_v19 val_main_v17 val_main_v15 val_main_cst_2 val_main_v16 val_main_v14 val_main_cst_1 val_main_v18 val_main_cst_3 aggR
  rfl

/-- The first product plus the bias broadcast twice, plus the second product, is the pre-activation matrix. -/
theorem l1_pre : val_main_v28 (F := Ideal) x0 x1 x2 x3 x4 = pre (aggR x1 x0) x0 x2 x3 x4 := by
  funext i
  obtain ⟨p, q, rfl⟩ : ∃ (p : Fin 50000) (q : Fin 128), i = ix2 p q := ⟨i 0, i 1, eq_ix2 i⟩
  unfold val_main_v28 val_main_v26 val_main_v27 val_main_v23 val_main_v25 val_main_v24
  rw [l1_agg]
  exact Cert.Sage.pre_of_dot (by decide) dot_S50000x128_S128x128_S50000x128_1_0_0_1_n_n rfl rfl lhs_main_v23_0 lhs_main_v23_1 rhs_main_v23_0 rhs_main_v23_1
    bcast_S128_S1x128_1 bcast_S1x128_S50000x128_0_1 (aggR x1 x0) x0 x2 x4 x3 p q

/-! ### Indices: a column index laid along the rows, a row index met by a column sum -/

theorem l1_idx_sum (q : Fin 128) (k : Fin 50000) : idx_main_v29 (ix1 q) k = ix2 k q :=
  funext fun a => Fin.ext (by match a with | ⟨0, _⟩ => rfl | ⟨1, _⟩ => rfl)
theorem l1_idx_ssum (q : Fin 128) (k : Fin 50000) : idx_main_v36 (ix1 q) k = ix2 k q :=
  funext fun a => Fin.ext (by match a with | ⟨0, _⟩ => rfl | ⟨1, _⟩ => rfl)
theorem l1_idx_m1 (p : Fin 50000) (q : Fin 128) : idx_main_v32 (idx_main_v33 (ix2 p q)) = ix1 q :=
  funext fun a => Fin.ext (by match a with | ⟨0, _⟩ => rfl)
theorem l1_idx_m2 (p : Fin 50000) (q : Fin 128) : idx_main_v39 (idx_main_v40 (ix2 p q)) = ix1 q :=
  funext fun a => Fin.ext (by match a with | ⟨0, _⟩ => rfl)
theorem l1_idx_g (p : Fin 50000) (q : Fin 128) : idx_main_v42 (idx_main_v43 (ix2 p q)) = ix1 q :=
  funext fun a => Fin.ext (by match a with | ⟨0, _⟩ => rfl)
theorem l1_idx_r (p : Fin 50000) (q : Fin 128) : idx_main_v48 (idx_main_v49 (ix2 p q)) = ix1 q :=
  funext fun a => Fin.ext (by match a with | ⟨0, _⟩ => rfl)
theorem l1_idx_b (p : Fin 50000) (q : Fin 128) : idx_main_v51 (idx_main_v52 (ix2 p q)) = ix1 q :=
  funext fun a => Fin.ext (by match a with | ⟨0, _⟩ => rfl)

/-! ### The column statistics -/

/-- The host's column sum from the zero word, divided by the divisor word, is the column's mean. -/
theorem l1_mean (q : Fin 128) : val_main_v31 (F := Ideal) x0 x1 x2 x3 x4 (ix1 q) = mean1 (val_main_v28 (F := Ideal) x0 x1 x2 x3 x4) q := by
  rw [val_main_v31_apply, val_main_v29_apply, val_main_v30_apply, val_main_cst_5_apply, val_main_cst_4_apply]
  generalize val_main_v28 (F := Ideal) x0 x1 x2 x3 x4 = A
  show Ideal.div (Ideal.ofBits .f32 0x00000000#32 + ∑ k : Fin 50000, A (idx_main_v29 (ix1 q) k)) nW
    = Ideal.div (∑ p : Fin 50000, A (ix2 p q)) nW
  rw [ofBits_zero, zero_add]
  exact congrArg (fun s => Ideal.div s nW) (Finset.sum_congr rfl fun k _ => congrArg A (l1_idx_sum q k))

/-- An entry minus its column's mean laid along the rows. -/
theorem l1_dev (p : Fin 50000) (q : Fin 128) :
    val_main_v34 (F := Ideal) x0 x1 x2 x3 x4 (ix2 p q) = (val_main_v28 (F := Ideal) x0 x1 x2 x3 x4) (ix2 p q) - mean1 (val_main_v28 (F := Ideal) x0 x1 x2 x3 x4) q := by
  rw [val_main_v34_apply, val_main_v33_apply, val_main_v32_apply, l1_idx_m1, l1_mean]
  rfl

/-- The host's column sum of the squared deviations, divided by the divisor word, is the two-pass variance. -/
theorem l1_var (q : Fin 128) : val_main_v38 (F := Ideal) x0 x1 x2 x3 x4 (ix1 q) = var2 (val_main_v28 (F := Ideal) x0 x1 x2 x3 x4) q := by
  rw [val_main_v38_apply, val_main_v36_apply, val_main_v37_apply, val_main_cst_7_apply, val_main_cst_6_apply]
  have h : ∀ k : Fin 50000, (val_main_v35 (F := Ideal) x0 x1 x2 x3 x4) (idx_main_v36 (ix1 q) k)
      = ((val_main_v28 (F := Ideal) x0 x1 x2 x3 x4) (ix2 k q) - mean1 (val_main_v28 (F := Ideal) x0 x1 x2 x3 x4) q) * ((val_main_v28 (F := Ideal) x0 x1 x2 x3 x4) (ix2 k q) - mean1 (val_main_v28 (F := Ideal) x0 x1 x2 x3 x4) q) := fun k => by
    rw [l1_idx_ssum, val_main_v35_apply, l1_dev]
    rfl
  rw [Finset.sum_congr rfl fun k _ => h k]
  generalize val_main_v28 (F := Ideal) x0 x1 x2 x3 x4 = A
  show Ideal.div (Ideal.ofBits .f32 0x00000000#32 + ∑ k : Fin 50000, (A (ix2 k q) - mean1 A q) * (A (ix2 k q) - mean1 A q)) nW
    = Ideal.div (∑ p : Fin 50000, (A (ix2 p q) - mean1 A q) * (A (ix2 p q) - mean1 A q)) nW
  rw [ofBits_zero, zero_add]

/-- The reciprocal root of the variance plus the offset word. -/
theorem l1_rs (q : Fin 128) : val_main_v47 (F := Ideal) x0 x1 x2 x3 x4 (ix1 q) = Ideal.rsqrt (var2 (val_main_v28 (F := Ideal) x0 x1 x2 x3 x4) q + eW) := by
  rw [val_main_v47_apply, val_main_v46_apply, val_main_v45_apply, val_main_cst_8_apply, l1_var]
  rfl

/-! ### The normalised, scaled, shifted and rectified entry -/

theorem l1_out (p : Fin 50000) (q : Fin 128) :
    val_main_v54 (F := Ideal) x0 x1 x2 x3 x4 x5 x6 (ix2 p q)
      = normR ((val_main_v28 (F := Ideal) x0 x1 x2 x3 x4) (ix2 p q)) (mean1 (val_main_v28 (F := Ideal) x0 x1 x2 x3 x4) q) (var2 (val_main_v28 (F := Ideal) x0 x1 x2 x3 x4) q) (x5 (ix1 q)) (x6 (ix1 q)) := by
  rw [val_main_v54_apply, val_main_v53_apply, val_main_v50_apply, val_main_v44_apply, val_main_v43_apply, val_main_v42_apply, l1_idx_g,
    val_main_v41_apply, val_main_v40_apply, val_main_v39_apply, l1_idx_m2, l1_mean,
    val_main_v49_apply, val_main_v48_apply, l1_idx_r, l1_rs,
    val_main_v52_apply, val_main_v51_apply, l1_idx_b, val_main_call0_v0_apply, val_main_call0_cst_apply]
  rfl

/-- The layer's normalisation as the host writes it is the two-pass column normalisation of its pre-activation. -/
theorem l1_bn : val_main_v54 (F := Ideal) x0 x1 x2 x3 x4 x5 x6 = bnR (val_main_v28 (F := Ideal) x0 x1 x2 x3 x4) x5 x6 := by
  funext i
  obtain ⟨p, q, rfl⟩ : ∃ (p : Fin 50000) (q : Fin 128), i = ix2 p q := ⟨i 0, i 1, eq_ix2 i⟩
  exact l1_out x0 x1 x2 x3 x4 x5 x6 p q

/-- The first layer of the reference: the two-pass normalised layer of the aggregated and the plain features. -/
theorem layer1_eq : val_main_v54 (F := Ideal) x0 x1 x2 x3 x4 x5 x6 = bnR (pre (aggR x1 x0) x0 x2 x3 x4) x5 x6 := by
  rw [l1_bn, l1_pre]

end Cert.Enc.RefSide

end
-- ==== Proof.RefLayer2.lean ====
/-
  The second layer of the reference program is the specification's layer with the two-pass variance, applied to the
  first layer's output H.

  The host lines that aggregate the neighbours of H repeat, word for word, those that aggregated the neighbours of the
  input features (the source row of the edge list is adjusted again by the same comparison, addition and selection), so
  they are the same function aggR of the edge list, now applied to H. The rest is as in the first layer: the
  pre-activation (aggR(H) · Wl + b) + H · Wr, per column the mean, the variance from the squared deviations and the
  reciprocal root, per entry gamma · (A - mean) times that root plus beta, rectified.
-/
import proofs.«180070_j13675175870684_1_alg».proof.Proof.Gen.ReferenceIdeal.Read
import proofs.«180070_j13675175870684_1_alg».proof.Proof.RefAgg
import proofs.«180070_j13675175870684_1_alg».proof.Proof.Spec
import proofs.«180070_j13675175870684_1_alg».proof.Proof.LibSageLayers
import proofs.«180070_j13675175870684_1_alg».proof.Proof.LibMoments

noncomputable section

namespace Cert.Enc.RefSide

open Cert.ReferenceIdeal Cert.ReferenceIdeal.Gen Cert.ReferenceIdeal.Read Idealize.ShloMosaic Idealize.ShloMosaic.ValueIdx
open Cert.Sage Cert.Encoder Cert.LibMoments
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-! ### The aggregation stage and the pre-activation -/

/-- The host lines that aggregate the neighbours of the first layer's output are the function aggR applied to it. -/
theorem l2_agg : val_main_v73 (F := Ideal) x0 x1 x2 x3 x4 x5 x6 = aggR x1 (val_main_v54 (F := Ideal) x0 x1 x2 x3 x4 x5 x6) := by
  unfold val_main_v73 val_main_v64 val_main_v62 val_main_cst_11 val_main_v63 val_main_v3 val_main_v2 val_main_v61 val_main_v60 val_main_v59 val_main_v56 val_main_v1 val_main_v0 val_main_v55 val_main_c_9 val_main_v58 val_main_v57 val_main_c_10 val_main_v72 val_main_v71 val_main_v70 val_main_v68 val_main_v66 val_main_cst_13 val_main_v67 val_main_v65 val_main_cst_12 val_main_v69 val_main_cst_14
  generalize val_main_v54 (F := Ideal) x0 x1 x2 x3 x4 x5 x6 = h
  unfold aggR
  rfl

/-- The first product plus the bias broadcast twice, plus the second product, is the pre-activation matrix. -/
theorem l2_pre : val_main_v79 (F := Ideal) x0 x1 x2 x3 x4 x5 x6 x7 x8 x9 = pre (aggR x1 (val_main_v54 (F := Ideal) x0 x1 x2 x3 x4 x5 x6)) (val_main_v54 (F := Ideal) x0 x1 x2 x3 x4 x5 x6) x7 x8 x9 := by
  funext i
  obtain ⟨p, q, rfl⟩ : ∃ (p : Fin 50000) (q : Fin 128), i = ix2 p q := ⟨i 0, i 1, eq_ix2 i⟩
  unfold val_main_v79 val_main_v77 val_main_v78 val_main_v74 val_main_v76 val_main_v75
  rw [l2_agg]
  generalize val_main_v54 (F := Ideal) x0 x1 x2 x3 x4 x5 x6 = h
  exact Cert.Sage.pre_of_dot (by decide) dot_S50000x128_S128x128_S50000x128_1_0_0_1_n_n rfl rfl lhs_main_v74_0 lhs_main_v74_1 rhs_main_v74_0 rhs_main_v74_1
    bcast_S128_S1x128_1 bcast_S1x128_S50000x128_0_1 (aggR x1 h) h x7 x9 x8 p q

/-! ### Indices: a column index laid along the rows, a row index met by a column sum -/

theorem l2_idx_sum (q : Fin 128) (k : Fin 50000) : idx_main_v80 (ix1 q) k = ix2 k q :=
  funext fun a => Fin.ext (by match a with | ⟨0, _⟩ => rfl | ⟨1, _⟩ => rfl)
theorem l2_idx_ssum (q : Fin 128) (k : Fin 50000) : idx_main_v87 (ix1 q) k = ix2 k q :=
  funext fun a => Fin.ext (by match a with | ⟨0, _⟩ => rfl | ⟨1, _⟩ => rfl)
theorem l2_idx_m1 (p : Fin 50000) (q : Fin 128) : idx_main_v83 (idx_main_v84 (ix2 p q)) = ix1 q :=
  funext fun a => Fin.ext (by match a with | ⟨0, _⟩ => rfl)
theorem l2_idx_m2 (p : Fin 50000) (q : Fin 128) : idx_main_v90 (idx_main_v91 (ix2 p q)) = ix1 q :=
  funext fun a => Fin.ext (by match a with | ⟨0, _⟩ => rfl)
theorem l2_idx_g (p : Fin 50000) (q : Fin 128) : idx_main_v93 (idx_main_v94 (ix2 p q)) = ix1 q :=
  funext fun a => Fin.ext (by match a with | ⟨0, _⟩ => rfl)
theorem l2_idx_r (p : Fin 50000) (q : Fin 128) : idx_main_v99 (idx_main_v100 (ix2 p q)) = ix1 q :=
  funext fun a => Fin.ext (by match a with | ⟨0, _⟩ => rfl)
theorem l2_idx_b (p : Fin 50000) (q : Fin 128) : idx_main_v102 (idx_main_v103 (ix2 p q)) = ix1 q :=
  funext fun a => Fin.ext (by match a with | ⟨0, _⟩ => rfl)

/-! ### The column statistics -/

/-- The host's column sum from the zero word, divided by the divisor word, is the column's mean. -/
theorem l2_mean (q : Fin 128) : val_main_v82 (F := Ideal) x0 x1 x2 x3 x4 x5 x6 x7 x8 x9 (ix1 q) = mean1 (val_main_v79 (F := Ideal) x0 x1 x2 x3 x4 x5 x6 x7 x8 x9) q := by
  rw [val_main_v82_apply, val_main_v80_apply, val_main_v81_apply, val_main_cst_16_apply, val_main_cst_15_apply]
  generalize val_main_v79 (F := Ideal) x0 x1 x2 x3 x4 x5 x6 x7 x8 x9 = A
  show Ideal.div (Ideal.ofBits .f32 0x00000000#32 + ∑ k : Fin 50000, A (idx_main_v80 (ix1 q) k)) nW
    = Ideal.div (∑ p : Fin 50000, A (ix2 p q)) nW
  rw [ofBits_zero, zero_add]
  exact congrArg (fun s => Ideal.div s nW) (Finset.sum_congr rfl fun k _ => congrArg A (l2_idx_sum q k))

/-- An entry minus its column's mean laid along the rows. -/
theorem l2_dev (p : Fin 50000) (q : Fin 128) :
    val_main_v85 (F := Ideal) x0 x1 x2 x3 x4 x5 x6 x7 x8 x9 (ix2 p q) = (val_main_v79 (F := Ideal) x0 x1 x2 x3 x4 x5 x6 x7 x8 x9) (ix2 p q) - mean1 (val_main_v79 (F := Ideal) x0 x1 x2 x3 x4 x5 x6 x7 x8 x9) q := by
  rw [val_main_v85_apply, val_main_v84_apply, val_main_v83_apply, l2_idx_m1, l2_mean]
  rfl

/-- The host's column sum of the squared deviations, divided by the divisor word, is the two-pass variance. -/
theorem l2_var (q : Fin 128) : val_main_v89 (F := Ideal) x0 x1 x2 x3 x4 x5 x6 x7 x8 x9 (ix1 q) = var2 (val_main_v79 (F := Ideal) x0 x1 x2 x3 x4 x5 x6 x7 x8 x9) q := by
  rw [val_main_v89_apply, val_main_v87_apply, val_main_v88_apply, val_main_cst_18_apply, val_main_cst_17_apply]
  have h : ∀ k : Fin 50000, (val_main_v86 (F := Ideal) x0 x1 x2 x3 x4 x5 x6 x7 x8 x9) (idx_main_v87 (ix1 q) k)
      = ((val_main_v79 (F := Ideal) x0 x1 x2 x3 x4 x5 x6 x7 x8 x9) (ix2 k q) - mean1 (val_main_v79 (F := Ideal) x0 x1 x2 x3 x4 x5 x6 x7 x8 x9) q) * ((val_main_v79 (F := Ideal) x0 x1 x2 x3 x4 x5 x6 x7 x8 x9) (ix2 k q) - mean1 (val_main_v79 (F := Ideal) x0 x1 x2 x3 x4 x5 x6 x7 x8 x9) q) := fun k => by
    rw [l2_idx_ssum, val_main_v86_apply, l2_dev]
    rfl
  rw [Finset.sum_congr rfl fun k _ => h k]
  generalize val_main_v79 (F := Ideal) x0 x1 x2 x3 x4 x5 x6 x7 x8 x9 = A
  show Ideal.div (Ideal.ofBits .f32 0x00000000#32 + ∑ k : Fin 50000, (A (ix2 k q) - mean1 A q) * (A (ix2 k q) - mean1 A q)) nW
    = Ideal.div (∑ p : Fin 50000, (A (ix2 p q) - mean1 A q) * (A (ix2 p q) - mean1 A q)) nW
  rw [ofBits_zero, zero_add]

/-- The reciprocal root of the variance plus the offset word. -/
theorem l2_rs (q : Fin 128) : val_main_v98 (F := Ideal) x0 x1 x2 x3 x4 x5 x6 x7 x8 x9 (ix1 q) = Ideal.rsqrt (var2 (val_main_v79 (F := Ideal) x0 x1 x2 x3 x4 x5 x6 x7 x8 x9) q + eW) := by
  rw [val_main_v98_apply, val_main_v97_apply, val_main_v96_apply, val_main_cst_19_apply, l2_var]
  rfl

/-! ### The normalised, scaled, shifted and rectified entry -/

theorem l2_out (p : Fin 50000) (q : Fin 128) :
    val_main_v105 (F := Ideal) x0 x1 x2 x3 x4 x5 x6 x7 x8 x9 x10 x11 (ix2 p q)
      = normR ((val_main_v79 (F := Ideal) x0 x1 x2 x3 x4 x5 x6 x7 x8 x9) (ix2 p q)) (mean1 (val_main_v79 (F := Ideal) x0 x1 x2 x3 x4 x5 x6 x7 x8 x9) q) (var2 (val_main_v79 (F := Ideal) x0 x1 x2 x3 x4 x5 x6 x7 x8 x9) q) (x10 (ix1 q)) (x11 (ix1 q)) := by
  rw [val_main_v105_apply, val_main_v104_apply, val_main_v101_apply, val_main_v95_apply, val_main_v94_apply, val_main_v93_apply, l2_idx_g,
    val_main_v92_apply, val_main_v91_apply, val_main_v90_apply, l2_idx_m2, l2_mean,
    val_main_v100_apply, val_main_v99_apply, l2_idx_r, l2_rs,
    val_main_v103_apply, val_main_v102_apply, l2_idx_b, val_main_call1_v0_apply, val_main_call1_cst_apply]
  rfl

/-- The layer's normalisation as the host writes it is the two-pass column normalisation of its pre-activation. -/
theorem l2_bn : val_main_v105 (F := Ideal) x0 x1 x2 x3 x4 x5 x6 x7 x8 x9 x10 x11 = bnR (val_main_v79 (F := Ideal) x0 x1 x2 x3 x4 x5 x6 x7 x8 x9) x10 x11 := by
  funext i
  obtain ⟨p, q, rfl⟩ : ∃ (p : Fin 50000) (q : Fin 128), i = ix2 p q := ⟨i 0, i 1, eq_ix2 i⟩
  exact l2_out x0 x1 x2 x3 x4 x5 x6 x7 x8 x9 x10 x11 p q

/-- The second layer of the reference: the two-pass normalised layer of the aggregated and the plain first-layer output. -/
theorem layer2_eq : val_main_v105 (F := Ideal) x0 x1 x2 x3 x4 x5 x6 x7 x8 x9 x10 x11 = bnR (pre (aggR x1 (val_main_v54 (F := Ideal) x0 x1 x2 x3 x4 x5 x6)) (val_main_v54 (F := Ideal) x0 x1 x2 x3 x4 x5 x6) x7 x8 x9) x10 x11 := by
  rw [l2_bn, l2_pre]

end Cert.Enc.RefSide

end
-- ==== Proof.RefMlp.lean ====
/-
  The tail of the reference program is the specification's residual perceptron.

  The host forms X2 · Wm1 plus bm1 broadcast along the rows (an affine layer), the larger of each entry and the zero
  word (the rectifier), that times Wm2 plus bm2 broadcast along the rows (a second affine layer), and adds the first
  layer's output entry by entry.
-/
import proofs.«180070_j13675175870684_1_alg».proof.Proof.Gen.ReferenceIdeal.Read
import proofs.«180070_j13675175870684_1_alg».proof.Proof.Spec
import proofs.«180070_j13675175870684_1_alg».proof.Proof.LibDenseLayers
import proofs.«180070_j13675175870684_1_alg».proof.Proof.LibMoments

noncomputable section

namespace Cert.Enc.RefSide

open Cert.ReferenceIdeal Cert.ReferenceIdeal.Gen Cert.ReferenceIdeal.Read Idealize.ShloMosaic Idealize.ShloMosaic.ValueIdx
open Cert.Sage Cert.Encoder Cert.LibMoments
open scoped BigOperators

open Cert.LibDenseLayers

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-- The product with Wm1 plus the bias broadcast twice is the affine layer of the second layer's output. -/
theorem m_aff1 : val_main_v109 (F := Ideal) x0 x1 x2 x3 x4 x5 x6 x7 x8 x9 x10 x11 x12 x13 = affine (val_main_v105 (F := Ideal) x0 x1 x2 x3 x4 x5 x6 x7 x8 x9 x10 x11) x12 x13 := by
  unfold val_main_v109 val_main_v106 val_main_v108 val_main_v107
  generalize val_main_v105 (F := Ideal) x0 x1 x2 x3 x4 x5 x6 x7 x8 x9 x10 x11 = h
  exact affine_of_dot (by decide) dot_S50000x128_S128x128_S50000x128_1_0_0_1_n_n rfl rfl lhs_main_v106_0 lhs_main_v106_1 rhs_main_v106_0 rhs_main_v106_1
    bcast_S128_S1x128_1 bcast_S1x128_S50000x128_0_1 h x12 x13

/-- The maximum with the broadcast zero word is the rectifier. -/
theorem m_relu : val_main_v110 (F := Ideal) x0 x1 x2 x3 x4 x5 x6 x7 x8 x9 x10 x11 x12 x13 = relu (val_main_v109 (F := Ideal) x0 x1 x2 x3 x4 x5 x6 x7 x8 x9 x10 x11 x12 x13) := by
  funext i
  rw [val_main_v110_apply, val_main_call2_v0_apply, val_main_call2_cst_apply]
  rfl

/-- The product with Wm2 plus the bias broadcast twice is the affine layer of the rectified values. -/
theorem m_aff2 : val_main_v114 (F := Ideal) x0 x1 x2 x3 x4 x5 x6 x7 x8 x9 x10 x11 x12 x13 x14 x15 = affine (val_main_v110 (F := Ideal) x0 x1 x2 x3 x4 x5 x6 x7 x8 x9 x10 x11 x12 x13) x14 x15 := by
  unfold val_main_v114 val_main_v111 val_main_v113 val_main_v112
  generalize val_main_v110 (F := Ideal) x0 x1 x2 x3 x4 x5 x6 x7 x8 x9 x10 x11 x12 x13 = h
  exact affine_of_dot (by decide) dot_S50000x128_S128x128_S50000x128_1_0_0_1_n_n rfl rfl lhs_main_v111_0 lhs_main_v111_1 rhs_main_v111_0 rhs_main_v111_1
    bcast_S128_S1x128_1 bcast_S1x128_S50000x128_0_1 h x14 x15

/-- The reference's result: the first layer's output plus the perceptron of the second layer's output. -/
theorem mlp_eq : val_main_v115 (F := Ideal) x0 x1 x2 x3 x4 x5 x6 x7 x8 x9 x10 x11 x12 x13 x14 x15 = mlp (val_main_v105 (F := Ideal) x0 x1 x2 x3 x4 x5 x6 x7 x8 x9 x10 x11) x12 x13 x14 x15 (val_main_v54 (F := Ideal) x0 x1 x2 x3 x4 x5 x6) := by
  funext i
  rw [val_main_v115_apply, m_aff2, m_relu, m_aff1]
  rfl

end Cert.Enc.RefSide

end
-- ==== Proof.RefValue.lean ====
/-
  The reference program's result is the specification's two-pass encoder.

  The sixteen arguments are the node features, the edge list and fourteen weight arrays; the weights are collected into
  the specification's record in the program's order. The program is the first layer (neighbour aggregation,
  pre-activation, two-pass column normalisation, rectifier), the second layer of the same form applied to the first
  layer's output, and the residual perceptron. Each of the three pieces is the specification's (the three imported
  modules), so the composition is the specification's network; no entry needs to be finite for this.
-/
import proofs.«180070_j13675175870684_1_alg».proof.Proof.Gen.ReferenceIdeal.Read
import proofs.«180070_j13675175870684_1_alg».proof.Proof.RefAgg
import proofs.«180070_j13675175870684_1_alg».proof.Proof.Spec
import proofs.«180070_j13675175870684_1_alg».proof.Proof.LibSageLayers
import proofs.«180070_j13675175870684_1_alg».proof.Proof.LibDenseLayers
import proofs.«180070_j13675175870684_1_alg».proof.Proof.LibPlainDot
import proofs.«180070_j13675175870684_1_alg».proof.Proof.RefLayer1
import proofs.«180070_j13675175870684_1_alg».proof.Proof.RefLayer2
import proofs.«180070_j13675175870684_1_alg».proof.Proof.RefMlp

noncomputable section

namespace Cert.Enc.RefSide

open Cert.ReferenceIdeal Cert.ReferenceIdeal.Gen Cert.ReferenceIdeal.Read Idealize.ShloMosaic Idealize.ShloMosaic.ValueIdx
open Cert.Sage Cert.Encoder Cert.LibMoments
open scoped BigOperators

open Idealize.ShloMosaic.TcCoe Idealize.SL.Sem

/-- The encoder's weights from the fourteen weight arguments, in the program's order. -/
def paramsOf (a2 : Mat 128 128) (a3 : Vc 128) (a4 : Mat 128 128) (a5 a6 : Vc 128) (a7 : Mat 128 128) (a8 : Vc 128)
    (a9 : Mat 128 128) (a10 a11 : Vc 128) (a12 : Mat 128 128) (a13 : Vc 128) (a14 : Mat 128 128) (a15 : Vc 128) :
    Params 128 where
  W1l := a2
  b1 := a3
  W1r := a4
  g1 := a5
  be1 := a6
  W2l := a7
  b2 := a8
  W2r := a9
  g2 := a10
  be2 := a11
  Wm1 := a12
  bm1 := a13
  Wm2 := a14
  bm2 := a15

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-- The reference's result as a function of the sixteen arguments is the two-pass encoder. -/
theorem value_eq :
    val_main_v115 (F := Ideal) x0 x1 x2 x3 x4 x5 x6 x7 x8 x9 x10 x11 x12 x13 x14 x15
      = netR (aggR x1) x0 (paramsOf x2 x3 x4 x5 x6 x7 x8 x9 x10 x11 x12 x13 x14 x15) := by
  rw [mlp_eq, layer2_eq, layer1_eq]
  rfl

/-- The term the reference's run states for its result, from any memory: the two-pass encoder of the arguments' contents. -/
theorem result_eq (m : (ℓ : Loc nD τ sig) → Buf (Elt Ideal) ℓ) (c : Dev nD) :
    Cert.ReferenceIdeal.Value.res_main_v115 (F := Ideal) m c
      = netR (aggR (m ((c.tc : Thread nD τ).loc main_arg1))) (m ((c.tc : Thread nD τ).loc main_arg0))
          (paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :=
  (val_main_v115_eq m c).trans (value_eq _ _ _ _ _ _ _ _ _ _ _ _ _ _ _ _)

end Cert.Enc.RefSide

end
-- ==== Proof.Law.lean ====
/-
  The one-pass and the two-pass column normalisation agree on matrices of real numbers, and so do the two encoders
  built from them.

  For a column X₁ … Xₙ of real numbers with mean m = (Σ X)/n, expanding the square gives
      (Σ (X − m)²)/n = (Σ X²)/n − m²,
  so the variance from the squared deviations is the variance from the sum and the sum of squares. (On extended reals
  this needs the entries real: a difference of infinities is a junk value.) The two groupings of the scaled deviation,
  g · ((y − m) · r) and (g · (y − m)) · r, agree for all extended reals since their multiplication is associative.

  Realness is carried through the layers: sums and products of reals are real, so the pre-activation of real
  matrices is real; the mean is a real divided by the nonzero real 50000; the variance plus a positive real is a
  positive real, so its reciprocal square root is real; and the larger of two reals is real. Hence the first layer's
  output is real, the second layer's pre-activation is real, and the two encoders agree layer by layer.
-/
import proofs.«180070_j13675175870684_1_alg».proof.Proof.Spec
import proofs.«180070_j13675175870684_1_alg».proof.Proof.LibMoments

noncomputable section

namespace Cert.Encoder

open Idealize.ShloMosaic Idealize.ShloMosaic.ValueIdx Cert.Sage Cert.LibMoments
open scoped BigOperators

/-- Every entry of every weight array is a real number. -/
def Params.IsReal {C : ℕ} (P : Params C) : Prop :=
  (∀ i, IsR (P.W1l i)) ∧ (∀ i, IsR (P.b1 i)) ∧ (∀ i, IsR (P.W1r i)) ∧ (∀ i, IsR (P.g1 i)) ∧ (∀ i, IsR (P.be1 i)) ∧
  (∀ i, IsR (P.W2l i)) ∧ (∀ i, IsR (P.b2 i)) ∧ (∀ i, IsR (P.W2r i)) ∧ (∀ i, IsR (P.g2 i)) ∧ (∀ i, IsR (P.be2 i)) ∧
  (∀ i, IsR (P.Wm1 i)) ∧ (∀ i, IsR (P.bm1 i)) ∧ (∀ i, IsR (P.Wm2 i)) ∧ (∀ i, IsR (P.bm2 i))

/-! ## The words are real numbers -/

theorem nW_eq : nW = ((50000 : ℝ) : EReal) := ofBits_50000

theorem nW_isR : IsR nW := ⟨50000, nW_eq⟩

theorem nW_ne_zero : nW ≠ 0 := by
  rw [nW_eq]
  intro h
  have h' : (50000 : ℝ) = 0 := by exact_mod_cast h
  norm_num at h'

theorem zW_isR : IsR zW := ⟨0, by rw [EReal.coe_zero]; exact ofBits_zero⟩

/-! ## Realness of the pre-activation -/

/-- The pre-activation of real matrices, weights and bias is real: sums of products of reals, plus a real. -/
theorem pre_real {R C : ℕ} (a x : Mat R C) (Wl : Mat C C) (b : Vc C) (Wr : Mat C C)
    (ha : ∀ i, IsR (a i)) (hx : ∀ i, IsR (x i)) (hWl : ∀ i, IsR (Wl i)) (hb : ∀ i, IsR (b i)) (hWr : ∀ i, IsR (Wr i)) :
    ∀ i, IsR (pre a x Wl b Wr i) := by
  intro i
  show IsR (((∑ k : Fin C, a (ix2 (i 0) k) * Wl (ix2 k (i 1))) + ∑ k : Fin C, x (ix2 (i 0) k) * Wr (ix2 k (i 1)))
    + b (ix1 (i 1)))
  exact ((IsR.sum _ fun k => (ha _).mul (hWl _)).add (IsR.sum _ fun k => (hx _).mul (hWr _))).add (hb _)

/-! ## The two variances -/

/-- On a column of reals the variance from the squared deviations is the variance from the sum and the sum of squares. -/
theorem var2_eq_var1 {C : ℕ} (A : Mat 50000 C) (hA : ∀ i, IsR (A i)) (q : Fin C) : var2 A q = var1 A q :=
  variance_isR_of_eq 50000 (fun p => A (ix2 p q)) (fun p => hA _) nW 50000 nW_eq (by norm_num) (by norm_num)

/-- The two groupings of the scaled deviation agree: multiplication of extended reals is associative. -/
theorem normK_eq_normR (y μ v g b : EReal) : normK y μ v g b = normR y μ v g b := by
  unfold normK normR
  rw [mul_assoc]

/-- The one-pass and the two-pass normalised layers agree on a matrix of reals. -/
theorem bnK_eq_bnR {C : ℕ} (A : Mat 50000 C) (hA : ∀ i, IsR (A i)) (g b : Vc C) : bnK A g b = bnR A g b := by
  funext i
  show normK (A i) (mean1 A (i 1)) (var1 A (i 1)) (g (ix1 (i 1))) (b (ix1 (i 1)))
    = normR (A i) (mean1 A (i 1)) (var2 A (i 1)) (g (ix1 (i 1))) (b (ix1 (i 1)))
  rw [var2_eq_var1 A hA (i 1)]
  exact normK_eq_normR _ _ _ _ _

/-! ## Realness of the normalised layer -/

/-- The mean of a column of reals is real. -/
theorem mean1_real {C : ℕ} (A : Mat 50000 C) (hA : ∀ i, IsR (A i)) (q : Fin C) : IsR (mean1 A q) :=
  (IsR.sum _ fun p => hA _).div_real nW nW_isR nW_ne_zero

/-- The reciprocal square root of (mean squared deviation plus a positive real) is real, the divisor and the offset
    being any extended reals known to be a positive real each. -/
theorem rsqrt_real_of_eq (n : ℕ) (X : Fin n → EReal) (hX : ∀ p, IsR (X p)) (c : EReal) (N : ℝ) (hc : c = (N : EReal))
    (hN : 0 < N) (ε : EReal) (e : ℝ) (hε : ε = (e : EReal)) (he : 0 < e) :
    IsR (Ideal.rsqrt (Ideal.div (∑ p, (X p - Ideal.div (∑ q, X q) c) * (X p - Ideal.div (∑ q, X q) c)) c + ε)) := by
  subst hc; subst hε
  exact rsqrt_real n X hX N hN e he

/-- The reciprocal root of a column's two-pass variance plus the offset word is real. -/
theorem rsqrt_var2_real {C : ℕ} (A : Mat 50000 C) (hA : ∀ i, IsR (A i)) (q : Fin C) :
    IsR (Ideal.rsqrt (var2 A q + eW)) := by
  obtain ⟨e, he, hE⟩ := ofBits_eps
  exact rsqrt_real_of_eq 50000 (fun p => A (ix2 p q)) (fun p => hA _) nW 50000 nW_eq (by norm_num) eW e hE he

/-- The two-pass normalised layer of a real matrix with real scale and shift is real. -/
theorem bnR_real {C : ℕ} (A : Mat 50000 C) (hA : ∀ i, IsR (A i)) (g b : Vc C) (hg : ∀ i, IsR (g i))
    (hb : ∀ i, IsR (b i)) : ∀ i, IsR (bnR A g b i) := by
  intro i
  show IsR (max (g (ix1 (i 1)) * (A i - mean1 A (i 1)) * Ideal.rsqrt (var2 A (i 1) + eW) + b (ix1 (i 1))) zW)
  exact ((((hg _).mul ((hA i).sub (mean1_real A hA (i 1)))).mul (rsqrt_var2_real A hA (i 1))).add (hb _)).max zW_isR

/-! ## The two encoders -/

/-- With a neighbour aggregation that keeps real matrices real, real node features and real weights, the encoder with
    one-pass variances is the encoder with two-pass variances. -/
theorem netK_eq_netR {C : ℕ} (agg : Mat 50000 C → Mat 50000 C)
    (hagg : ∀ y : Mat 50000 C, (∀ i, IsR (y i)) → ∀ i, IsR (agg y i))
    (x : Mat 50000 C) (hx : ∀ i, IsR (x i)) (P : Params C) (hP : P.IsReal) : netK agg x P = netR agg x P := by
  obtain ⟨hW1l, hb1, hW1r, hg1, hbe1, hW2l, hb2, hW2r, hg2, hbe2, hWm1, hbm1, hWm2, hbm2⟩ := hP
  have hA1 : ∀ i, IsR (pre (agg x) x P.W1l P.b1 P.W1r i) := pre_real _ _ _ _ _ (hagg x hx) hx hW1l hb1 hW1r
  have h1 : layer1K agg x P = layer1R agg x P := bnK_eq_bnR _ hA1 _ _
  have r1 : ∀ i, IsR (layer1R agg x P i) := bnR_real _ hA1 _ _ hg1 hbe1
  have hA2 : ∀ i, IsR (pre (agg (layer1R agg x P)) (layer1R agg x P) P.W2l P.b2 P.W2r i) :=
    pre_real _ _ _ _ _ (hagg _ r1) r1 hW2l hb2 hW2r
  have h2 : layer2K agg x P = layer2R agg x P := by
    unfold layer2K layer2R
    rw [h1]
    exact bnK_eq_bnR _ hA2 _ _
  unfold netK netR
  rw [h1, h2]

end Cert.Encoder

end
-- ==== Proof.Finite.lean ====
/-
  From the precondition "every float argument is finite" to "every entry of every float argument is a real number".

  The precondition is the conjunction, over the fifteen float arguments, of "all entries x satisfy |x| < +∞", each
  "all" a reduction by "and" from the constant true, the whole stated to be true. A conjunction that is true has both
  parts true; a reduction by "and" that is true met only true entries; and for an extended real x, |x| = max x (−x)
  below +∞ says x is neither +∞ nor −∞, that is, x is a real number.
-/
import proofs.«180070_j13675175870684_1_alg».proof.Pre_finite_inputs
import proofs.«180070_j13675175870684_1_alg».proof.Proof.LibMoments
import Idealize.ShloMosaic.Lib.ReduceAll
import Idealize.ShloMosaic.Lib.ValueIdx

noncomputable section

namespace Cert.Enc.Finite

open Idealize.ShloMosaic Idealize.ShloMosaic.ValueIdx Cert.LibMoments Cert.Pre_finite_inputs

/-- The scalar shape has one index. -/
instance : Subsingleton S_.Idx := ⟨fun a b => funext fun d => d.elim0⟩

/-- The single-precision word 0x7F800000 is +∞. -/
theorem ofBits_inf : Ideal.ofBits .f32 0x7F800000#32 = (⊤ : EReal) := by
  simp [Ideal.ofBits, Ideal.ieee]

/-- An extended real whose absolute value max x (−x) is below +∞ is a real number. -/
theorem isR_of_abs_lt (x : EReal) (h : Ideal.cmp .olt (max x (-x)) (Ideal.ofBits .f32 0x7F800000#32) = 1#1) : IsR x := by
  rw [ofBits_inf] at h
  have hlt : max x (-x) < ⊤ := by
    by_contra hn
    simp [Ideal.cmp, hn] at h
  obtain ⟨h1, h2⟩ := max_lt_iff.1 hlt
  induction x using EReal.rec with
  | bot => exact absurd h2 (by simp)
  | coe r => exact ⟨r, rfl⟩
  | top => exact absurd h1 (by simp)

/-- "All entries have absolute value below +∞", as the reduction by "and" of the comparisons, true: every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : ∀ i, IsR (x i) := by
  intro i
  have hi := Host.reduce_andi_all _ _ hr hu ix0 h i
  exact isR_of_abs_lt (x i) hi

/-- A conjunction of two scalar truth values that is true has both true. -/
theorem andi_ix0 (a b : IVec S_ 1) (h : andi a b ix0 = 1#1) : a ix0 = 1#1 ∧ b ix0 = 1#1 :=
  IntOp.andi_eq_one.1 h

variable [Cert.Pre_finite_inputs.Facts]

/-- The precondition, true, makes every entry of each of the fifteen float arguments a real number. -/
theorem real_of_pre (a0 : FVec Ideal S50000x128 .f32) (a1 : IVec S2x800000 32) (a2 : FVec Ideal S128x128 .f32)
    (a3 : FVec Ideal S128 .f32) (a4 : FVec Ideal S128x128 .f32) (a5 : FVec Ideal S128 .f32) (a6 : FVec Ideal S128 .f32)
    (a7 : FVec Ideal S128x128 .f32) (a8 : FVec Ideal S128 .f32) (a9 : FVec Ideal S128x128 .f32) (a10 : FVec Ideal S128 .f32)
    (a11 : FVec Ideal S128 .f32) (a12 : FVec Ideal S128x128 .f32) (a13 : FVec Ideal S128 .f32) (a14 : FVec Ideal S128x128 .f32)
    (a15 : FVec Ideal S128 .f32)
    (h : Cert.Pre_finite_inputs.fn (F := Ideal) a0 a1 a2 a3 a4 a5 a6 a7 a8 a9 a10 a11 a12 a13 a14 a15 = fun _ => 1#1) :
    (∀ i, IsR (a0 i)) ∧ (∀ i, IsR (a2 i)) ∧ (∀ i, IsR (a3 i)) ∧ (∀ i, IsR (a4 i)) ∧ (∀ i, IsR (a5 i)) ∧ (∀ i, IsR (a6 i)) ∧
    (∀ i, IsR (a7 i)) ∧ (∀ i, IsR (a8 i)) ∧ (∀ i, IsR (a9 i)) ∧ (∀ i, IsR (a10 i)) ∧ (∀ i, IsR (a11 i)) ∧ (∀ i, IsR (a12 i)) ∧
    (∀ i, IsR (a13 i)) ∧ (∀ i, IsR (a14 i)) ∧ (∀ i, IsR (a15 i)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, h15⟩ := andi_ix0 _ _ h0
  obtain ⟨h0, h14⟩ := andi_ix0 _ _ h0
  obtain ⟨h0, h13⟩ := andi_ix0 _ _ h0
  obtain ⟨h0, h12⟩ := andi_ix0 _ _ h0
  obtain ⟨h0, h11⟩ := andi_ix0 _ _ h0
  obtain ⟨h0, h10⟩ := andi_ix0 _ _ h0
  obtain ⟨h0, h9⟩ := andi_ix0 _ _ h0
  obtain ⟨h0, h8⟩ := andi_ix0 _ _ h0
  obtain ⟨h0, h7⟩ := andi_ix0 _ _ h0
  obtain ⟨h0, h6⟩ := andi_ix0 _ _ h0
  obtain ⟨h0, h5⟩ := andi_ix0 _ _ h0
  obtain ⟨h0, h4⟩ := andi_ix0 _ _ h0
  obtain ⟨h0, h3⟩ := andi_ix0 _ _ h0
  obtain ⟨h0, h2⟩ := andi_ix0 _ _ h0
  exact ⟨all_real a0 _ _ _ h0, all_real a2 _ _ _ h2, all_real a3 _ _ _ h3, all_real a4 _ _ _ h4, all_real a5 _ _ _ h5,
    all_real a6 _ _ _ h6, all_real a7 _ _ _ h7, all_real a8 _ _ _ h8, all_real a9 _ _ _ h9, all_real a10 _ _ _ h10,
    all_real a11 _ _ _ h11, all_real a12 _ _ _ h12, all_real a13 _ _ _ h13, all_real a14 _ _ _ h14, all_real a15 _ _ _ h15⟩

end Cert.Enc.Finite

end
-- ==== Proof.KAgg.lean ====
/-
  The neighbour aggregation of the kernel program, as one function of the edge list and the node features.

  The two rows of the edge list are read as vectors of node numbers. The rows of x named by the first index row (a
  negative number counted from the end of the array) are gathered and summed into the nodes the second index row names;
  ones are summed the same way to count the edges into each node; the sums are divided by the count, or by one where
  no edge arrives. Every extent and every dimension record is the kernel program's own.
-/
import proofs.«180070_j13675175870684_1_alg».proof.Proof.Gen.KernelIdeal
import proofs.«180070_j13675175870684_1_alg».proof.Proof.Spec

noncomputable section

namespace Cert.Enc.KChain

open Cert.KernelIdeal Cert.KernelIdeal.Gen Idealize.ShloMosaic Cert.Sage

/-- The first row of the edge list, as a vector of node numbers. -/
def idxRow0 (e : IVec S2x800000 32) : IVec S800000 32 :=
  shapeCast S800000 (extractStridedSlice S1x800000 ![0, 0] e slices_S2x800000_S1x800000_0_0) shapeCasts_S1x800000_S800000
/-- The second row of the edge list. -/
def idxRow1 (e : IVec S2x800000 32) : IVec S800000 32 :=
  shapeCast S800000 (extractStridedSlice S1x800000 ![1, 0] e slices_S2x800000_S1x800000_1_0) shapeCasts_S1x800000_S800000

/-- The sums, by the node in the second index row, of the rows of x the first index row names (a negative number
    counted from the end). -/
def aggNum (v1 v3 : IVec S800000 32) (x : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 v3)
    (Host.gather gather_S50000x128_S800000x1_S800000x128_1_0_n_n_0_1_1128 x
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1)))

/-- The number of edges into each node, or one where there is none. -/
def aggDeg (v3 : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 v3)
      (broadcastInDim S800000 ![] bcast_S_S800000 (constant (F := Ideal) S_ .f32 0x3F800000#32)))
    (broadcastInDim S50000 ![] bcast_S_S50000 (constant (F := Ideal) S_ .f32 0x3F800000#32))

/-- The mean of the named rows by node, from the two index rows. -/
def aggCore (v1 v3 : IVec S800000 32) (x : FVec Ideal S50000x128 .f32) : FVec Ideal S50000x128 .f32 :=
  Host.divf (aggNum v1 v3 x)
    (broadcastInDim S50000x128 ![0, 1] bcast_S50000x1_S50000x128_0_1
      (broadcastInDim S50000x1 ![0] bcast_S50000_S50000x1_0 (aggDeg v3)))

/-- The neighbour aggregation of the kernel program: for each node the mean, over the edges into it, of the source
    rows of x. -/
def aggK (e : IVec S2x800000 32) (x : Mat 50000 128) : Mat 50000 128 :=
  aggCore (idxRow0 e) (idxRow1 e) x

end Cert.Enc.KChain
end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«180070_j13675175870684_1_alg».proof.Proof.LibMatmulRows
import proofs.«180070_j13675175870684_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.KChain.lean ====
/-
  The host stretches of the kernel program and the chain from the launch memory to the result.

  The kernel program alternates stretches of whole-array operations with five tiled regions. Reading each buffer a
  region takes as a function of what the buffers held at the previous boundary, and carrying along the buffers nobody
  writes in between, the result buffer is the two-layer encoder of the specification:

  * the first stretch computes the neighbour aggregation a = mean over incoming edges of x[src] (a gather, two
    accumulating scatters by destination, a division by max(degree, 1)) and lays the first bias as one row;
    the first region returns the pre-activation A = a·Wl + x·Wr + b with its column sums and sums of squares
    (each added to a zero word);
  * the second stretch divides the sums by the word of 50000: the mean row is (0 + Σ A)/n = (Σ A)/n and the variance
    row (0 + Σ A²)/n - mean² ; the second region normalises, scales, shifts and rectifies: this is the first layer;
  * the third and fourth stretches and regions repeat this on the first layer's output, with the SAME two index rows
    (written once by the first stretch and never again);
  * the last region adds the first layer's output to the two-layer perceptron of the second layer's output.
  Each region's value is taken as a hypothesis, in the shape its own proof gives.
-/
import proofs.«180070_j13675175870684_1_alg».proof.Proof.Gen.KernelIdeal.Frame
import Idealize.ShloMosaic.Lib.StableHlo.Run
import Idealize.ShloMosaic.Lib.ValueIdx
import Idealize.ShloMosaic.Lib.ValueLayout
import proofs.«180070_j13675175870684_1_alg».proof.Proof.Spec
import proofs.«180070_j13675175870684_1_alg».proof.Proof.KAgg
import proofs.«180070_j13675175870684_1_alg».proof.Proof.LibRowBias
import proofs.«180070_j13675175870684_1_alg».proof.Proof.LibMoments
import proofs.«180070_j13675175870684_1_alg».proof.Proof.LibRealArrays

set_option maxRecDepth 16384

noncomputable section

namespace Cert.Enc.KChain

open Cert.KernelIdeal Cert.KernelIdeal.Gen Idealize.ShloMosaic Idealize.ShloMosaic.TcCoe Idealize.SL.Sem
open Idealize.ShloMosaic.StableHlo Idealize.ShloMosaic.ValueIdx Cert.LibMoments
open Cert.Encoder Cert.Sage Cert.LibRowBias

/-! ## Words and rows: the scalar steps -/

/-- A vector laid as one row, read along that row, is the vector. -/
theorem castRow (b : FVec Ideal S128 .f32) (hc : S128.ShapeCasts S1x128) :
    (fun q : Fin 128 => shapeCast S1x128 b hc (ix2 (0 : Fin 1) q)) = fun q => b (ix1 q) :=
  funext fun q => shapeCast_a_1a_apply b hc 0 q

/-- The row of column sums (each added to a zero word) divided by the word of 50000 is the row of column means. -/
theorem meanRow (A : Mat 50000 128) (s : FVec Ideal S1x128 .f32) (hs : s = fun i => zW + colSum A (i 1))
    (hb : S_.BroadcastsInDim S1x128 (![] : Fin 0 → Fin S1x128.rank)) :
    (fun q : Fin 128 => Host.divf s (broadcastInDim S1x128 ![] hb (constant (F := Ideal) S_ .f32 0x47435000#32)) (ix2 (0 : Fin 1) q))
      = mean1 A := by
  subst hs
  funext q
  show Ideal.div (zW + colSum A q) nW = Ideal.div (colSum A q) nW
  rw [show zW = 0 from ofBits_zero, zero_add]

/-- The row of column sums of squares over the word of 50000, minus the square of the mean row, is the row of
    one-pass variances. -/
theorem varRow (A : Mat 50000 128) (s1 s2 : FVec Ideal S1x128 .f32) (hs1 : s1 = fun i => zW + colSum A (i 1))
    (hs2 : s2 = fun i => zW + colSq A (i 1))
    (hb hb' : S_.BroadcastsInDim S1x128 (![] : Fin 0 → Fin S1x128.rank)) :
    (fun q : Fin 128 => subf (Host.divf s2 (broadcastInDim S1x128 ![] hb' (constant (F := Ideal) S_ .f32 0x47435000#32)))
        (mulf (Host.divf s1 (broadcastInDim S1x128 ![] hb (constant (F := Ideal) S_ .f32 0x47435000#32)))
          (Host.divf s1 (broadcastInDim S1x128 ![] hb (constant (F := Ideal) S_ .f32 0x47435000#32)))) (ix2 (0 : Fin 1) q))
      = var1 A := by
  subst hs1; subst hs2
  funext q
  show Ideal.div (zW + colSq A q) nW - Ideal.div (zW + colSum A q) nW * Ideal.div (zW + colSum A q) nW
    = Ideal.div (colSq A q) nW - mean1 A q * mean1 A q
  rw [show zW = 0 from ofBits_zero, zero_add, zero_add]
  rfl

/-- Column normalisation is a function of its five arguments. -/
theorem normWith_congr {A A' : Mat 50000 128} {μ μ' v v' g g' b b' : Fin 128 → EReal} (hA : A = A') (hμ : μ = μ') (hv : v = v')
    (hg : g = g') (hb : b = b') : normWith A μ v g b = normWith A' μ' v' g' b' := by
  subst hA; subst hμ; subst hv; subst hg; subst hb; rfl

/-! ## Congruences -/

theorem pre_congr {a a' x x' : Mat 50000 128} {Wl Wl' Wr Wr' : Mat 128 128} {b b' : Vc 128} (ha : a = a') (hx : x = x')
    (hWl : Wl = Wl') (hb : b = b') (hWr : Wr = Wr') : pre a x Wl b Wr = pre a' x' Wl' b' Wr' := by
  subst ha; subst hx; subst hWl; subst hb; subst hWr; rfl

theorem mlp_congr {x2 x2' x1 x1' : Mat 50000 128} {W1 W1' W2 W2' : Mat 128 128} {b1 b1' b2 b2' : Vc 128} (h2 : x2 = x2')
    (hW1 : W1 = W1') (hb1 : b1 = b1') (hW2 : W2 = W2') (hb2 : b2 = b2') (h1 : x1 = x1') :
    mlp x2 W1 b1 W2 b2 x1 = mlp x2' W1' b1' W2' b2' x1' := by
  subst h2; subst hW1; subst hb1; subst hW2; subst hb2; subst h1; rfl

theorem aggCore_congr {v1 v1' v3 v3' : IVec S800000 32} {x x' : FVec Ideal S50000x128 .f32} (h1 : v1 = v1') (h3 : v3 = v3')
    (hx : x = x') : aggCore v1 v3 x = aggCore v1' v3' x' := by
  subst h1; subst h3; subst hx; rfl

/-- The sums row of a matrix is a function of the matrix. -/
theorem sumRow_congr {A A' : Mat 50000 128} (h : A = A') :
    ((fun i => zW + colSum A (i 1)) : FVec Ideal S1x128 .f32) = fun i => zW + colSum A' (i 1) := by subst h; rfl
theorem sqRow_congr {A A' : Mat 50000 128} (h : A = A') :
    ((fun i => zW + colSq A (i 1)) : FVec Ideal S1x128 .f32) = fun i => zW + colSq A' (i 1) := by subst h; rfl

/-- A one-row matrix read along its row, as a function of the matrix. -/
theorem readRow_congr {s s' : FVec Ideal S1x128 .f32} (h : s = s') :
    (fun q : Fin 128 => s (ix2 (0 : Fin 1) q)) = fun q => s' (ix2 (0 : Fin 1) q) := by subst h; rfl

/-! ## The program: the boundaries' contents, stretch by stretch and region by region -/

variable (m : (ℓ : Loc nD τ sig) → Buf (Elt Ideal) ℓ) (ρ : Dev nD → PrngReg) (c : Dev nD)

/-- The weights: the fourteen weight arguments as launched. -/
def kparams : Params 128 :=
  ⟨m ((c : Thread nD τ).loc main_arg2), m ((c : Thread nD τ).loc main_arg3), m ((c : Thread nD τ).loc main_arg4),
   m ((c : Thread nD τ).loc main_arg5), m ((c : Thread nD τ).loc main_arg6), m ((c : Thread nD τ).loc main_arg7),
   m ((c : Thread nD τ).loc main_arg8), m ((c : Thread nD τ).loc main_arg9), m ((c : Thread nD τ).loc main_arg10),
   m ((c : Thread nD τ).loc main_arg11), m ((c : Thread nD τ).loc main_arg12), m ((c : Thread nD τ).loc main_arg13),
   m ((c : Thread nD τ).loc main_arg14), m ((c : Thread nD τ).loc main_arg15)⟩

/-- No operation of the stretch writes the buffer: every operation writes one buffer, another one. -/
local macro "no_write " ops:ident : tactic =>
  `(tactic| exact List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-! ### A buffer no operation of a stretch writes keeps its contents -/

theorem keep0 (r : Ref sig .tc) (h : ∀ op ∈ (hostOps0 : List (HloOp τ sig (Elt Ideal))), Proc.devRef .tc r ∉ op.writes) :
    W1 m ρ c (Proc.devRef .tc r) = m ((c : Thread nD τ).loc r) := StableHlo.after_of_forall_not_mem _ _ h
theorem keep1 (r : Ref sig .tc) (h : ∀ op ∈ (hostOps1 : List (HloOp τ sig (Elt Ideal))), Proc.devRef .tc r ∉ op.writes) :
    W3 m ρ c (Proc.devRef .tc r) = W2 m ρ c (Proc.devRef .tc r) := StableHlo.after_of_forall_not_mem _ _ h
theorem keep2 (r : Ref sig .tc) (h : ∀ op ∈ (hostOps2 : List (HloOp τ sig (Elt Ideal))), Proc.devRef .tc r ∉ op.writes) :
    W5 m ρ c (Proc.devRef .tc r) = W4 m ρ c (Proc.devRef .tc r) := StableHlo.after_of_forall_not_mem _ _ h
theorem keep3 (r : Ref sig .tc) (h : ∀ op ∈ (hostOps3 : List (HloOp τ sig (Elt Ideal))), Proc.devRef .tc r ∉ op.writes) :
    W7 m ρ c (Proc.devRef .tc r) = W6 m ρ c (Proc.devRef .tc r) := StableHlo.after_of_forall_not_mem _ _ h
theorem keep4 (r : Ref sig .tc) (h : ∀ op ∈ (hostOps4 : List (HloOp τ sig (Elt Ideal))), Proc.devRef .tc r ∉ op.writes) :
    W9 m ρ c (Proc.devRef .tc r) = W8 m ρ c (Proc.devRef .tc r) := StableHlo.after_of_forall_not_mem _ _ h

/-! ### The first stretch -/

theorem W1_v1 : (W1 m ρ c (Proc.devRef .tc main_v1) : IVec S800000 32) = idxRow0 (m ((c : Thread nD τ).loc main_arg1)) := by
  show StableHlo.after hostOps0 (W0 m ρ c) (Proc.devRef .tc main_v1) = _
  after_results_simp <;> rfl

theorem W1_v3 : (W1 m ρ c (Proc.devRef .tc main_v3) : IVec S800000 32) = idxRow1 (m ((c : Thread nD τ).loc main_arg1)) := by
  show StableHlo.after hostOps0 (W0 m ρ c) (Proc.devRef .tc main_v3) = _
  after_results_simp <;> rfl

theorem W1_v22 : (W1 m ρ c (Proc.devRef .tc main_v22) : FVec Ideal S50000x128 .f32)
    = aggK (m ((c : Thread nD τ).loc main_arg1)) (m ((c : Thread nD τ).loc main_arg0)) := by
  show StableHlo.after hostOps0 (W0 m ρ c) (Proc.devRef .tc main_v22) = _
  after_results_simp <;> rfl

theorem W1_v23 : (W1 m ρ c (Proc.devRef .tc main_v23) : FVec Ideal S1x128 .f32)
    = shapeCast S1x128 (m ((c : Thread nD τ).loc main_arg3)) shapeCasts_S128_S1x128 := by
  show StableHlo.after hostOps0 (W0 m ρ c) (Proc.devRef .tc main_v23) = _
  after_results_simp <;> rfl

/-! ### The second stretch: the mean and variance rows, the scale and shift rows -/

theorem W3_v26 : (W3 m ρ c (Proc.devRef .tc main_v26) : FVec Ideal S1x128 .f32)
    = Host.divf (W2 m ρ c (Proc.devRef .tc main_v24_1))
        (broadcastInDim S1x128 ![] bcast_S_S1x128 (constant (F := Ideal) S_ .f32 0x47435000#32)) := by
  show StableHlo.after hostOps1 (W2 m ρ c) (Proc.devRef .tc main_v26) = _
  after_results_simp <;> rfl

theorem W3_v30 : (W3 m ρ c (Proc.devRef .tc main_v30) : FVec Ideal S1x128 .f32)
    = subf (Host.divf (W2 m ρ c (Proc.devRef .tc main_v24_2))
          (broadcastInDim S1x128 ![] bcast_S_S1x128 (constant (F := Ideal) S_ .f32 0x47435000#32)))
        (mulf (Host.divf (W2 m ρ c (Proc.devRef .tc main_v24_1))
            (broadcastInDim S1x128 ![] bcast_S_S1x128 (constant (F := Ideal) S_ .f32 0x47435000#32)))
          (Host.divf (W2 m ρ c (Proc.devRef .tc main_v24_1))
            (broadcastInDim S1x128 ![] bcast_S_S1x128 (constant (F := Ideal) S_ .f32 0x47435000#32)))) := by
  show StableHlo.after hostOps1 (W2 m ρ c) (Proc.devRef .tc main_v30) = _
  after_results_simp <;> rfl

theorem W3_v31 : (W3 m ρ c (Proc.devRef .tc main_v31) : FVec Ideal S1x128 .f32)
    = shapeCast S1x128 (W2 m ρ c (Proc.devRef .tc main_arg5)) shapeCasts_S128_S1x128 := by
  show StableHlo.after hostOps1 (W2 m ρ c) (Proc.devRef .tc main_v31) = _
  after_results_simp <;> rfl

theorem W3_v32 : (W3 m ρ c (Proc.devRef .tc main_v32) : FVec Ideal S1x128 .f32)
    = shapeCast S1x128 (W2 m ρ c (Proc.devRef .tc main_arg6)) shapeCasts_S128_S1x128 := by
  show StableHlo.after hostOps1 (W2 m ρ c) (Proc.devRef .tc main_v32) = _
  after_results_simp <;> rfl

/-! ### The third stretch: the aggregation again, from the same index rows -/

theorem W5_v52 : (W5 m ρ c (Proc.devRef .tc main_v52) : FVec Ideal S50000x128 .f32)
    = aggCore (W4 m ρ c (Proc.devRef .tc main_v1)) (W4 m ρ c (Proc.devRef .tc main_v3)) (W4 m ρ c (Proc.devRef .tc main_v33)) := by
  show StableHlo.after hostOps2 (W4 m ρ c) (Proc.devRef .tc main_v52) = _
  after_results_simp <;> rfl

theorem W5_v53 : (W5 m ρ c (Proc.devRef .tc main_v53) : FVec Ideal S1x128 .f32)
    = shapeCast S1x128 (W4 m ρ c (Proc.devRef .tc main_arg8)) shapeCasts_S128_S1x128 := by
  show StableHlo.after hostOps2 (W4 m ρ c) (Proc.devRef .tc main_v53) = _
  after_results_simp <;> rfl

/-! ### The fourth stretch -/

theorem W7_v56 : (W7 m ρ c (Proc.devRef .tc main_v56) : FVec Ideal S1x128 .f32)
    = Host.divf (W6 m ρ c (Proc.devRef .tc main_v54_1))
        (broadcastInDim S1x128 ![] bcast_S_S1x128 (constant (F := Ideal) S_ .f32 0x47435000#32)) := by
  show StableHlo.after hostOps3 (W6 m ρ c) (Proc.devRef .tc main_v56) = _
  after_results_simp <;> rfl

theorem W7_v60 : (W7 m ρ c (Proc.devRef .tc main_v60) : FVec Ideal S1x128 .f32)
    = subf (Host.divf (W6 m ρ c (Proc.devRef .tc main_v54_2))
          (broadcastInDim S1x128 ![] bcast_S_S1x128 (constant (F := Ideal) S_ .f32 0x47435000#32)))
        (mulf (Host.divf (W6 m ρ c (Proc.devRef .tc main_v54_1))
            (broadcastInDim S1x128 ![] bcast_S_S1x128 (constant (F := Ideal) S_ .f32 0x47435000#32)))
          (Host.divf (W6 m ρ c (Proc.devRef .tc main_v54_1))
            (broadcastInDim S1x128 ![] bcast_S_S1x128 (constant (F := Ideal) S_ .f32 0x47435000#32)))) := by
  show StableHlo.after hostOps3 (W6 m ρ c) (Proc.devRef .tc main_v60) = _
  after_results_simp <;> rfl

theorem W7_v61 : (W7 m ρ c (Proc.devRef .tc main_v61) : FVec Ideal S1x128 .f32)
    = shapeCast S1x128 (W6 m ρ c (Proc.devRef .tc main_arg10)) shapeCasts_S128_S1x128 := by
  show StableHlo.after hostOps3 (W6 m ρ c) (Proc.devRef .tc main_v61) = _
  after_results_simp <;> rfl

theorem W7_v62 : (W7 m ρ c (Proc.devRef .tc main_v62) : FVec Ideal S1x128 .f32)
    = shapeCast S1x128 (W6 m ρ c (Proc.devRef .tc main_arg11)) shapeCasts_S128_S1x128 := by
  show StableHlo.after hostOps3 (W6 m ρ c) (Proc.devRef .tc main_v62) = _
  after_results_simp <;> rfl

/-! ### The last stretch -/

theorem W9_v64 : (W9 m ρ c (Proc.devRef .tc main_v64) : FVec Ideal S1x128 .f32)
    = shapeCast S1x128 (W8 m ρ c (Proc.devRef .tc main_arg13)) shapeCasts_S128_S1x128 := by
  show StableHlo.after hostOps4 (W8 m ρ c) (Proc.devRef .tc main_v64) = _
  after_results_simp <;> rfl

theorem W9_v65 : (W9 m ρ c (Proc.devRef .tc main_v65) : FVec Ideal S1x128 .f32)
    = shapeCast S1x128 (W8 m ρ c (Proc.devRef .tc main_arg15)) shapeCasts_S128_S1x128 := by
  show StableHlo.after hostOps4 (W8 m ρ c) (Proc.devRef .tc main_v65) = _
  after_results_simp <;> rfl

/-! ### An argument nobody writes, at the boundaries where it is read -/

theorem arg_W2 (r : Ref sig .tc) (h0 : ∀ op ∈ (hostOps0 : List (HloOp τ sig (Elt Ideal))), Proc.devRef .tc r ∉ op.writes)
    (n0 : ∀ w, Pipeline.arrRef spec0 w ≠ r) : W2 m ρ c (Proc.devRef .tc r) = m ((c : Thread nD τ).loc r) :=
  (W2_of_ne m ρ c r n0).trans (keep0 m ρ c r h0)
theorem arg_W3 (r : Ref sig .tc) (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes) :
    W3 m ρ c (Proc.devRef .tc r) = m ((c : Thread nD τ).loc r) :=
  (keep1 m ρ c r h1).trans (arg_W2 m ρ c r h0 n0)
theorem arg_W4 (r : Ref sig .tc) (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r) : W4 m ρ c (Proc.devRef .tc r) = m ((c : Thread nD τ).loc r) :=
  (W4_of_ne m ρ c r n1).trans (arg_W3 m ρ c r h0 n0 h1)
theorem arg_W5 (r : Ref sig .tc) (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes) :
    W5 m ρ c (Proc.devRef .tc r) = m ((c : Thread nD τ).loc r) :=
  (keep2 m ρ c r h2).trans (arg_W4 m ρ c r h0 n0 h1 n1)
theorem arg_W6 (r : Ref sig .tc) (h0 : ∀ op ∈ (hostOps0 : List (HloOp τ sig (Elt Ideal))), Proc.devRef .tc r ∉ op.writes)
    (n0 : ∀ w, Pipeline.arrRef spec0 w ≠ r)
    (h1 : ∀ op ∈ (hostOps1 : List (HloOp τ sig (Elt Ideal))), Proc.devRef .tc r ∉ op.writes)
    (n1 : ∀ w, Pipeline.arrRef spec1 w ≠ r)
    (h2 : ∀ op ∈ (hostOps2 : List (HloOp τ sig (Elt Ideal))), Proc.devRef .tc r ∉ op.writes)
    (n2 : ∀ w, Pipeline.arrRef spec2 w ≠ r) : W6 m ρ c (Proc.devRef .tc r) = m ((c : Thread nD τ).loc r) :=
  (W6_of_ne m ρ c r n2).trans (arg_W5 m ρ c r h0 n0 h1 n1 h2)

theorem W2_arg5 : W2 m ρ c (Proc.devRef .tc main_arg5) = m ((c : Thread nD τ).loc main_arg5) :=
  arg_W2 m ρ c main_arg5 (by no_write hostOps0) (by decide)
theorem W2_arg6 : W2 m ρ c (Proc.devRef .tc main_arg6) = m ((c : Thread nD τ).loc main_arg6) :=
  arg_W2 m ρ c main_arg6 (by no_write hostOps0) (by decide)
theorem W4_arg8 : W4 m ρ c (Proc.devRef .tc main_arg8) = m ((c : Thread nD τ).loc main_arg8) :=
  arg_W4 m ρ c main_arg8 (by no_write hostOps0) (by decide) (by no_write hostOps1) (by decide)
theorem W5_arg7 : W5 m ρ c (Proc.devRef .tc main_arg7) = m ((c : Thread nD τ).loc main_arg7) :=
  arg_W5 m ρ c main_arg7 (by no_write hostOps0) (by decide) (by no_write hostOps1) (by decide) (by no_write hostOps2)
theorem W5_arg9 : W5 m ρ c (Proc.devRef .tc main_arg9) = m ((c : Thread nD τ).loc main_arg9) :=
  arg_W5 m ρ c main_arg9 (by no_write hostOps0) (by decide) (by no_write hostOps1) (by decide) (by no_write hostOps2)
theorem W6_arg10 : W6 m ρ c (Proc.devRef .tc main_arg10) = m ((c : Thread nD τ).loc main_arg10) :=
  arg_W6 m ρ c main_arg10 (by no_write hostOps0) (by decide) (by no_write hostOps1) (by decide) (by no_write hostOps2) (by decide)
theorem W6_arg11 : W6 m ρ c (Proc.devRef .tc main_arg11) = m ((c : Thread nD τ).loc main_arg11) :=
  arg_W6 m ρ c main_arg11 (by no_write hostOps0) (by decide) (by no_write hostOps1) (by decide) (by no_write hostOps2) (by decide)
/-- The last four weight arguments, read back from the end of the run, where the generated frame has them as launched. -/
theorem W9_arg12 : W9 m ρ c (Proc.devRef .tc main_arg12) = m ((c : Thread nD τ).loc main_arg12) :=
  ((W10_arr m ρ c 1).trans (((dat4 (V9 m ρ) c).arrAt_in 1 rfl _).trans (A_eq4 (V9 m ρ) c 1))).symm.trans (W10_main_arg12 m ρ c)
theorem W9_arg14 : W9 m ρ c (Proc.devRef .tc main_arg14) = m ((c : Thread nD τ).loc main_arg14) :=
  ((W10_arr m ρ c 3).trans (((dat4 (V9 m ρ) c).arrAt_in 3 rfl _).trans (A_eq4 (V9 m ρ) c 3))).symm.trans (W10_main_arg14 m ρ c)
theorem W8_arg13 : W8 m ρ c (Proc.devRef .tc main_arg13) = m ((c : Thread nD τ).loc main_arg13) :=
  (keep4 m ρ c main_arg13 (by no_write hostOps4)).symm.trans
    ((W10_of_ne m ρ c main_arg13 (by decide)).symm.trans (W10_main_arg13 m ρ c))
theorem W8_arg15 : W8 m ρ c (Proc.devRef .tc main_arg15) = m ((c : Thread nD τ).loc main_arg15) :=
  (keep4 m ρ c main_arg15 (by no_write hostOps4)).symm.trans
    ((W10_of_ne m ρ c main_arg15 (by decide)).symm.trans (W10_main_arg15 m ρ c))

/-- The index rows, written once by the first stretch, as the third stretch finds them. -/
theorem W4_v1 : (W4 m ρ c (Proc.devRef .tc main_v1) : IVec S800000 32) = idxRow0 (m ((c : Thread nD τ).loc main_arg1)) :=
  (W4_of_ne m ρ c main_v1 (by decide)).trans ((keep1 m ρ c main_v1 (by no_write hostOps1)).trans
    ((W2_of_ne m ρ c main_v1 (by decide)).trans (W1_v1 m ρ c)))
theorem W4_v3 : (W4 m ρ c (Proc.devRef .tc main_v3) : IVec S800000 32) = idxRow1 (m ((c : Thread nD τ).loc main_arg1)) :=
  (W4_of_ne m ρ c main_v3 (by decide)).trans ((keep1 m ρ c main_v3 (by no_write hostOps1)).trans
    ((W2_of_ne m ρ c main_v3 (by decide)).trans (W1_v3 m ρ c)))

/-! ## The chain -/

/-- A region's entry contents: for each core, each buffer's contents. -/
abbrev Ent := (c : Dev nD) → (b : Ref sig .tc) → Buf (Elt Ideal) ((c : Thread nD τ).loc b)

/-- The first graph layer's pre-activation, from the entry contents of the first region. -/
abbrev A0 (V : Ent) (c : Dev nD) : Mat 50000 128 :=
  pre (V c (Pipeline.arrRef spec0 0)) (V c (Pipeline.arrRef spec0 1)) (V c (Pipeline.arrRef spec0 2))
    (rowOf (V c (Pipeline.arrRef spec0 3))) (V c (Pipeline.arrRef spec0 4))
/-- The second graph layer's pre-activation, from the entry contents of the third region. -/
abbrev A2 (V : Ent) (c : Dev nD) : Mat 50000 128 :=
  pre (V c (Pipeline.arrRef spec2 0)) (V c (Pipeline.arrRef spec2 1)) (V c (Pipeline.arrRef spec2 2))
    (rowOf (V c (Pipeline.arrRef spec2 3))) (V c (Pipeline.arrRef spec2 4))

/-! ### The five regions' values, as hypotheses: each the statement its own proof gives, at any entry contents -/

/-- The first region leaves the pre-activation … -/
def H05 : Prop := ∀ (V : Ent) (c : Dev nD), (dat0 (F := Ideal) V c).arrAt 5 cfg0.N = A0 V c
/-- … its column sums, each added to a zero word … -/
def H06 : Prop := ∀ (V : Ent) (c : Dev nD), (dat0 (F := Ideal) V c).arrAt 6 cfg0.N = fun i => zW + colSum (A0 V c) (i 1)
/-- … and its column sums of squares. -/
def H07 : Prop := ∀ (V : Ent) (c : Dev nD), (dat0 (F := Ideal) V c).arrAt 7 cfg0.N = fun i => zW + colSq (A0 V c) (i 1)
/-- The second region normalises with the mean, variance, scale and shift rows it is given. -/
def H1 : Prop := ∀ (V : Ent) (c : Dev nD), (dat1 (F := Ideal) V c).arrAt 5 cfg1.N
    = normWith (V c (Pipeline.arrRef spec1 0)) (fun q => V c (Pipeline.arrRef spec1 3) (ix2 0 q))
        (fun q => V c (Pipeline.arrRef spec1 4) (ix2 0 q)) (fun q => V c (Pipeline.arrRef spec1 1) (ix2 0 q))
        (fun q => V c (Pipeline.arrRef spec1 2) (ix2 0 q))
/-- The third region: as the first. -/
def H25 : Prop := ∀ (V : Ent) (c : Dev nD), (dat2 (F := Ideal) V c).arrAt 5 cfg2.N = A2 V c
def H26 : Prop := ∀ (V : Ent) (c : Dev nD), (dat2 (F := Ideal) V c).arrAt 6 cfg2.N = fun i => zW + colSum (A2 V c) (i 1)
def H27 : Prop := ∀ (V : Ent) (c : Dev nD), (dat2 (F := Ideal) V c).arrAt 7 cfg2.N = fun i => zW + colSq (A2 V c) (i 1)
/-- The fourth region: as the second. -/
def H3 : Prop := ∀ (V : Ent) (c : Dev nD), (dat3 (F := Ideal) V c).arrAt 5 cfg3.N
    = normWith (V c (Pipeline.arrRef spec3 0)) (fun q => V c (Pipeline.arrRef spec3 3) (ix2 0 q))
        (fun q => V c (Pipeline.arrRef spec3 4) (ix2 0 q)) (fun q => V c (Pipeline.arrRef spec3 1) (ix2 0 q))
        (fun q => V c (Pipeline.arrRef spec3 2) (ix2 0 q))
/-- The last region adds its last input to the two-layer perceptron of its first. -/
def H4 : Prop := ∀ (V : Ent) (c : Dev nD), (dat4 (F := Ideal) V c).arrAt 6 cfg4.N
    = mlp (V c (Pipeline.arrRef spec4 0)) (V c (Pipeline.arrRef spec4 1)) (rowOf (V c (Pipeline.arrRef spec4 2)))
        (V c (Pipeline.arrRef spec4 3)) (rowOf (V c (Pipeline.arrRef spec4 4))) (V c (Pipeline.arrRef spec4 5))

/-! ### The first layer -/

/-- What the first region reads is the aggregation, the features, the weights and the bias. -/
theorem A0_entry : A0 (V1 m ρ) c = pre (aggK (m ((c : Thread nD τ).loc main_arg1)) (m ((c : Thread nD τ).loc main_arg0))) (m ((c : Thread nD τ).loc main_arg0)) (kparams m c).W1l (kparams m c).b1 (kparams m c).W1r :=
  pre_congr (W1_v22 m ρ c) (keep0 m ρ c main_arg0 (by no_write hostOps0)) (keep0 m ρ c main_arg2 (by no_write hostOps0))
    ((congrArg rowOf (W1_v23 m ρ c)).trans (rowOf_shapeCast _ _)) (keep0 m ρ c main_arg4 (by no_write hostOps0))

theorem W2_pre (h05 : H05) : (W2 m ρ c (Proc.devRef .tc main_v24_0) : Mat 50000 128) = pre (aggK (m ((c : Thread nD τ).loc main_arg1)) (m ((c : Thread nD τ).loc main_arg0))) (m ((c : Thread nD τ).loc main_arg0)) (kparams m c).W1l (kparams m c).b1 (kparams m c).W1r :=
  (W2_arr m ρ c 5).trans ((h05 (V1 m ρ) c).trans (A0_entry m ρ c))

theorem W2_sum (h06 : H06) : (W2 m ρ c (Proc.devRef .tc main_v24_1) : FVec Ideal S1x128 .f32)
    = fun i => zW + colSum (pre (aggK (m ((c : Thread nD τ).loc main_arg1)) (m ((c : Thread nD τ).loc main_arg0))) (m ((c : Thread nD τ).loc main_arg0)) (kparams m c).W1l (kparams m c).b1 (kparams m c).W1r) (i 1) :=
  (W2_arr m ρ c 6).trans ((h06 (V1 m ρ) c).trans (sumRow_congr (A0_entry m ρ c)))

theorem W2_sq (h07 : H07) : (W2 m ρ c (Proc.devRef .tc main_v24_2) : FVec Ideal S1x128 .f32)
    = fun i => zW + colSq (pre (aggK (m ((c : Thread nD τ).loc main_arg1)) (m ((c : Thread nD τ).loc main_arg0))) (m ((c : Thread nD τ).loc main_arg0)) (kparams m c).W1l (kparams m c).b1 (kparams m c).W1r) (i 1) :=
  (W2_arr m ρ c 7).trans ((h07 (V1 m ρ) c).trans (sqRow_congr (A0_entry m ρ c)))

/-- The second region leaves the first layer's output. -/
theorem W4_layer1 (h05 : H05) (h06 : H06) (h07 : H07) (h1 : H1) : (W4 m ρ c (Proc.devRef .tc main_v33) : Mat 50000 128) = layer1K (aggK (m ((c : Thread nD τ).loc main_arg1))) (m ((c : Thread nD τ).loc main_arg0)) (kparams m c) :=
  (W4_arr m ρ c 5).trans ((h1 (V3 m ρ) c).trans (normWith_congr
    ((keep1 m ρ c main_v24_0 (by no_write hostOps1)).trans (W2_pre m ρ c h05))
    ((readRow_congr (W3_v26 m ρ c)).trans (meanRow _ _ (W2_sum m ρ c h06) _))
    ((readRow_congr (W3_v30 m ρ c)).trans (varRow _ _ _ (W2_sum m ρ c h06) (W2_sq m ρ c h07) _ _))
    ((readRow_congr ((W3_v31 m ρ c).trans (congrArg (fun b => shapeCast S1x128 b shapeCasts_S128_S1x128) (W2_arg5 m ρ c)))).trans
      (castRow _ _))
    ((readRow_congr ((W3_v32 m ρ c).trans (congrArg (fun b => shapeCast S1x128 b shapeCasts_S128_S1x128) (W2_arg6 m ρ c)))).trans
      (castRow _ _))))

/-! ### The second layer -/

/-- What the third region reads: the aggregation of the first layer's output from the same index rows, that output,
    the second layer's weights and bias. -/
theorem A2_entry (h05 : H05) (h06 : H06) (h07 : H07) (h1 : H1) : A2 (V5 m ρ) c
    = pre (aggK (m ((c : Thread nD τ).loc main_arg1)) (layer1K (aggK (m ((c : Thread nD τ).loc main_arg1))) (m ((c : Thread nD τ).loc main_arg0)) (kparams m c))) (layer1K (aggK (m ((c : Thread nD τ).loc main_arg1))) (m ((c : Thread nD τ).loc main_arg0)) (kparams m c)) (kparams m c).W2l (kparams m c).b2 (kparams m c).W2r :=
  pre_congr
    ((W5_v52 m ρ c).trans (aggCore_congr (W4_v1 m ρ c) (W4_v3 m ρ c) (W4_layer1 m ρ c h05 h06 h07 h1)))
    ((keep2 m ρ c main_v33 (by no_write hostOps2)).trans (W4_layer1 m ρ c h05 h06 h07 h1))
    (W5_arg7 m ρ c)
    ((congrArg rowOf ((W5_v53 m ρ c).trans
      (congrArg (fun b => shapeCast S1x128 b shapeCasts_S128_S1x128) (W4_arg8 m ρ c)))).trans (rowOf_shapeCast _ _))
    (W5_arg9 m ρ c)

theorem W6_pre (h05 : H05) (h06 : H06) (h07 : H07) (h1 : H1) (h25 : H25) : (W6 m ρ c (Proc.devRef .tc main_v54_0) : Mat 50000 128)
    = pre (aggK (m ((c : Thread nD τ).loc main_arg1)) (layer1K (aggK (m ((c : Thread nD τ).loc main_arg1))) (m ((c : Thread nD τ).loc main_arg0)) (kparams m c))) (layer1K (aggK (m ((c : Thread nD τ).loc main_arg1))) (m ((c : Thread nD τ).loc main_arg0)) (kparams m c)) (kparams m c).W2l (kparams m c).b2 (kparams m c).W2r :=
  (W6_arr m ρ c 5).trans ((h25 (V5 m ρ) c).trans (A2_entry m ρ c h05 h06 h07 h1))

theorem W6_sum (h05 : H05) (h06 : H06) (h07 : H07) (h1 : H1) (h26 : H26) : (W6 m ρ c (Proc.devRef .tc main_v54_1) : FVec Ideal S1x128 .f32)
    = fun i => zW + colSum (pre (aggK (m ((c : Thread nD τ).loc main_arg1)) (layer1K (aggK (m ((c : Thread nD τ).loc main_arg1))) (m ((c : Thread nD τ).loc main_arg0)) (kparams m c))) (layer1K (aggK (m ((c : Thread nD τ).loc main_arg1))) (m ((c : Thread nD τ).loc main_arg0)) (kparams m c)) (kparams m c).W2l (kparams m c).b2 (kparams m c).W2r) (i 1) :=
  (W6_arr m ρ c 6).trans ((h26 (V5 m ρ) c).trans (sumRow_congr (A2_entry m ρ c h05 h06 h07 h1)))

theorem W6_sq (h05 : H05) (h06 : H06) (h07 : H07) (h1 : H1) (h27 : H27) : (W6 m ρ c (Proc.devRef .tc main_v54_2) : FVec Ideal S1x128 .f32)
    = fun i => zW + colSq (pre (aggK (m ((c : Thread nD τ).loc main_arg1)) (layer1K (aggK (m ((c : Thread nD τ).loc main_arg1))) (m ((c : Thread nD τ).loc main_arg0)) (kparams m c))) (layer1K (aggK (m ((c : Thread nD τ).loc main_arg1))) (m ((c : Thread nD τ).loc main_arg0)) (kparams m c)) (kparams m c).W2l (kparams m c).b2 (kparams m c).W2r) (i 1) :=
  (W6_arr m ρ c 7).trans ((h27 (V5 m ρ) c).trans (sqRow_congr (A2_entry m ρ c h05 h06 h07 h1)))

/-- The fourth region leaves the second layer's output. -/
theorem W8_layer2 (h05 : H05) (h06 : H06) (h07 : H07) (h1 : H1) (h25 : H25) (h26 : H26) (h27 : H27) (h3 : H3) : (W8 m ρ c (Proc.devRef .tc main_v63) : Mat 50000 128) = layer2K (aggK (m ((c : Thread nD τ).loc main_arg1))) (m ((c : Thread nD τ).loc main_arg0)) (kparams m c) :=
  (W8_arr m ρ c 5).trans ((h3 (V7 m ρ) c).trans (normWith_congr
    ((keep3 m ρ c main_v54_0 (by no_write hostOps3)).trans (W6_pre m ρ c h05 h06 h07 h1 h25))
    ((readRow_congr (W7_v56 m ρ c)).trans (meanRow _ _ (W6_sum m ρ c h05 h06 h07 h1 h26) _))
    ((readRow_congr (W7_v60 m ρ c)).trans
      (varRow _ _ _ (W6_sum m ρ c h05 h06 h07 h1 h26) (W6_sq m ρ c h05 h06 h07 h1 h27) _ _))
    ((readRow_congr ((W7_v61 m ρ c).trans (congrArg (fun b => shapeCast S1x128 b shapeCasts_S128_S1x128) (W6_arg10 m ρ c)))).trans
      (castRow _ _))
    ((readRow_congr ((W7_v62 m ρ c).trans (congrArg (fun b => shapeCast S1x128 b shapeCasts_S128_S1x128) (W6_arg11 m ρ c)))).trans
      (castRow _ _))))

/-! ### The residual perceptron -/

/-- The first layer's output is still in its buffer when the last region reads it: the third region only reads it,
    and nothing else touches it. -/
theorem W9_layer1 (h05 : H05) (h06 : H06) (h07 : H07) (h1 : H1) : (W9 m ρ c (Proc.devRef .tc main_v33) : Mat 50000 128) = layer1K (aggK (m ((c : Thread nD τ).loc main_arg1))) (m ((c : Thread nD τ).loc main_arg0)) (kparams m c) :=
  (keep4 m ρ c main_v33 (by no_write hostOps4)).trans ((W8_of_ne m ρ c main_v33 (by decide)).trans
    ((keep3 m ρ c main_v33 (by no_write hostOps3)).trans
      (((W6_arr m ρ c 1).trans (((dat2 (V5 m ρ) c).arrAt_in 1 rfl _).trans (A_eq2 (V5 m ρ) c 1))).trans
        ((keep2 m ρ c main_v33 (by no_write hostOps2)).trans (W4_layer1 m ρ c h05 h06 h07 h1)))))

/-- The result buffer at the end of the run is the encoder with one-pass variances, of the launch contents. -/
theorem W10_v66 (h05 : H05) (h06 : H06) (h07 : H07) (h1 : H1) (h25 : H25) (h26 : H26) (h27 : H27) (h3 : H3) (h4 : H4) : W10 m ρ c (Proc.devRef .tc main_v66) = netK (aggK (m ((c : Thread nD τ).loc main_arg1))) (m ((c : Thread nD τ).loc main_arg0)) (kparams m c) :=
  (W10_arr m ρ c 6).trans ((h4 (V9 m ρ) c).trans (mlp_congr
    ((keep4 m ρ c main_v63 (by no_write hostOps4)).trans (W8_layer2 m ρ c h05 h06 h07 h1 h25 h26 h27 h3))
    (W9_arg12 m ρ c)
    ((congrArg rowOf ((W9_v64 m ρ c).trans
      (congrArg (fun b => shapeCast S1x128 b shapeCasts_S128_S1x128) (W8_arg13 m ρ c)))).trans (rowOf_shapeCast _ _))
    (W9_arg14 m ρ c)
    ((congrArg rowOf ((W9_v65 m ρ c).trans
      (congrArg (fun b => shapeCast S1x128 b shapeCasts_S128_S1x128) (W8_arg15 m ρ c)))).trans (rowOf_shapeCast _ _))
    (W9_layer1 m ρ c h05 h06 h07 h1)))

end Cert.Enc.KChain
end
-- ==== Proof.AggEq.lean ====
/-
  The kernel program and the reference aggregate the neighbours by the same chain of operations: the two rows of the
  edge list, the adjustment of negative source words, the gather of the source rows, the two accumulating scatters by
  destination, the maximum with 1 and the division. The two texts differ only in which program's dimension records and
  shape facts they cite; the records have the same fields and a fact is a proof of a proposition, so the two functions
  are equal as they stand.
-/
import proofs.«180070_j13675175870684_1_alg».proof.Proof.KAgg
import proofs.«180070_j13675175870684_1_alg».proof.Proof.RefAgg

noncomputable section

namespace Cert.Enc.AggEq

/-- The kernel program's neighbour aggregation is the reference's. -/
theorem agg_eq (e : Cert.Enc.RefSide.Edges) (x : Cert.Sage.Mat 50000 128) :
    Cert.Enc.KChain.aggK e x = Cert.Enc.RefSide.aggR e x := by
  unfold Cert.Enc.KChain.aggK Cert.Enc.KChain.aggCore Cert.Enc.KChain.aggNum Cert.Enc.KChain.aggDeg
    Cert.Enc.KChain.idxRow0 Cert.Enc.KChain.idxRow1 Cert.Enc.RefSide.aggR
  rfl

end Cert.Enc.AggEq

end
-- ==== Proof.K0Cases.lean ====
/-
  The first accumulating region, case by case. At the first grid point the body clears the two one-row accumulators and
  then adds; at every later point it adds to what the point before left. What each case leaves in the three output
  buffers is the body's arithmetic on the whole input blocks: the block of pre-activations A = (a·Wl + x·Wr) + b, the row of
  column sums acc + Σ_rows A, the row of column sums of squares acc + Σ_rows A·A — with acc the cleared row in the first case
  and the buffer's previous contents in the other.
-/
import proofs.«180070_j13675175870684_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.Enc.K0
open Cert.KernelIdeal Cert.KernelIdeal.Gen
variable {F : FTy → Type} [FloatOps F]

theorem hz : (![0, 0] : Fin 2 → Nat) = fun _ => 0 := funext fun a => by fin_cases a <;> rfl

theorem outA5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_5 c i a1 h1 a2 h2 a3 h3 a4 h4 a5 h5 a6 h6 a7 h7 a8 h8 hc x0 x1 x2 x3 x4 = k0_pay3 x0 x2 x1 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_6 c i a1 h1 a2 h2 a3 h3 a4 h4 a5 h5 a6 h6 a7 h7 a8 h8 hc x0 x1 x2 x3 x4 = k0_pay4 x0 x2 x1 x4 x3 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_7 c i a1 h1 a2 h2 a3 h3 a4 h4 a5 h5 a6 h6 a7 h7 a8 h8 hc x0 x1 x2 x3 x4 = k0_pay5 x0 x2 x1 x4 x3 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outB5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_5 c i a1 h1 a2 h2 a3 h3 a4 h4 a5 h5 a6 h6 a7 h7 a8 h8 hc x0 x1 x2 x3 x4 xo6 xo7 = k0_pay3 x0 x2 x1 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x2 x1 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

theorem outB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x2 x1 x4 x3 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

end Cert.Enc.K0
end
-- ==== Proof.LibColSums.lean ====
/-
  GENERAL LEMMAS: sums down the columns of a matrix on extended reals, in the spelling a vector unit gives them; nothing
  here mentions a program and every extent is arbitrary.

  A float add-reduction over axis 0 of an [a, b] matrix, read at column q, is the sum over the a rows of the entries
  (k, q). A running one-row accumulator [1, b], cast to its own shape, plus those column sums cast from [b] to one row,
  reads at (0, q) the accumulator's entry plus the column's sum.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.LibColSums

open Idealize.ShloMosaic Idealize.ShloMosaic.ValueIdx
open scoped BigOperators

/-- Over column q of a matrix, the index with row k put back on the summed axis is (k, q). -/
theorem lift_col {a b : ℕ} (h : Shape.Reduces ⟨2, ![a, b]⟩ [0] ⟨1, ![b]⟩) (q : Fin b) (k : Fin a) :
    h.lift (ix1 q) k = ix2 k q := by
  funext c
  refine Fin.ext ?_
  match c with
  | ⟨0, _⟩ => rfl
  | ⟨1, _⟩ => rfl

/-- A float sum over the row axis of a matrix, read at column q at the exact instance: the sum of the column's entries. -/
theorem colSum_apply {a b : ℕ} (v : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

/-- A one-row accumulator, cast to its own shape, plus the column sums cast to one row, read at (0, q): the
    accumulator's entry plus the column's sum. -/
theorem acc_add_colSum {a b : ℕ} (acc : FVec Ideal ⟨2, ![1, b]⟩ .f32) (v : FVec Ideal ⟨2, ![a, b]⟩ .f32)
    (hs : (⟨2, ![1, b]⟩ : Shape).ShapeCasts ⟨2, ![1, b]⟩) (hc : (⟨1, ![b]⟩ : Shape).ShapeCasts ⟨2, ![1, b]⟩)
    (h : Shape.Reduces ⟨2, ![a, b]⟩ [0] ⟨1, ![b]⟩) (hφ : FKind.Formats .f32)
    (hacc : (0x00000000#32 : BitVec 32) = FKind.add.neutral .f32 hφ) (q : Fin b) :
    addf (shapeCast ⟨2, ![1, b]⟩ acc hs)
        (shapeCast ⟨2, ![1, b]⟩ (multiReduction .add [0] ⟨1, ![b]⟩ v 0x00000000#32 h hφ hacc) hc) (ix2 (0 : Fin 1) q)
      = acc (ix2 (0 : Fin 1) q) + ∑ k : Fin a, v (ix2 k q) := by
  show shapeCast ⟨2, ![1, b]⟩ acc hs (ix2 (0 : Fin 1) q)
      + shapeCast ⟨2, ![1, b]⟩ (multiReduction .add [0] ⟨1, ![b]⟩ v 0x00000000#32 h hφ hacc) hc (ix2 (0 : Fin 1) q) = _
  rw [shapeCast_self, shapeCast_a_1a_apply, colSum_apply]

end Cert.LibColSums

end
-- ==== Proof.K0Pay.lean ====
/-
  The two accumulating regions' arithmetic read at an index, on extended reals. One grid point holds a block of 5000 rows.
  The stored block is the layer's pre-activation of the block's rows; the two one-row accumulators receive, column by
  column, the block's sum and the block's sum of squares of that pre-activation, added to what they held.
-/
import proofs.«180070_j13675175870684_1_alg».proof.Proof.Gen.KernelIdeal.Skeleton
import proofs.«180070_j13675175870684_1_alg».proof.Proof.LibSageLayers
import proofs.«180070_j13675175870684_1_alg».proof.Proof.LibRowBias
import proofs.«180070_j13675175870684_1_alg».proof.Proof.LibPlainDot
import proofs.«180070_j13675175870684_1_alg».proof.Proof.LibColSums
import Idealize.ShloMosaic.PureOps.Ideal.Laws
import Idealize.ShloMosaic.Lib.ValueIdx
import Idealize.ShloMosaic.Lib.ValueLayout
import Idealize.ShloMosaic.Lib.Pipeline.Value

noncomputable section
open Idealize.ShloMosaic

namespace Cert.Enc.K0
open Cert.KernelIdeal Cert.KernelIdeal.Gen Idealize.ShloMosaic.ValueIdx
open scoped BigOperators

/-- The block of pre-activations at (p, q): row p of the aggregated block against column q of Wl, plus row p of the node
    block against column q of Wr, plus the bias row at q. -/
theorem pre_apply (x0 x1 : Vec Ideal S5000x128 .f32) (x2 x4 : Vec Ideal S128x128 .f32) (x3 : Vec Ideal S1x128 .f32) (p : Fin 5000) (q : Fin 128) :
    k0_pay3 (F := Ideal) x0 x2 x1 x4 x3 (ix2 p q) = Cert.Sage.preAt x0 x1 x2 (Cert.LibRowBias.rowOf x3) x4 p q := by
  unfold k0_pay3
  simp only [shapeCast_self]
  show (matmul dot_S5000x128_S128x128_S5000x128_1_0_0_1_n_n none (truncf .bf16 x0 bitsLt_bf16_f32) (truncf .bf16 x2 bitsLt_bf16_f32)
          (constant (F := Ideal) S5000x128 .f32 0x00000000#32) (ix2 p q)
        + matmul dot_S5000x128_S128x128_S5000x128_1_0_0_1_n_n none (truncf .bf16 x1 bitsLt_bf16_f32) (truncf .bf16 x4 bitsLt_bf16_f32)
          (constant (F := Ideal) S5000x128 .f32 0x00000000#32) (ix2 p q))
      + broadcastTo S5000x128 x3 broadcasts_S1x128_S5000x128 (ix2 p q) = _
  rw [show dot_S5000x128_S128x128_S5000x128_1_0_0_1_n_n = DotDims.plain 5000 128 128 from rfl,
    Cert.LibPlainDot.matmul_plain, Cert.LibPlainDot.matmul_plain, broadcastTo_1b_ab_apply]
  rfl
/-- The row of column sums after a point: what it held plus the block's column sums of the pre-activation. -/
theorem sum_apply (x0 x1 : Vec Ideal S5000x128 .f32) (x2 x4 : Vec Ideal S128x128 .f32) (x3 : Vec Ideal S1x128 .f32) (acc : Vec Ideal S1x128 .f32) (q : Fin 128) :
    k0_pay4 (F := Ideal) x0 x2 x1 x4 x3 acc (ix2 (0 : Fin 1) q)
      = acc (ix2 (0 : Fin 1) q) + ∑ p : Fin 5000, k0_pay3 (F := Ideal) x0 x2 x1 x4 x3 (ix2 p q) := by
  unfold k0_pay4
  exact Cert.LibColSums.acc_add_colSum acc _ _ _ _ _ _ q
/-- The row of column sums of squares after a point. -/
theorem sq_apply (x0 x1 : Vec Ideal S5000x128 .f32) (x2 x4 : Vec Ideal S128x128 .f32) (x3 : Vec Ideal S1x128 .f32) (acc : Vec Ideal S1x128 .f32) (q : Fin 128) :
    k0_pay5 (F := Ideal) x0 x2 x1 x4 x3 acc (ix2 (0 : Fin 1) q)
      = acc (ix2 (0 : Fin 1) q) + ∑ p : Fin 5000, k0_pay3 (F := Ideal) x0 x2 x1 x4 x3 (ix2 p q) * k0_pay3 (F := Ideal) x0 x2 x1 x4 x3 (ix2 p q) := by
  unfold k0_pay5
  exact Cert.LibColSums.acc_add_colSum acc _ _ _ _ _ _ q
/-- The cleared accumulators hold the zero word. -/
theorem zero1_apply (i : S1x128.Idx) : k0_pay1 (F := Ideal) i = Ideal.ofBits .f32 0x00000000#32 := rfl
theorem zero2_apply (i : S1x128.Idx) : k0_pay2 (F := Ideal) i = Ideal.ofBits .f32 0x00000000#32 := rfl
end Cert.Enc.K0

namespace Cert.Enc.K2
open Cert.KernelIdeal Cert.KernelIdeal.Gen Idealize.ShloMosaic.ValueIdx
open scoped BigOperators

/-- The block of pre-activations at (p, q): row p of the aggregated block against column q of Wl, plus row p of the node
    block against column q of Wr, plus the bias row at q. -/
theorem pre_apply (x0 x1 : Vec Ideal S5000x128 .f32) (x2 x4 : Vec Ideal S128x128 .f32) (x3 : Vec Ideal S1x128 .f32) (p : Fin 5000) (q : Fin 128) :
    k2_pay4 (F := Ideal) x0 x2 x1 x4 x3 (ix2 p q) = Cert.Sage.preAt x0 x1 x2 (Cert.LibRowBias.rowOf x3) x4 p q := by
  unfold k2_pay4
  simp only [shapeCast_self]
  show (matmul dot_S5000x128_S128x128_S5000x128_1_0_0_1_n_n none (truncf .bf16 x0 bitsLt_bf16_f32) (truncf .bf16 x2 bitsLt_bf16_f32)
          (constant (F := Ideal) S5000x128 .f32 0x00000000#32) (ix2 p q)
        + matmul dot_S5000x128_S128x128_S5000x128_1_0_0_1_n_n none (truncf .bf16 x1 bitsLt_bf16_f32) (truncf .bf16 x4 bitsLt_bf16_f32)
          (constant (F := Ideal) S5000x128 .f32 0x00000000#32) (ix2 p q))
      + broadcastTo S5000x128 x3 broadcasts_S1x128_S5000x128 (ix2 p q) = _
  rw [show dot_S5000x128_S128x128_S5000x128_1_0_0_1_n_n = DotDims.plain 5000 128 128 from rfl,
    Cert.LibPlainDot.matmul_plain, Cert.LibPlainDot.matmul_plain, broadcastTo_1b_ab_apply]
  rfl
/-- The row of column sums after a point: what it held plus the block's column sums of the pre-activation. -/
theorem sum_apply (x0 x1 : Vec Ideal S5000x128 .f32) (x2 x4 : Vec Ideal S128x128 .f32) (x3 : Vec Ideal S1x128 .f32) (acc : Vec Ideal S1x128 .f32) (q : Fin 128) :
    k2_pay5 (F := Ideal) x0 x2 x1 x4 x3 acc (ix2 (0 : Fin 1) q)
      = acc (ix2 (0 : Fin 1) q) + ∑ p : Fin 5000, k2_pay4 (F := Ideal) x0 x2 x1 x4 x3 (ix2 p q) := by
  unfold k2_pay5
  exact Cert.LibColSums.acc_add_colSum acc _ _ _ _ _ _ q
/-- The row of column sums of squares after a point. -/
theorem sq_apply (x0 x1 : Vec Ideal S5000x128 .f32) (x2 x4 : Vec Ideal S128x128 .f32) (x3 : Vec Ideal S1x128 .f32) (acc : Vec Ideal S1x128 .f32) (q : Fin 128) :
    k2_pay1 (F := Ideal) (k2_pay6 acc) (k2_pay7 x0 x2 x1 x4 x3) (ix2 (0 : Fin 1) q)
      = acc (ix2 (0 : Fin 1) q) + ∑ p : Fin 5000, k2_pay4 (F := Ideal) x0 x2 x1 x4 x3 (ix2 p q) * k2_pay4 (F := Ideal) x0 x2 x1 x4 x3 (ix2 p q) := by
  unfold k2_pay1 k2_pay6 k2_pay7
  exact Cert.LibColSums.acc_add_colSum acc _ _ _ _ _ _ q
/-- The cleared accumulators hold the zero word. -/
theorem zero1_apply (i : S1x128.Idx) : k2_pay2 (F := Ideal) i = Ideal.ofBits .f32 0x00000000#32 := rfl
theorem zero2_apply (i : S1x128.Idx) : k2_pay3 (F := Ideal) i = Ideal.ofBits .f32 0x00000000#32 := rfl
end Cert.Enc.K2

end
-- ==== Proof.LibRowBlocks.lean ====
/-
  GENERAL LEMMAS: a sum over the first k rows of R, taken one block of rows at a time.

  * below R k: the rows r < k.
  * sum_below_zero: over no rows the sum is zero.
  * sum_below_add: the rows below k + B are the rows below k together with the B rows k, k + 1, …, k + B − 1, so the sum
    over them is the sum below k plus the block's sum.
  * sum_below_all: when k reaches R the rows below k are all the rows.
  Any additive commutative monoid; nothing here mentions a program.
-/
import Mathlib.Algebra.BigOperators.Group.Finset.Basic
import Mathlib.Algebra.BigOperators.Fin
import Mathlib.Tactic.Ring
import Mathlib.Tactic.Linarith

namespace Cert.LibRowBlocks

open scoped BigOperators

variable {M : Type*} [AddCommMonoid M] {R : ℕ}

/-- The rows below k. -/
def below (R k : ℕ) : Finset (Fin R) := Finset.univ.filter fun r => r.val < k

theorem mem_below {k : ℕ} {r : Fin R} : r ∈ below R k ↔ r.val < k := by
  simp [below]

theorem sum_below_zero (f : Fin R → M) : ∑ r ∈ below R 0, f r = 0 := by
  have h : below R 0 = ∅ := by
    ext r; simp [below]
  rw [h, Finset.sum_empty]

theorem sum_below_all {k : ℕ} (hk : R ≤ k) (f : Fin R → M) : ∑ r ∈ below R k, f r = ∑ r, f r := by
  have h : below R k = Finset.univ := by
    ext r; simp only [mem_below, Finset.mem_univ, iff_true]; exact lt_of_lt_of_le r.isLt hk
  rw [h]

/-- One more block of B rows. -/
theorem sum_below_add (k B : ℕ) (hk : k + B ≤ R) (f : Fin R → M) :
    ∑ r ∈ below R (k + B), f r
      = ∑ r ∈ below R k, f r + ∑ p : Fin B, f ⟨k + p.val, lt_of_lt_of_le (Nat.add_lt_add_left p.isLt k) hk⟩ := by
  rw [← Finset.sum_filter_add_sum_filter_not (below R (k + B)) (fun r => r.val < k) f]
  congr 1
  · refine Finset.sum_congr ?_ fun _ _ => rfl
    ext r
    simp only [Finset.mem_filter, mem_below]
    omega
  · symm
    refine Finset.sum_bij (fun p _ => (⟨k + p.val, lt_of_lt_of_le (Nat.add_lt_add_left p.isLt k) hk⟩ : Fin R)) ?_ ?_ ?_ ?_
    · intro p _
      simp only [Finset.mem_filter, mem_below]
      have := p.isLt
      omega
    · intro p _ p' _ h
      have h' := congrArg Fin.val h
      simp only at h'
      exact Fin.ext (by omega)
    · intro r hr
      simp only [Finset.mem_filter, mem_below] at hr
      refine ⟨⟨r.val - k, by omega⟩, Finset.mem_univ _, Fin.ext ?_⟩
      show k + (r.val - k) = r.val
      omega
    · intro p _
      rfl

end Cert.LibRowBlocks
-- ==== Proof.LibRunningSums.lean ====
/-
  GENERAL LEMMAS: a running total over the rows of a matrix taken B consecutive rows at a time, in any additive
  commutative monoid; nothing here mentions a program.

  If an accumulator holds z plus the sum over the rows below k, adding the B rows k … k + B − 1 makes it z plus the sum
  over the rows below k + B; started from z alone it holds after the first block z plus the sum of the rows below B; and
  once the bound reaches the number of rows it holds z plus the sum over all rows. The block's rows are named by any
  function g with g p = k + p.
-/
import proofs.«180070_j13675175870684_1_alg».proof.Proof.LibRowBlocks

namespace Cert.LibRunningSums

open Cert.LibRowBlocks
open scoped BigOperators

variable {M : Type*} [AddCommMonoid M] {R : ℕ}

/-- One more block of B rows. -/
theorem run_step (k B : ℕ) (hk : k + B ≤ R) (f : Fin R → M) (z : M) (g : Fin B → Fin R)
    (hg : ∀ p, (g p).val = k + p.val) :
    (z + ∑ r ∈ below R k, f r) + ∑ p : Fin B, f (g p) = z + ∑ r ∈ below R (k + B), f r := by
  rw [add_assoc, sum_below_add k B hk f]
  exact congrArg (fun s => z + (∑ r ∈ below R k, f r + s))
    (Finset.sum_congr rfl fun p _ => congrArg f (Fin.ext (hg p)))

/-- The first block, from z alone. -/
theorem run_first (B : ℕ) (hB : 0 + B ≤ R) (f : Fin R → M) (z : M) (g : Fin B → Fin R)
    (hg : ∀ p, (g p).val = 0 + p.val) :
    z + ∑ p : Fin B, f (g p) = z + ∑ r ∈ below R (0 + B), f r := by
  rw [← run_step 0 B hB f z g hg, sum_below_zero, add_zero]

/-- After the last block the total is over all rows. -/
theorem run_all (k : ℕ) (hk : R ≤ k) (f : Fin R → M) (z : M) : z + ∑ r ∈ below R k, f r = z + ∑ r, f r := by
  rw [sum_below_all hk f]

end Cert.LibRunningSums
-- ==== Proof.K0Value.lean ====
/-
  The first accumulating region as whole-array functions of the arrays it finds, on extended reals. The grid has ten points; point t
  holds rows 5000·t … 5000·t + 4999 of the two [50000,128] inputs and the whole weight matrices and bias row. Its first
  output is, block by block, the layer's pre-activation A = (a·Wl + x·Wr) + b of the whole arrays (a row of the block
  depends only on that row of the inputs). The two one-row outputs are running totals: after point n they hold, column by
  column, the zero word plus the sum (the sum of squares) of A over the rows below 5000·n + 5000 — by recursion on the point —,
  so after the last point the column's total over all 50000 rows; they are written back once, at the last point.
-/
import proofs.«180070_j13675175870684_1_alg».proof.Proof.Gen.KernelIdeal.Frame
import proofs.«180070_j13675175870684_1_alg».proof.Proof.K0Cases
import proofs.«180070_j13675175870684_1_alg».proof.Proof.K0Pay
import proofs.«180070_j13675175870684_1_alg».proof.Proof.Spec
import proofs.«180070_j13675175870684_1_alg».proof.Proof.LibRunningSums
import Idealize.ShloMosaic.Lib.Pipeline.Value
import Idealize.ShloMosaic.Lib.ValueIdx

set_option maxRecDepth 16384

noncomputable section
open Idealize.ShloMosaic Idealize.ShloMosaic.TcCoe Idealize.SL.Sem
open Idealize.ShloMosaic.Pipeline (Dat)

namespace Cert.Enc.K0
open Cert.KernelIdeal Cert.KernelIdeal.Gen Idealize.ShloMosaic.ValueIdx Cert.LibRowBlocks
open scoped BigOperators

variable (V : (c : Dev nD) → (b : Ref sig .tc) → Buf (Elt Ideal) ((c : Thread nD τ).loc b)) (c : Dev nD)

theorem N10 : cfg0.N = 10 := N_0

/-- The printed index maps over the grid: the row-blocked windows sit at block (t, 0), the others at (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-- The arrays as the region finds them. -/
abbrev inA : Cert.Sage.Mat 50000 128 := V c (Pipeline.arrRef spec0 0)
abbrev inX : Cert.Sage.Mat 50000 128 := V c (Pipeline.arrRef spec0 1)
abbrev inWl : Cert.Sage.Mat 128 128 := V c (Pipeline.arrRef spec0 2)
abbrev inB : (⟨2, ![1, 128]⟩ : Shape).Idx → EReal := V c (Pipeline.arrRef spec0 3)
abbrev inWr : Cert.Sage.Mat 128 128 := V c (Pipeline.arrRef spec0 4)

/-- The whole array of pre-activations. -/
def Apre : Cert.Sage.Mat 50000 128 :=
  Cert.Encoder.pre (inA V c) (inX V c) (inWl V c) (Cert.LibRowBias.rowOf (inB V c)) (inWr V c)

/-- Row p of point t's block is row 5000·t + p of the array. -/
def rowAt (t : Fin cfg0.N) (p : Fin 5000) : Fin 50000 :=
  ⟨5000 * t.val + p.val, by have h1 : t.val < 10 := Nat.lt_of_lt_of_eq t.isLt N10; have h2 := p.isLt; omega⟩

theorem row_ix (y : S1x128.Idx) : y = ix2 (0 : Fin 1) (y 1) := by
  have h0 : (y 0).val < 1 := (y 0).isLt
  funext a
  refine Fin.ext ?_
  match a with
  | ⟨0, _⟩ => show (y 0).val = 0; omega
  | ⟨1, _⟩ => rfl

theorem blkA (t : Fin cfg0.N) (p : Fin 5000) (k : Fin 128) :
    (iblk0 V c 0 t : Vec Ideal S5000x128 .f32) (ix2 p k) = inA V c (ix2 (rowAt t p) k) := by
  obtain ⟨e0, e1, -⟩ := idx_facts t
  show V c (Pipeline.arrRef spec0 0) (((cfg0.win 0).blk t).view.emb (ix2 p k)) = V c (Pipeline.arrRef spec0 0) (ix2 (rowAt t p) k)
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

theorem blkX (t : Fin cfg0.N) (p : Fin 5000) (k : Fin 128) :
    (iblk0 V c 1 t : Vec Ideal S5000x128 .f32) (ix2 p k) = inX V c (ix2 (rowAt t p) k) := by
  obtain ⟨-, -, e0, e1, -⟩ := idx_facts t
  show V c (Pipeline.arrRef spec0 1) (((cfg0.win 1).blk t).view.emb (ix2 p k)) = V c (Pipeline.arrRef spec0 1) (ix2 (rowAt t p) k)
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

theorem blkWl (t : Fin cfg0.N) : (iblk0 V c 2 t : Vec Ideal S128x128 .f32) = inWl V c := by
  obtain ⟨-, -, -, -, e0, e1, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blkB (t : Fin cfg0.N) : (iblk0 V c 3 t : Vec Ideal S1x128 .f32) = inB V c := by
  obtain ⟨-, -, -, -, -, -, e0, e1, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blkWr (t : Fin cfg0.N) : (iblk0 V c 4 t : Vec Ideal S128x128 .f32) = inWr V c := by
  obtain ⟨-, -, -, -, -, -, -, -, e0, e1, -⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The pre-activation the body computes on point t's blocks is the array's, row 5000·t + p. -/
theorem pre_block (t : Fin cfg0.N) (p : Fin 5000) (q : Fin 128) :
    k0_pay3 (F := Ideal) (iblk0 V c 0 t) (iblk0 V c 2 t) (iblk0 V c 1 t) (iblk0 V c 4 t) (iblk0 V c 3 t) (ix2 p q) = Apre V c (ix2 (rowAt t p) q) := by
  refine (pre_apply (iblk0 V c 0 t) (iblk0 V c 1 t) (iblk0 V c 2 t) (iblk0 V c 4 t) (iblk0 V c 3 t) p q).trans ?_
  rw [blkWl V c t, blkB V c t, blkWr V c t]
  exact Cert.Sage.preAt_congr _ _ (inA V c) (inX V c) (inWl V c) (Cert.LibRowBias.rowOf (inB V c)) (inWr V c) p (rowAt t p)
    (fun k => blkA V c t p k) (fun k => blkX V c t p k) q

/-- Block t of the array of pre-activations. -/
def blockOf (t : Fin cfg0.N) : Vec Ideal S5000x128 .f32 := fun y => Apre V c (ix2 (rowAt t (y 0)) (y 1))

theorem fst_eq (t : Fin cfg0.N) : k0_pay3 (F := Ideal) (iblk0 V c 0 t) (iblk0 V c 2 t) (iblk0 V c 1 t) (iblk0 V c 4 t) (iblk0 V c 3 t) = blockOf V c t := by
  funext y
  obtain ⟨p, q, rfl⟩ : ∃ (p : Fin 5000) (q : Fin 128), y = ix2 p q := ⟨y 0, y 1, eq_ix2 y⟩
  exact pre_block V c t p q

/-- The running column sums after point n: the zero word plus the sum over the rows below 5000·n + 5000. -/
def rowSum (n : ℕ) : Vec Ideal S1x128 .f32 :=
  fun y => Cert.Encoder.zW + ∑ r ∈ below 50000 (5000 * n + 5000), Apre V c (ix2 r (y 1))
/-- The running column sums of squares after point n. -/
def rowSq (n : ℕ) : Vec Ideal S1x128 .f32 :=
  fun y => Cert.Encoder.zW + ∑ r ∈ below 50000 (5000 * n + 5000), Apre V c (ix2 r (y 1)) * Apre V c (ix2 r (y 1))
/-- The column totals. -/
def sumRow : Vec Ideal S1x128 .f32 := fun y => Cert.Encoder.zW + Cert.Encoder.colSum (Apre V c) (y 1)
def sqRow : Vec Ideal S1x128 .f32 := fun y => Cert.Encoder.zW + Cert.Encoder.colSq (Apre V c) (y 1)

/-- The first output's buffer after point t: block t of the pre-activations, in either case. -/
theorem outs_fst (t : Fin cfg0.N) : (outsAt0 V c t.val t.isLt).1 = blockOf V c t := by
  by_cases h0 : t.val % 10 = 0
  · rw [outsAt0_A V c t h0]; dsimp only
    exact (outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)).trans (fst_eq V c t)
  · rw [outsAt0_B V c t h0]; dsimp only
    exact (outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hcnd => h0 ((hcond0_0 t).mp hcnd)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2).trans (fst_eq V c t)

/-- The sum after the first grid point. -/
theorem sum_point0 (h : 0 < cfg0.N) : k0_pay4 (F := Ideal) (iblk0 V c 0 ⟨0, h⟩) (iblk0 V c 2 ⟨0, h⟩) (iblk0 V c 1 ⟨0, h⟩) (iblk0 V c 4 ⟨0, h⟩) (iblk0 V c 3 ⟨0, h⟩) (k0_pay1 (F := Ideal)) = rowSum V c 0 := by
  funext y
  obtain ⟨q, rfl⟩ : ∃ q : Fin 128, y = ix2 (0 : Fin 1) q := ⟨y 1, row_ix y⟩
  refine (sum_apply (iblk0 V c 0 ⟨0, h⟩) (iblk0 V c 1 ⟨0, h⟩) (iblk0 V c 2 ⟨0, h⟩) (iblk0 V c 4 ⟨0, h⟩) (iblk0 V c 3 ⟨0, h⟩) (k0_pay1 (F := Ideal)) q).trans ?_
  rw [zero1_apply, Finset.sum_congr rfl fun p _ => pre_block V c ⟨0, h⟩ p q]
  exact Cert.LibRunningSums.run_first 5000 (by norm_num) (fun r => Apre V c (ix2 r q)) Cert.Encoder.zW (rowAt ⟨0, h⟩)
    (fun p => by show 5000 * 0 + p.val = 0 + p.val; omega)

/-- One more grid point added to the sum. -/
theorem sum_step (n : ℕ) (h : n + 1 < cfg0.N) : k0_pay4 (F := Ideal) (iblk0 V c 0 ⟨n + 1, h⟩) (iblk0 V c 2 ⟨n + 1, h⟩) (iblk0 V c 1 ⟨n + 1, h⟩) (iblk0 V c 4 ⟨n + 1, h⟩) (iblk0 V c 3 ⟨n + 1, h⟩) (rowSum V c n) = rowSum V c (n + 1) := by
  funext y
  obtain ⟨q, rfl⟩ : ∃ q : Fin 128, y = ix2 (0 : Fin 1) q := ⟨y 1, row_ix y⟩
  refine (sum_apply (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (rowSum V c n) q).trans ?_
  rw [Finset.sum_congr rfl fun p _ => pre_block V c ⟨n + 1, h⟩ p q]
  have hN : cfg0.N = 10 := N10
  show (Cert.Encoder.zW + ∑ r ∈ below 50000 (5000 * n + 5000), Apre V c (ix2 r q))
      + ∑ p : Fin 5000, Apre V c (ix2 (rowAt ⟨n + 1, h⟩ p) q)
    = Cert.Encoder.zW + ∑ r ∈ below 50000 (5000 * (n + 1) + 5000), Apre V c (ix2 r q)
  rw [show 5000 * (n + 1) + 5000 = 5000 * n + 5000 + 5000 from by omega]
  exact Cert.LibRunningSums.run_step (5000 * n + 5000) 5000 (by omega) (fun r => Apre V c (ix2 r q)) Cert.Encoder.zW (rowAt ⟨n + 1, h⟩)
    (fun p => by show 5000 * (n + 1) + p.val = 5000 * n + 5000 + p.val; omega)

/-- What the sum's buffer holds after point n, by recursion on the point. -/
theorem outs_sum : ∀ (n : ℕ) (h : n < cfg0.N), (outsAt0 V c n h).2.1 = rowSum V c n
  | 0, h => (congrArg (fun z => z.2.1) (outsAt0_A V c ⟨0, h⟩ (Nat.zero_mod 10))).trans
      ((outA6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr (Nat.zero_mod 10)) (iblk0 V c 0 ⟨0, h⟩) (iblk0 V c 1 ⟨0, h⟩) (iblk0 V c 2 ⟨0, h⟩) (iblk0 V c 3 ⟨0, h⟩) (iblk0 V c 4 ⟨0, h⟩)).trans (sum_point0 V c h))
  | n + 1, h => by
    have hN : cfg0.N = 10 := N10
    have hB : ¬ (⟨n + 1, h⟩ : Fin cfg0.N).val % 10 = 0 := by dsimp only; omega
    refine (congrArg (fun z => z.2.1) (outsAt0_B V c ⟨n + 1, h⟩ hB)).trans ?_
    refine (outB6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hcnd => hB ((hcond0_0 ⟨n + 1, h⟩).mp hcnd)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.1 (outsAt0 V c n (Nat.lt_of_succ_lt h)).2.2).trans ?_
    rw [outs_sum n (Nat.lt_of_succ_lt h)]
    exact sum_step V c n h

/-- The sq after the first grid point. -/
theorem sq_point0 (h : 0 < cfg0.N) : k0_pay5 (F := Ideal) (iblk0 V c 0 ⟨0, h⟩) (iblk0 V c 2 ⟨0, h⟩) (iblk0 V c 1 ⟨0, h⟩) (iblk0 V c 4 ⟨0, h⟩) (iblk0 V c 3 ⟨0, h⟩) (k0_pay2 (F := Ideal)) = rowSq V c 0 := by
  funext y
  obtain ⟨q, rfl⟩ : ∃ q : Fin 128, y = ix2 (0 : Fin 1) q := ⟨y 1, row_ix y⟩
  refine (sq_apply (iblk0 V c 0 ⟨0, h⟩) (iblk0 V c 1 ⟨0, h⟩) (iblk0 V c 2 ⟨0, h⟩) (iblk0 V c 4 ⟨0, h⟩) (iblk0 V c 3 ⟨0, h⟩) (k0_pay2 (F := Ideal)) q).trans ?_
  rw [zero2_apply, Finset.sum_congr rfl fun p _ => congrArg (fun z => z * z) (pre_block V c ⟨0, h⟩ p q)]
  exact Cert.LibRunningSums.run_first 5000 (by norm_num) (fun r => Apre V c (ix2 r q) * Apre V c (ix2 r q)) Cert.Encoder.zW (rowAt ⟨0, h⟩)
    (fun p => by show 5000 * 0 + p.val = 0 + p.val; omega)

/-- One more grid point added to the sq. -/
theorem sq_step (n : ℕ) (h : n + 1 < cfg0.N) : k0_pay5 (F := Ideal) (iblk0 V c 0 ⟨n + 1, h⟩) (iblk0 V c 2 ⟨n + 1, h⟩) (iblk0 V c 1 ⟨n + 1, h⟩) (iblk0 V c 4 ⟨n + 1, h⟩) (iblk0 V c 3 ⟨n + 1, h⟩) (rowSq V c n) = rowSq V c (n + 1) := by
  funext y
  obtain ⟨q, rfl⟩ : ∃ q : Fin 128, y = ix2 (0 : Fin 1) q := ⟨y 1, row_ix y⟩
  refine (sq_apply (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (rowSq V c n) q).trans ?_
  rw [Finset.sum_congr rfl fun p _ => congrArg (fun z => z * z) (pre_block V c ⟨n + 1, h⟩ p q)]
  have hN : cfg0.N = 10 := N10
  show (Cert.Encoder.zW + ∑ r ∈ below 50000 (5000 * n + 5000), Apre V c (ix2 r q) * Apre V c (ix2 r q))
      + ∑ p : Fin 5000, Apre V c (ix2 (rowAt ⟨n + 1, h⟩ p) q) * Apre V c (ix2 (rowAt ⟨n + 1, h⟩ p) q)
    = Cert.Encoder.zW + ∑ r ∈ below 50000 (5000 * (n + 1) + 5000), Apre V c (ix2 r q) * Apre V c (ix2 r q)
  rw [show 5000 * (n + 1) + 5000 = 5000 * n + 5000 + 5000 from by omega]
  exact Cert.LibRunningSums.run_step (5000 * n + 5000) 5000 (by omega) (fun r => Apre V c (ix2 r q) * Apre V c (ix2 r q)) Cert.Encoder.zW (rowAt ⟨n + 1, h⟩)
    (fun p => by show 5000 * (n + 1) + p.val = 5000 * n + 5000 + p.val; omega)

/-- What the sq's buffer holds after point n, by recursion on the point. -/
theorem outs_sq : ∀ (n : ℕ) (h : n < cfg0.N), (outsAt0 V c n h).2.2 = rowSq V c n
  | 0, h => (congrArg (fun z => z.2.2) (outsAt0_A V c ⟨0, h⟩ (Nat.zero_mod 10))).trans
      ((outA7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr (Nat.zero_mod 10)) (iblk0 V c 0 ⟨0, h⟩) (iblk0 V c 1 ⟨0, h⟩) (iblk0 V c 2 ⟨0, h⟩) (iblk0 V c 3 ⟨0, h⟩) (iblk0 V c 4 ⟨0, h⟩)).trans (sq_point0 V c h))
  | n + 1, h => by
    have hN : cfg0.N = 10 := N10
    have hB : ¬ (⟨n + 1, h⟩ : Fin cfg0.N).val % 10 = 0 := by dsimp only; omega
    refine (congrArg (fun z => z.2.2) (outsAt0_B V c ⟨n + 1, h⟩ hB)).trans ?_
    refine (outB7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hcnd => hB ((hcond0_0 ⟨n + 1, h⟩).mp hcnd)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.1 (outsAt0 V c n (Nat.lt_of_succ_lt h)).2.2).trans ?_
    rw [outs_sq n (Nat.lt_of_succ_lt h)]
    exact sq_step V c n h

/-! ## From blocks to the arrays -/

/-- What point t writes back of the first output is block t of the pre-activations. -/
theorem flushed5 (t : Fin cfg0.N) :
    (dat0 (F := Ideal) V c).flushed 5 t = ((cfg0.win 5).blk t).view.read (Elt Ideal) (Apre V c) := by
  show (cfg0.win 5).cut (grid0.coords t) ((dat0 (F := Ideal) V c).after 5 t) = _
  rw [after0_5, outs_fst]
  obtain ⟨-, -, -, -, -, -, -, -, -, -, e0, e1, -⟩ := idx_facts t
  funext y
  show Apre V c (ix2 (rowAt t (y 0)) (y 1)) = Apre V c (((cfg0.win 5).blk t).view.emb y)
  refine congrArg _ (funext fun a => Fin.ext ?_)
  match a with
  | ⟨0, _⟩ => show 5000 * t.val + (y 0).val = win0_5.index t (0 : Fin 2) * 5000 + 1 * (y 0).val; rw [e0]; omega
  | ⟨1, _⟩ => show (y 1).val = win0_5.index t (1 : Fin 2) * 128 + 1 * (y 1).val; rw [e1]; omega

/-- The first output array after the region: the layer's pre-activation of the arrays the region finds. -/
theorem arr5 : (dat0 (F := Ideal) V c).arrAt 5 cfg0.N
    = Cert.Encoder.pre (V c (Pipeline.arrRef spec0 0)) (V c (Pipeline.arrRef spec0 1)) (V c (Pipeline.arrRef spec0 2))
        (Cert.LibRowBias.rowOf (V c (Pipeline.arrRef spec0 3))) (V c (Pipeline.arrRef spec0 4)) :=
  (dat0 (F := Ideal) V c).arrAt_eq_of_cover 5 (Apre V c) (fun t _ => flushed5 V c t) (fun i => by
      have hi0 : (i 0).val < 50000 := (i 0).isLt
      have hi1 : (i 1).val < 128 := (i 1).isLt
      have hN : cfg0.N = 10 := N10
      obtain ⟨t, ht⟩ : ∃ t : Fin cfg0.N, t.val = (i 0).val / 5000 := ⟨⟨(i 0).val / 5000, by omega⟩, rfl⟩
      obtain ⟨-, -, -, -, -, -, -, -, -, -, e0, e1, -⟩ := idx_facts t
      refine ⟨t, flush0_5 t, ?_⟩
      show i ∈ ((View.whole main_v24_0).slice (win0_5.rect t)).set
      rw [View.set_slice_whole, Rect.mem_set_unit]
      intro a
      match a with
      | ⟨0, _⟩ => show win0_5.index t (0 : Fin 2) * 5000 ≤ (i 0).val ∧ (i 0).val < win0_5.index t (0 : Fin 2) * 5000 + 5000; rw [e0, ht]; omega
      | ⟨1, _⟩ => show win0_5.index t (1 : Fin 2) * 128 ≤ (i 1).val ∧ (i 1).val < win0_5.index t (1 : Fin 2) * 128 + 128; rw [e1]; omega)

/-- The one write-back of the sum, at the last point, writes the column totals. -/
theorem flushed6 (t : Fin cfg0.N) (hf : (cfg0.win 6).flush t = true) :
    (dat0 (F := Ideal) V c).flushed 6 t = ((cfg0.win 6).blk t).view.read (Elt Ideal) (sumRow V c) := by
  have hN : cfg0.N = 10 := N10
  have h9 : t.val = 9 := by have h1 := (flush0_6 t).mp hf; have h2 := t.isLt; omega
  show (cfg0.win 6).cut (grid0.coords t) ((dat0 (F := Ideal) V c).after 6 t) = _
  rw [after0_6, outs_sum V c t.val t.isLt]
  obtain ⟨-, -, -, -, -, -, -, -, -, -, -, -, e0, e1, -⟩ := idx_facts t
  funext y
  have he : ((cfg0.win 6).blk t).view.emb y = y := funext fun a => Fin.ext (by
    match a with
    | ⟨0, _⟩ => show win0_6.index t (0 : Fin 2) * 1 + 1 * (y 0).val = (y 0).val; rw [e0]; omega
    | ⟨1, _⟩ => show win0_6.index t (1 : Fin 2) * 128 + 1 * (y 1).val = (y 1).val; rw [e1]; omega)
  show rowSum V c t.val y = sumRow V c (((cfg0.win 6).blk t).view.emb y)
  rw [he, h9]
  exact Cert.LibRunningSums.run_all (5000 * 9 + 5000) (by norm_num) _ _

/-- The array of the sum after the region: the zero word plus the column's sum of the pre-activations. -/
theorem arr6 : (dat0 (F := Ideal) V c).arrAt 6 cfg0.N
    = fun i => Cert.Encoder.zW + Cert.Encoder.colSum (Cert.Encoder.pre (V c (Pipeline.arrRef spec0 0)) (V c (Pipeline.arrRef spec0 1))
        (V c (Pipeline.arrRef spec0 2)) (Cert.LibRowBias.rowOf (V c (Pipeline.arrRef spec0 3))) (V c (Pipeline.arrRef spec0 4))) (i 1) :=
  (dat0 (F := Ideal) V c).arrAt_eq_of_cover 6 (sumRow V c) (flushed6 V c) (fun i => by
      have hi0 : (i 0).val < 1 := (i 0).isLt
      have hi1 : (i 1).val < 128 := (i 1).isLt
      have hN : cfg0.N = 10 := N10
      obtain ⟨t, ht⟩ : ∃ t : Fin cfg0.N, t.val = 9 := ⟨⟨9, by omega⟩, rfl⟩
      obtain ⟨-, -, -, -, -, -, -, -, -, -, -, -, e0, e1, -⟩ := idx_facts t
      refine ⟨t, (flush0_6 t).mpr (by rw [ht]), ?_⟩
      show i ∈ ((View.whole main_v24_1).slice (win0_6.rect t)).set
      rw [View.set_slice_whole, Rect.mem_set_unit]
      intro a
      match a with
      | ⟨0, _⟩ => show win0_6.index t (0 : Fin 2) * 1 ≤ (i 0).val ∧ (i 0).val < win0_6.index t (0 : Fin 2) * 1 + 1; rw [e0]; omega
      | ⟨1, _⟩ => show win0_6.index t (1 : Fin 2) * 128 ≤ (i 1).val ∧ (i 1).val < win0_6.index t (1 : Fin 2) * 128 + 128; rw [e1]; omega)

/-- The one write-back of the sq, at the last point, writes the column totals. -/
theorem flushed7 (t : Fin cfg0.N) (hf : (cfg0.win 7).flush t = true) :
    (dat0 (F := Ideal) V c).flushed 7 t = ((cfg0.win 7).blk t).view.read (Elt Ideal) (sqRow V c) := by
  have hN : cfg0.N = 10 := N10
  have h9 : t.val = 9 := by have h1 := (flush0_7 t).mp hf; have h2 := t.isLt; omega
  show (cfg0.win 7).cut (grid0.coords t) ((dat0 (F := Ideal) V c).after 7 t) = _
  rw [after0_7, outs_sq V c t.val t.isLt]
  obtain ⟨-, -, -, -, -, -, -, -, -, -, -, -, -, -, e0, e1⟩ := idx_facts t
  funext y
  have he : ((cfg0.win 7).blk t).view.emb y = y := funext fun a => Fin.ext (by
    match a with
    | ⟨0, _⟩ => show win0_7.index t (0 : Fin 2) * 1 + 1 * (y 0).val = (y 0).val; rw [e0]; omega
    | ⟨1, _⟩ => show win0_7.index t (1 : Fin 2) * 128 + 1 * (y 1).val = (y 1).val; rw [e1]; omega)
  show rowSq V c t.val y = sqRow V c (((cfg0.win 7).blk t).view.emb y)
  rw [he, h9]
  exact Cert.LibRunningSums.run_all (5000 * 9 + 5000) (by norm_num) _ _

/-- The array of the sq after the region: the zero word plus the column's sum of squares of the pre-activations. -/
theorem arr7 : (dat0 (F := Ideal) V c).arrAt 7 cfg0.N
    = fun i => Cert.Encoder.zW + Cert.Encoder.colSq (Cert.Encoder.pre (V c (Pipeline.arrRef spec0 0)) (V c (Pipeline.arrRef spec0 1))
        (V c (Pipeline.arrRef spec0 2)) (Cert.LibRowBias.rowOf (V c (Pipeline.arrRef spec0 3))) (V c (Pipeline.arrRef spec0 4))) (i 1) :=
  (dat0 (F := Ideal) V c).arrAt_eq_of_cover 7 (sqRow V c) (flushed7 V c) (fun i => by
      have hi0 : (i 0).val < 1 := (i 0).isLt
      have hi1 : (i 1).val < 128 := (i 1).isLt
      have hN : cfg0.N = 10 := N10
      obtain ⟨t, ht⟩ : ∃ t : Fin cfg0.N, t.val = 9 := ⟨⟨9, by omega⟩, rfl⟩
      obtain ⟨-, -, -, -, -, -, -, -, -, -, -, -, -, -, e0, e1⟩ := idx_facts t
      refine ⟨t, (flush0_7 t).mpr (by rw [ht]), ?_⟩
      show i ∈ ((View.whole main_v24_2).slice (win0_7.rect t)).set
      rw [View.set_slice_whole, Rect.mem_set_unit]
      intro a
      match a with
      | ⟨0, _⟩ => show win0_7.index t (0 : Fin 2) * 1 ≤ (i 0).val ∧ (i 0).val < win0_7.index t (0 : Fin 2) * 1 + 1; rw [e0]; omega
      | ⟨1, _⟩ => show win0_7.index t (1 : Fin 2) * 128 ≤ (i 1).val ∧ (i 1).val < win0_7.index t (1 : Fin 2) * 128 + 128; rw [e1]; omega)

end Cert.Enc.K0
end
-- ==== Proof.K2Cases.lean ====
/-
  The second accumulating region, case by case: the same body as the first accumulating region on the second layer's
  arrays. What each case leaves in the three output buffers is the block of pre-activations, the row of column sums
  acc + Σ_rows A and the row of column sums of squares acc + Σ_rows A·A, acc the cleared row at the first grid point and
  the buffer's previous contents afterwards.
-/
import proofs.«180070_j13675175870684_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.Enc.K2
open Cert.KernelIdeal Cert.KernelIdeal.Gen
variable {F : FTy → Type} [FloatOps F]

theorem hz : (![0, 0] : Fin 2 → Nat) = fun _ => 0 := funext fun a => by fin_cases a <;> rfl

theorem outA5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_5 c i a1 h1 a2 h2 a3 h3 a4 h4 a5 h5 a6 h6 a7 h7 a8 h8 hc x0 x1 x2 x3 x4 = k2_pay4 x0 x2 x1 x4 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_6 c i a1 h1 a2 h2 a3 h3 a4 h4 a5 h5 a6 h6 a7 h7 a8 h8 hc x0 x1 x2 x3 x4 = k2_pay5 x0 x2 x1 x4 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outA7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S5000x128 .f32) (x2 : Vec F S128x128 .f32) (x3 : Vec F S1x128 .f32) (x4 : Vec F S128x128 .f32) :
    out2_A_7 c i a1 h1 a2 h2 a3 h3 a4 h4 a5 h5 a6 h6 a7 h7 a8 h8 hc x0 x1 x2 x3 x4 = k2_pay1 (k2_pay6 (k2_pay3 (F := F))) (k2_pay7 x0 x2 x1 x4 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz,
    View.ld_unit_zero (S := S128x128) hz, View.ld_unit_zero (S := S1x128) hz]

theorem outB5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x2 x1 x4 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x2 x1 x4 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

theorem outB7 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S5000x128 .f32) (x2 : Vec F S128x128 .f32) (x3 : Vec F S1x128 .f32) (x4 : Vec F S128x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x2 x1 x4 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  try sl_unfold_words
  first | rw [View.canon_unit_zero (S := S5000x128) hz] | rw [View.canon_unit_zero (S := S1x128) hz]
  simp only [View.readAt_eq_ld, h1.read_unread, h2.read_unread, h3.read_unread, h4.read_unread, h5.read_unread, h7.read_unread, h8.read_unread, View.ld_unit_zero (S := S5000x128) hz,
    View.ld_unit_zero (S := S128x128) hz, View.ld_unit_zero (S := S1x128) hz]

end Cert.Enc.K2
end
-- ==== Proof.K2Value.lean ====
/-
  The second accumulating region as whole-array functions of the arrays it finds, on extended reals. The grid has ten points; point t
  holds rows 5000·t … 5000·t + 4999 of the two [50000,128] inputs and the whole weight matrices and bias row. Its first
  output is, block by block, the layer's pre-activation A = (a·Wl + x·Wr) + b of the whole arrays (a row of the block
  depends only on that row of the inputs). The two one-row outputs are running totals: after point n they hold, column by
  column, the zero word plus the sum (the sum of squares) of A over the rows below 5000·n + 5000 — by recursion on the point —,
  so after the last point the column's total over all 50000 rows; they are written back once, at the last point.
-/
import proofs.«180070_j13675175870684_1_alg».proof.Proof.Gen.KernelIdeal.Frame
import proofs.«180070_j13675175870684_1_alg».proof.Proof.K2Cases
import proofs.«180070_j13675175870684_1_alg».proof.Proof.K0Pay
import proofs.«180070_j13675175870684_1_alg».proof.Proof.Spec
import proofs.«180070_j13675175870684_1_alg».proof.Proof.LibRunningSums
import Idealize.ShloMosaic.Lib.Pipeline.Value
import Idealize.ShloMosaic.Lib.ValueIdx

set_option maxRecDepth 16384

noncomputable section
open Idealize.ShloMosaic Idealize.ShloMosaic.TcCoe Idealize.SL.Sem
open Idealize.ShloMosaic.Pipeline (Dat)

namespace Cert.Enc.K2
open Cert.KernelIdeal Cert.KernelIdeal.Gen Idealize.ShloMosaic.ValueIdx Cert.LibRowBlocks
open scoped BigOperators

variable (V : (c : Dev nD) → (b : Ref sig .tc) → Buf (Elt Ideal) ((c : Thread nD τ).loc b)) (c : Dev nD)

theorem N10 : cfg2.N = 10 := N_2

/-- The printed index maps over the grid: the row-blocked windows sit at block (t, 0), the others at (0, 0). -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0 :=
  (by decide +kernel : ∀ t : Fin grid2.N, _)

/-- The arrays as the region finds them. -/
abbrev inA : Cert.Sage.Mat 50000 128 := V c (Pipeline.arrRef spec2 0)
abbrev inX : Cert.Sage.Mat 50000 128 := V c (Pipeline.arrRef spec2 1)
abbrev inWl : Cert.Sage.Mat 128 128 := V c (Pipeline.arrRef spec2 2)
abbrev inB : (⟨2, ![1, 128]⟩ : Shape).Idx → EReal := V c (Pipeline.arrRef spec2 3)
abbrev inWr : Cert.Sage.Mat 128 128 := V c (Pipeline.arrRef spec2 4)

/-- The whole array of pre-activations. -/
def Apre : Cert.Sage.Mat 50000 128 :=
  Cert.Encoder.pre (inA V c) (inX V c) (inWl V c) (Cert.LibRowBias.rowOf (inB V c)) (inWr V c)

/-- Row p of point t's block is row 5000·t + p of the array. -/
def rowAt (t : Fin cfg2.N) (p : Fin 5000) : Fin 50000 :=
  ⟨5000 * t.val + p.val, by have h1 : t.val < 10 := Nat.lt_of_lt_of_eq t.isLt N10; have h2 := p.isLt; omega⟩

theorem row_ix (y : S1x128.Idx) : y = ix2 (0 : Fin 1) (y 1) := by
  have h0 : (y 0).val < 1 := (y 0).isLt
  funext a
  refine Fin.ext ?_
  match a with
  | ⟨0, _⟩ => show (y 0).val = 0; omega
  | ⟨1, _⟩ => rfl

theorem blkA (t : Fin cfg2.N) (p : Fin 5000) (k : Fin 128) :
    (iblk2 V c 0 t : Vec Ideal S5000x128 .f32) (ix2 p k) = inA V c (ix2 (rowAt t p) k) := by
  obtain ⟨e0, e1, -⟩ := idx_facts t
  show V c (Pipeline.arrRef spec2 0) (((cfg2.win 0).blk t).view.emb (ix2 p k)) = V c (Pipeline.arrRef spec2 0) (ix2 (rowAt t p) k)
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

theorem blkX (t : Fin cfg2.N) (p : Fin 5000) (k : Fin 128) :
    (iblk2 V c 1 t : Vec Ideal S5000x128 .f32) (ix2 p k) = inX V c (ix2 (rowAt t p) k) := by
  obtain ⟨-, -, e0, e1, -⟩ := idx_facts t
  show V c (Pipeline.arrRef spec2 1) (((cfg2.win 1).blk t).view.emb (ix2 p k)) = V c (Pipeline.arrRef spec2 1) (ix2 (rowAt t p) k)
  refine congrArg _ (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

theorem blkWl (t : Fin cfg2.N) : (iblk2 V c 2 t : Vec Ideal S128x128 .f32) = inWl V c := by
  obtain ⟨-, -, -, -, e0, e1, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem blkB (t : Fin cfg2.N) : (iblk2 V c 3 t : Vec Ideal S1x128 .f32) = inB V c := by
  obtain ⟨-, -, -, -, -, -, e0, e1, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

theorem blkWr (t : Fin cfg2.N) : (iblk2 V c 4 t : Vec Ideal S128x128 .f32) = inWr V c := by
  obtain ⟨-, -, -, -, -, -, -, -, e0, e1, -⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The pre-activation the body computes on point t's blocks is the array's, row 5000·t + p. -/
theorem pre_block (t : Fin cfg2.N) (p : Fin 5000) (q : Fin 128) :
    k2_pay4 (F := Ideal) (iblk2 V c 0 t) (iblk2 V c 2 t) (iblk2 V c 1 t) (iblk2 V c 4 t) (iblk2 V c 3 t) (ix2 p q) = Apre V c (ix2 (rowAt t p) q) := by
  refine (pre_apply (iblk2 V c 0 t) (iblk2 V c 1 t) (iblk2 V c 2 t) (iblk2 V c 4 t) (iblk2 V c 3 t) p q).trans ?_
  rw [blkWl V c t, blkB V c t, blkWr V c t]
  exact Cert.Sage.preAt_congr _ _ (inA V c) (inX V c) (inWl V c) (Cert.LibRowBias.rowOf (inB V c)) (inWr V c) p (rowAt t p)
    (fun k => blkA V c t p k) (fun k => blkX V c t p k) q

/-- Block t of the array of pre-activations. -/
def blockOf (t : Fin cfg2.N) : Vec Ideal S5000x128 .f32 := fun y => Apre V c (ix2 (rowAt t (y 0)) (y 1))

theorem fst_eq (t : Fin cfg2.N) : k2_pay4 (F := Ideal) (iblk2 V c 0 t) (iblk2 V c 2 t) (iblk2 V c 1 t) (iblk2 V c 4 t) (iblk2 V c 3 t) = blockOf V c t := by
  funext y
  obtain ⟨p, q, rfl⟩ : ∃ (p : Fin 5000) (q : Fin 128), y = ix2 p q := ⟨y 0, y 1, eq_ix2 y⟩
  exact pre_block V c t p q

/-- The running column sums after point n: the zero word plus the sum over the rows below 5000·n + 5000. -/
def rowSum (n : ℕ) : Vec Ideal S1x128 .f32 :=
  fun y => Cert.Encoder.zW + ∑ r ∈ below 50000 (5000 * n + 5000), Apre V c (ix2 r (y 1))
/-- The running column sums of squares after point n. -/
def rowSq (n : ℕ) : Vec Ideal S1x128 .f32 :=
  fun y => Cert.Encoder.zW + ∑ r ∈ below 50000 (5000 * n + 5000), Apre V c (ix2 r (y 1)) * Apre V c (ix2 r (y 1))
/-- The column totals. -/
def sumRow : Vec Ideal S1x128 .f32 := fun y => Cert.Encoder.zW + Cert.Encoder.colSum (Apre V c) (y 1)
def sqRow : Vec Ideal S1x128 .f32 := fun y => Cert.Encoder.zW + Cert.Encoder.colSq (Apre V c) (y 1)

/-- The first output's buffer after point t: block t of the pre-activations, in either case. -/
theorem outs_fst (t : Fin cfg2.N) : (outsAt2 V c t.val t.isLt).1 = blockOf V c t := by
  by_cases h0 : t.val % 10 = 0
  · rw [outsAt2_A V c t h0]; dsimp only
    exact (outA5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)).trans (fst_eq V c t)
  · rw [outsAt2_B V c t h0]; dsimp only
    exact (outB5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hcnd => h0 ((hcond2_0 t).mp hcnd)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2).trans (fst_eq V c t)

/-- The sum after the first grid point. -/
theorem sum_point0 (h : 0 < cfg2.N) : k2_pay5 (F := Ideal) (iblk2 V c 0 ⟨0, h⟩) (iblk2 V c 2 ⟨0, h⟩) (iblk2 V c 1 ⟨0, h⟩) (iblk2 V c 4 ⟨0, h⟩) (iblk2 V c 3 ⟨0, h⟩) (k2_pay2 (F := Ideal)) = rowSum V c 0 := by
  funext y
  obtain ⟨q, rfl⟩ : ∃ q : Fin 128, y = ix2 (0 : Fin 1) q := ⟨y 1, row_ix y⟩
  refine (sum_apply (iblk2 V c 0 ⟨0, h⟩) (iblk2 V c 1 ⟨0, h⟩) (iblk2 V c 2 ⟨0, h⟩) (iblk2 V c 4 ⟨0, h⟩) (iblk2 V c 3 ⟨0, h⟩) (k2_pay2 (F := Ideal)) q).trans ?_
  rw [zero1_apply, Finset.sum_congr rfl fun p _ => pre_block V c ⟨0, h⟩ p q]
  exact Cert.LibRunningSums.run_first 5000 (by norm_num) (fun r => Apre V c (ix2 r q)) Cert.Encoder.zW (rowAt ⟨0, h⟩)
    (fun p => by show 5000 * 0 + p.val = 0 + p.val; omega)

/-- One more grid point added to the sum. -/
theorem sum_step (n : ℕ) (h : n + 1 < cfg2.N) : k2_pay5 (F := Ideal) (iblk2 V c 0 ⟨n + 1, h⟩) (iblk2 V c 2 ⟨n + 1, h⟩) (iblk2 V c 1 ⟨n + 1, h⟩) (iblk2 V c 4 ⟨n + 1, h⟩) (iblk2 V c 3 ⟨n + 1, h⟩) (rowSum V c n) = rowSum V c (n + 1) := by
  funext y
  obtain ⟨q, rfl⟩ : ∃ q : Fin 128, y = ix2 (0 : Fin 1) q := ⟨y 1, row_ix y⟩
  refine (sum_apply (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (rowSum V c n) q).trans ?_
  rw [Finset.sum_congr rfl fun p _ => pre_block V c ⟨n + 1, h⟩ p q]
  have hN : cfg2.N = 10 := N10
  show (Cert.Encoder.zW + ∑ r ∈ below 50000 (5000 * n + 5000), Apre V c (ix2 r q))
      + ∑ p : Fin 5000, Apre V c (ix2 (rowAt ⟨n + 1, h⟩ p) q)
    = Cert.Encoder.zW + ∑ r ∈ below 50000 (5000 * (n + 1) + 5000), Apre V c (ix2 r q)
  rw [show 5000 * (n + 1) + 5000 = 5000 * n + 5000 + 5000 from by omega]
  exact Cert.LibRunningSums.run_step (5000 * n + 5000) 5000 (by omega) (fun r => Apre V c (ix2 r q)) Cert.Encoder.zW (rowAt ⟨n + 1, h⟩)
    (fun p => by show 5000 * (n + 1) + p.val = 5000 * n + 5000 + p.val; omega)

/-- What the sum's buffer holds after point n, by recursion on the point. -/
theorem outs_sum : ∀ (n : ℕ) (h : n < cfg2.N), (outsAt2 V c n h).2.1 = rowSum V c n
  | 0, h => (congrArg (fun z => z.2.1) (outsAt2_A V c ⟨0, h⟩ (Nat.zero_mod 10))).trans
      ((outA6 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod 10)) (iblk2 V c 0 ⟨0, h⟩) (iblk2 V c 1 ⟨0, h⟩) (iblk2 V c 2 ⟨0, h⟩) (iblk2 V c 3 ⟨0, h⟩) (iblk2 V c 4 ⟨0, h⟩)).trans (sum_point0 V c h))
  | n + 1, h => by
    have hN : cfg2.N = 10 := N10
    have hB : ¬ (⟨n + 1, h⟩ : Fin cfg2.N).val % 10 = 0 := by dsimp only; omega
    refine (congrArg (fun z => z.2.1) (outsAt2_B V c ⟨n + 1, h⟩ hB)).trans ?_
    refine (outB6 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hcnd => hB ((hcond2_0 ⟨n + 1, h⟩).mp hcnd)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 (outsAt2 V c n (Nat.lt_of_succ_lt h)).2.2).trans ?_
    rw [outs_sum n (Nat.lt_of_succ_lt h)]
    exact sum_step V c n h

/-- The sq after the first grid point. -/
theorem sq_point0 (h : 0 < cfg2.N) : k2_pay1 (F := Ideal) (k2_pay6 (k2_pay3 (F := Ideal))) (k2_pay7 (iblk2 V c 0 ⟨0, h⟩) (iblk2 V c 2 ⟨0, h⟩) (iblk2 V c 1 ⟨0, h⟩) (iblk2 V c 4 ⟨0, h⟩) (iblk2 V c 3 ⟨0, h⟩)) = rowSq V c 0 := by
  funext y
  obtain ⟨q, rfl⟩ : ∃ q : Fin 128, y = ix2 (0 : Fin 1) q := ⟨y 1, row_ix y⟩
  refine (sq_apply (iblk2 V c 0 ⟨0, h⟩) (iblk2 V c 1 ⟨0, h⟩) (iblk2 V c 2 ⟨0, h⟩) (iblk2 V c 4 ⟨0, h⟩) (iblk2 V c 3 ⟨0, h⟩) (k2_pay3 (F := Ideal)) q).trans ?_
  rw [zero2_apply, Finset.sum_congr rfl fun p _ => congrArg (fun z => z * z) (pre_block V c ⟨0, h⟩ p q)]
  exact Cert.LibRunningSums.run_first 5000 (by norm_num) (fun r => Apre V c (ix2 r q) * Apre V c (ix2 r q)) Cert.Encoder.zW (rowAt ⟨0, h⟩)
    (fun p => by show 5000 * 0 + p.val = 0 + p.val; omega)

/-- One more grid point added to the sq. -/
theorem sq_step (n : ℕ) (h : n + 1 < cfg2.N) : k2_pay1 (F := Ideal) (k2_pay6 (rowSq V c n)) (k2_pay7 (iblk2 V c 0 ⟨n + 1, h⟩) (iblk2 V c 2 ⟨n + 1, h⟩) (iblk2 V c 1 ⟨n + 1, h⟩) (iblk2 V c 4 ⟨n + 1, h⟩) (iblk2 V c 3 ⟨n + 1, h⟩)) = rowSq V c (n + 1) := by
  funext y
  obtain ⟨q, rfl⟩ : ∃ q : Fin 128, y = ix2 (0 : Fin 1) q := ⟨y 1, row_ix y⟩
  refine (sq_apply (iblk2 V c 0 ⟨n + 1, h⟩) (iblk2 V c 1 ⟨n + 1, h⟩) (iblk2 V c 2 ⟨n + 1, h⟩) (iblk2 V c 4 ⟨n + 1, h⟩) (iblk2 V c 3 ⟨n + 1, h⟩) (rowSq V c n) q).trans ?_
  rw [Finset.sum_congr rfl fun p _ => congrArg (fun z => z * z) (pre_block V c ⟨n + 1, h⟩ p q)]
  have hN : cfg2.N = 10 := N10
  show (Cert.Encoder.zW + ∑ r ∈ below 50000 (5000 * n + 5000), Apre V c (ix2 r q) * Apre V c (ix2 r q))
      + ∑ p : Fin 5000, Apre V c (ix2 (rowAt ⟨n + 1, h⟩ p) q) * Apre V c (ix2 (rowAt ⟨n + 1, h⟩ p) q)
    = Cert.Encoder.zW + ∑ r ∈ below 50000 (5000 * (n + 1) + 5000), Apre V c (ix2 r q) * Apre V c (ix2 r q)
  rw [show 5000 * (n + 1) + 5000 = 5000 * n + 5000 + 5000 from by omega]
  exact Cert.LibRunningSums.run_step (5000 * n + 5000) 5000 (by omega) (fun r => Apre V c (ix2 r q) * Apre V c (ix2 r q)) Cert.Encoder.zW (rowAt ⟨n + 1, h⟩)
    (fun p => by show 5000 * (n + 1) + p.val = 5000 * n + 5000 + p.val; omega)

/-- What the sq's buffer holds after point n, by recursion on the point. -/
theorem outs_sq : ∀ (n : ℕ) (h : n < cfg2.N), (outsAt2 V c n h).2.2 = rowSq V c n
  | 0, h => (congrArg (fun z => z.2.2) (outsAt2_A V c ⟨0, h⟩ (Nat.zero_mod 10))).trans
      ((outA7 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod 10)) (iblk2 V c 0 ⟨0, h⟩) (iblk2 V c 1 ⟨0, h⟩) (iblk2 V c 2 ⟨0, h⟩) (iblk2 V c 3 ⟨0, h⟩) (iblk2 V c 4 ⟨0, h⟩)).trans (sq_point0 V c h))
  | n + 1, h => by
    have hN : cfg2.N = 10 := N10
    have hB : ¬ (⟨n + 1, h⟩ : Fin cfg2.N).val % 10 = 0 := by dsimp only; omega
    refine (congrArg (fun z => z.2.2) (outsAt2_B V c ⟨n + 1, h⟩ hB)).trans ?_
    refine (outB7 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hcnd => hB ((hcond2_0 ⟨n + 1, h⟩).mp hcnd)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 (outsAt2 V c n (Nat.lt_of_succ_lt h)).2.2).trans ?_
    rw [outs_sq n (Nat.lt_of_succ_lt h)]
    exact sq_step V c n h

/-! ## From blocks to the arrays -/

/-- What point t writes back of the first output is block t of the pre-activations. -/
theorem flushed5 (t : Fin cfg2.N) :
    (dat2 (F := Ideal) V c).flushed 5 t = ((cfg2.win 5).blk t).view.read (Elt Ideal) (Apre V c) := by
  show (cfg2.win 5).cut (grid2.coords t) ((dat2 (F := Ideal) V c).after 5 t) = _
  rw [after2_5, outs_fst]
  obtain ⟨-, -, -, -, -, -, -, -, -, -, e0, e1, -⟩ := idx_facts t
  funext y
  show Apre V c (ix2 (rowAt t (y 0)) (y 1)) = Apre V c (((cfg2.win 5).blk t).view.emb y)
  refine congrArg _ (funext fun a => Fin.ext ?_)
  match a with
  | ⟨0, _⟩ => show 5000 * t.val + (y 0).val = win2_5.index t (0 : Fin 2) * 5000 + 1 * (y 0).val; rw [e0]; omega
  | ⟨1, _⟩ => show (y 1).val = win2_5.index t (1 : Fin 2) * 128 + 1 * (y 1).val; rw [e1]; omega

/-- The first output array after the region: the layer's pre-activation of the arrays the region finds. -/
theorem arr5 : (dat2 (F := Ideal) V c).arrAt 5 cfg2.N
    = Cert.Encoder.pre (V c (Pipeline.arrRef spec2 0)) (V c (Pipeline.arrRef spec2 1)) (V c (Pipeline.arrRef spec2 2))
        (Cert.LibRowBias.rowOf (V c (Pipeline.arrRef spec2 3))) (V c (Pipeline.arrRef spec2 4)) :=
  (dat2 (F := Ideal) V c).arrAt_eq_of_cover 5 (Apre V c) (fun t _ => flushed5 V c t) (fun i => by
      have hi0 : (i 0).val < 50000 := (i 0).isLt
      have hi1 : (i 1).val < 128 := (i 1).isLt
      have hN : cfg2.N = 10 := N10
      obtain ⟨t, ht⟩ : ∃ t : Fin cfg2.N, t.val = (i 0).val / 5000 := ⟨⟨(i 0).val / 5000, by omega⟩, rfl⟩
      obtain ⟨-, -, -, -, -, -, -, -, -, -, e0, e1, -⟩ := idx_facts t
      refine ⟨t, flush2_5 t, ?_⟩
      show i ∈ ((View.whole main_v54_0).slice (win2_5.rect t)).set
      rw [View.set_slice_whole, Rect.mem_set_unit]
      intro a
      match a with
      | ⟨0, _⟩ => show win2_5.index t (0 : Fin 2) * 5000 ≤ (i 0).val ∧ (i 0).val < win2_5.index t (0 : Fin 2) * 5000 + 5000; rw [e0, ht]; omega
      | ⟨1, _⟩ => show win2_5.index t (1 : Fin 2) * 128 ≤ (i 1).val ∧ (i 1).val < win2_5.index t (1 : Fin 2) * 128 + 128; rw [e1]; omega)

/-- The one write-back of the sum, at the last point, writes the column totals. -/
theorem flushed6 (t : Fin cfg2.N) (hf : (cfg2.win 6).flush t = true) :
    (dat2 (F := Ideal) V c).flushed 6 t = ((cfg2.win 6).blk t).view.read (Elt Ideal) (sumRow V c) := by
  have hN : cfg2.N = 10 := N10
  have h9 : t.val = 9 := by have h1 := (flush2_6 t).mp hf; have h2 := t.isLt; omega
  show (cfg2.win 6).cut (grid2.coords t) ((dat2 (F := Ideal) V c).after 6 t) = _
  rw [after2_6, outs_sum V c t.val t.isLt]
  obtain ⟨-, -, -, -, -, -, -, -, -, -, -, -, e0, e1, -⟩ := idx_facts t
  funext y
  have he : ((cfg2.win 6).blk t).view.emb y = y := funext fun a => Fin.ext (by
    match a with
    | ⟨0, _⟩ => show win2_6.index t (0 : Fin 2) * 1 + 1 * (y 0).val = (y 0).val; rw [e0]; omega
    | ⟨1, _⟩ => show win2_6.index t (1 : Fin 2) * 128 + 1 * (y 1).val = (y 1).val; rw [e1]; omega)
  show rowSum V c t.val y = sumRow V c (((cfg2.win 6).blk t).view.emb y)
  rw [he, h9]
  exact Cert.LibRunningSums.run_all (5000 * 9 + 5000) (by norm_num) _ _

/-- The array of the sum after the region: the zero word plus the column's sum of the pre-activations. -/
theorem arr6 : (dat2 (F := Ideal) V c).arrAt 6 cfg2.N
    = fun i => Cert.Encoder.zW + Cert.Encoder.colSum (Cert.Encoder.pre (V c (Pipeline.arrRef spec2 0)) (V c (Pipeline.arrRef spec2 1))
        (V c (Pipeline.arrRef spec2 2)) (Cert.LibRowBias.rowOf (V c (Pipeline.arrRef spec2 3))) (V c (Pipeline.arrRef spec2 4))) (i 1) :=
  (dat2 (F := Ideal) V c).arrAt_eq_of_cover 6 (sumRow V c) (flushed6 V c) (fun i => by
      have hi0 : (i 0).val < 1 := (i 0).isLt
      have hi1 : (i 1).val < 128 := (i 1).isLt
      have hN : cfg2.N = 10 := N10
      obtain ⟨t, ht⟩ : ∃ t : Fin cfg2.N, t.val = 9 := ⟨⟨9, by omega⟩, rfl⟩
      obtain ⟨-, -, -, -, -, -, -, -, -, -, -, -, e0, e1, -⟩ := idx_facts t
      refine ⟨t, (flush2_6 t).mpr (by rw [ht]), ?_⟩
      show i ∈ ((View.whole main_v54_1).slice (win2_6.rect t)).set
      rw [View.set_slice_whole, Rect.mem_set_unit]
      intro a
      match a with
      | ⟨0, _⟩ => show win2_6.index t (0 : Fin 2) * 1 ≤ (i 0).val ∧ (i 0).val < win2_6.index t (0 : Fin 2) * 1 + 1; rw [e0]; omega
      | ⟨1, _⟩ => show win2_6.index t (1 : Fin 2) * 128 ≤ (i 1).val ∧ (i 1).val < win2_6.index t (1 : Fin 2) * 128 + 128; rw [e1]; omega)

/-- The one write-back of the sq, at the last point, writes the column totals. -/
theorem flushed7 (t : Fin cfg2.N) (hf : (cfg2.win 7).flush t = true) :
    (dat2 (F := Ideal) V c).flushed 7 t = ((cfg2.win 7).blk t).view.read (Elt Ideal) (sqRow V c) := by
  have hN : cfg2.N = 10 := N10
  have h9 : t.val = 9 := by have h1 := (flush2_7 t).mp hf; have h2 := t.isLt; omega
  show (cfg2.win 7).cut (grid2.coords t) ((dat2 (F := Ideal) V c).after 7 t) = _
  rw [after2_7, outs_sq V c t.val t.isLt]
  obtain ⟨-, -, -, -, -, -, -, -, -, -, -, -, -, -, e0, e1⟩ := idx_facts t
  funext y
  have he : ((cfg2.win 7).blk t).view.emb y = y := funext fun a => Fin.ext (by
    match a with
    | ⟨0, _⟩ => show win2_7.index t (0 : Fin 2) * 1 + 1 * (y 0).val = (y 0).val; rw [e0]; omega
    | ⟨1, _⟩ => show win2_7.index t (1 : Fin 2) * 128 + 1 * (y 1).val = (y 1).val; rw [e1]; omega)
  show rowSq V c t.val y = sqRow V c (((cfg2.win 7).blk t).view.emb y)
  rw [he, h9]
  exact Cert.LibRunningSums.run_all (5000 * 9 + 5000) (by norm_num) _ _

/-- The array of the sq after the region: the zero word plus the column's sum of squares of the pre-activations. -/
theorem arr7 : (dat2 (F := Ideal) V c).arrAt 7 cfg2.N
    = fun i => Cert.Encoder.zW + Cert.Encoder.colSq (Cert.Encoder.pre (V c (Pipeline.arrRef spec2 0)) (V c (Pipeline.arrRef spec2 1))
        (V c (Pipeline.arrRef spec2 2)) (Cert.LibRowBias.rowOf (V c (Pipeline.arrRef spec2 3))) (V c (Pipeline.arrRef spec2 4))) (i 1) :=
  (dat2 (F := Ideal) V c).arrAt_eq_of_cover 7 (sqRow V c) (flushed7 V c) (fun i => by
      have hi0 : (i 0).val < 1 := (i 0).isLt
      have hi1 : (i 1).val < 128 := (i 1).isLt
      have hN : cfg2.N = 10 := N10
      obtain ⟨t, ht⟩ : ∃ t : Fin cfg2.N, t.val = 9 := ⟨⟨9, by omega⟩, rfl⟩
      obtain ⟨-, -, -, -, -, -, -, -, -, -, -, -, -, -, e0, e1⟩ := idx_facts t
      refine ⟨t, (flush2_7 t).mpr (by rw [ht]), ?_⟩
      show i ∈ ((View.whole main_v54_2).slice (win2_7.rect t)).set
      rw [View.set_slice_whole, Rect.mem_set_unit]
      intro a
      match a with
      | ⟨0, _⟩ => show win2_7.index t (0 : Fin 2) * 1 ≤ (i 0).val ∧ (i 0).val < win2_7.index t (0 : Fin 2) * 1 + 1; rw [e0]; omega
      | ⟨1, _⟩ => show win2_7.index t (1 : Fin 2) * 128 ≤ (i 1).val ∧ (i 1).val < win2_7.index t (1 : Fin 2) * 128 + 128; rw [e1]; omega)

end Cert.Enc.K2
end
-- ==== Proof.Region1.lean ====
/-
  The first normalising region of the encoder, as one function of the arrays it finds.

  The region walks a matrix of 50000 rows and 128 columns in ten blocks of 5000 rows. At every block it also sees four
  one-row matrices: a row of column means, a row of column variances, a row of scales and a row of shifts. At entry (p, q)
  of a block it forms
      max (g(q) * ((y(p, q) - mean(q)) * rsqrt (var(q) + eps)) + shift(q)) 0,
  which depends on the block only through its own entry (p, q): entry (p, q) of block t is entry (5000 t + p, q) of the matrix,
  and the rows are the same at every block. The ten blocks of the output tile its 50000 rows (row r lies in block r / 5000),
  so the output array is the column normalisation of the whole matrix with the given rows, entry by entry. No law of
  arithmetic is used; nothing needs finite entries.
-/
import proofs.«180070_j13675175870684_1_alg».proof.Proof.Gen.KernelIdeal.Frame
import proofs.«180070_j13675175870684_1_alg».proof.Proof.Spec
import proofs.«180070_j13675175870684_1_alg».proof.Proof.LibRowBias
import proofs.«180070_j13675175870684_1_alg».proof.Proof.LibPlainDot
import proofs.«180070_j13675175870684_1_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.Enc.KRegions

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets, spelt as a constant function. -/
theorem hz : (![0, 0] : Fin 2 → Nat) = fun _ => 0 := funext fun a => by fin_cases a <;> rfl

/-- The normalising body at one entry. -/
theorem pay1_apply (x0 : Vec Ideal S5000x128 .f32) (xv xm xg xb : Vec Ideal S1x128 .f32) (p : Fin 5000) (q : Fin 128) :
    k1_pay1 (F := Ideal) x0 xv xm xg xb (ix2 p q)
      = Cert.Encoder.normK (x0 (ix2 p q)) (xm (ix2 (0 : Fin 1) q)) (xv (ix2 (0 : Fin 1) q)) (xg (ix2 (0 : Fin 1) q)) (xb (ix2 (0 : Fin 1) q)) := by
  unfold k1_pay1
  simp only [maximumf_apply, addf_apply, mulf_apply, subf_apply, broadcast_apply, shapeCast_self]
  rw [broadcastTo_1b_ab_apply xg, broadcastTo_1b_ab_apply xm, broadcastTo_1b_ab_apply xb, broadcastTo_1b_ab_apply (rsqrt _)]
  rfl

variable (V : (c : Dev nD) → (b : Ref sig .tc) → Buf (Elt Ideal) ((c : Thread nD τ).loc b)) (c : Dev nD)

/-- Where the blocks sit at each of the ten grid points: the matrix blocks at block position (t, 0), the one-row blocks at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the output's block at point t is entry (5000 t + p, q) of the array. -/
theorem emb1_5 (t : Fin cfg1.N) (p : Fin 5000) (q : Fin 128) (r : Fin 50000) (hr : r.val = 5000 * t.val + p.val) :
    ((cfg1.win 5).blk t).view.emb (ix2 p q) = (ix2 r q : S50000x128.Idx) := by
  obtain ⟨-, -, -, -, -, -, -, -, -, -, e0, e1⟩ := idx1 t
  funext a; apply Fin.ext
  match a with
  | ⟨0, _⟩ => show win1_5.index t (0 : Fin 2) * 5000 + 1 * p.val = r.val; omega
  | ⟨1, _⟩ => show win1_5.index t (1 : Fin 2) * 128 + 1 * q.val = q.val; omega

/-- Entry (p, q) of the matrix window's block at point t is entry (5000 t + p, q) of its array. -/
theorem blk1_0 (t : Fin cfg1.N) (p : Fin 5000) (q : Fin 128) (r : Fin 50000) (hr : r.val = 5000 * t.val + p.val) :
    (iblk1 V c 0 t : Vec Ideal S5000x128 .f32) (ix2 p q) = (V c (Pipeline.arrRef spec1 0) : S50000x128.Idx → EReal) (ix2 r q) := by
  obtain ⟨e0, e1, -⟩ := idx1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- A row window's block is its whole one-row array. -/
theorem blk1_1 (t : Fin cfg1.N) (q : Fin 128) :
    (iblk1 V c 1 t : Vec Ideal S1x128 .f32) (ix2 (0 : Fin 1) q) = (V c (Pipeline.arrRef spec1 1) : S1x128.Idx → EReal) (ix2 (0 : Fin 1) q) := by
  obtain ⟨-, -, e0, e1, -⟩ := idx1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 1 + 1 * 0 = 0; omega
  | ⟨1, _⟩ => show win1_1.index t (1 : Fin 2) * 128 + 1 * q.val = q.val; omega
theorem blk1_2 (t : Fin cfg1.N) (q : Fin 128) :
    (iblk1 V c 2 t : Vec Ideal S1x128 .f32) (ix2 (0 : Fin 1) q) = (V c (Pipeline.arrRef spec1 2) : S1x128.Idx → EReal) (ix2 (0 : Fin 1) q) := by
  obtain ⟨-, -, -, -, e0, e1, -⟩ := idx1 t
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem blk1_3 (t : Fin cfg1.N) (q : Fin 128) :
    (iblk1 V c 3 t : Vec Ideal S1x128 .f32) (ix2 (0 : Fin 1) q) = (V c (Pipeline.arrRef spec1 3) : S1x128.Idx → EReal) (ix2 (0 : Fin 1) q) := by
  obtain ⟨-, -, -, -, -, -, e0, e1, -⟩ := idx1 t
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem blk1_4 (t : Fin cfg1.N) (q : Fin 128) :
    (iblk1 V c 4 t : Vec Ideal S1x128 .f32) (ix2 (0 : Fin 1) q) = (V c (Pipeline.arrRef spec1 4) : S1x128.Idx → EReal) (ix2 (0 : Fin 1) q) := by
  obtain ⟨-, -, -, -, -, -, -, -, e0, e1, -⟩ := idx1 t
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- The whole array the region leaves: the column normalisation of the matrix it finds, with the mean, variance, scale
    and shift rows it finds. -/
abbrev G1 : S50000x128.Idx → EReal :=
  Cert.Encoder.normWith (V c (Pipeline.arrRef spec1 0)) (fun q => V c (Pipeline.arrRef spec1 3) (ix2 0 q)) (fun q => V c (Pipeline.arrRef spec1 4) (ix2 0 q)) (fun q => V c (Pipeline.arrRef spec1 1) (ix2 0 q)) (fun q => V c (Pipeline.arrRef spec1 2) (ix2 0 q))

/-- What point t writes back is block t of that array. -/
theorem flushed1 (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  have hN : cfg1.N = 10 := N_1
  have ht : t.val < 10 := hN ▸ t.isLt
  show k1_pay1 (F := Ideal) (iblk1 V c 0 t) (iblk1 V c 4 t) (iblk1 V c 3 t) (iblk1 V c 1 t) (iblk1 V c 2 t) (ix2 p q)
    = G1 V c (((cfg1.win 5).blk t).view.emb (ix2 p q))
  rw [emb1_5 t p q ⟨5000 * t.val + p.val, by omega⟩ rfl]
  refine (pay1_apply _ _ _ _ _ p q).trans ?_
  rw [blk1_0 V c t p q ⟨5000 * t.val + p.val, by omega⟩ rfl, blk1_1, blk1_2, blk1_3, blk1_4]
  rfl

/-- An index of the array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Row r of the array lies in the block of point r / 5000. -/
theorem cover1 (i : S50000x128.Idx) : ∃ t : Fin cfg1.N, (cfg1.win 5).flush t = true ∧ i ∈ ((cfg1.win 5).blk t).view.set := by
  have hN : cfg1.N = 10 := N_1
  have hi0 : (i 0).val < 50000 := idx2_lt0 i
  have hi1 : (i 1).val < 128 := idx2_lt1 i
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region as one function of the arrays it finds: its output array is the column normalisation (scaled, shifted, rectified)
    of window 0's matrix with window 3's row as the means, window 4's as the variances, window 1's as the scales and
    window 2's as the shifts. -/
theorem arr1 : (dat1 (F := Ideal) V c).arrAt 5 cfg1.N
    = Cert.Encoder.normWith (V c (Pipeline.arrRef spec1 0)) (fun q => V c (Pipeline.arrRef spec1 3) (ix2 0 q)) (fun q => V c (Pipeline.arrRef spec1 4) (ix2 0 q)) (fun q => V c (Pipeline.arrRef spec1 1) (ix2 0 q)) (fun q => V c (Pipeline.arrRef spec1 2) (ix2 0 q)) :=
  (dat1 (F := Ideal) V c).arrAt_eq_of_cover 5 (G1 V c) (fun t _ => flushed1 V c t) cover1

end Cert.Enc.KRegions

end
-- ==== Proof.Region3.lean ====
/-
  The second normalising region of the encoder, as one function of the arrays it finds.

  The region walks a matrix of 50000 rows and 128 columns in ten blocks of 5000 rows. At every block it also sees four
  one-row matrices: a row of column means, a row of column variances, a row of scales and a row of shifts. At entry (p, q)
  of a block it forms
      max (g(q) * ((y(p, q) - mean(q)) * rsqrt (var(q) + eps)) + shift(q)) 0,
  which depends on the block only through its own entry (p, q): entry (p, q) of block t is entry (5000 t + p, q) of the matrix,
  and the rows are the same at every block. The ten blocks of the output tile its 50000 rows (row r lies in block r / 5000),
  so the output array is the column normalisation of the whole matrix with the given rows, entry by entry. No law of
  arithmetic is used; nothing needs finite entries.
-/
import proofs.«180070_j13675175870684_1_alg».proof.Proof.Gen.KernelIdeal.Frame
import proofs.«180070_j13675175870684_1_alg».proof.Proof.Spec
import proofs.«180070_j13675175870684_1_alg».proof.Proof.LibRowBias
import proofs.«180070_j13675175870684_1_alg».proof.Proof.LibPlainDot
import proofs.«180070_j13675175870684_1_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.Enc.KRegions

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets, spelt as a constant function. -/
theorem hz3 : (![0, 0] : Fin 2 → Nat) = fun _ => 0 := funext fun a => by fin_cases a <;> rfl

/-- The normalising body at one entry. -/
theorem pay3_apply (x0 : Vec Ideal S5000x128 .f32) (xv xm xg xb : Vec Ideal S1x128 .f32) (p : Fin 5000) (q : Fin 128) :
    k3_pay1 (F := Ideal) x0 xv xm xg xb (ix2 p q)
      = Cert.Encoder.normK (x0 (ix2 p q)) (xm (ix2 (0 : Fin 1) q)) (xv (ix2 (0 : Fin 1) q)) (xg (ix2 (0 : Fin 1) q)) (xb (ix2 (0 : Fin 1) q)) := by
  unfold k3_pay1
  simp only [maximumf_apply, addf_apply, mulf_apply, subf_apply, broadcast_apply, shapeCast_self]
  rw [broadcastTo_1b_ab_apply xg, broadcastTo_1b_ab_apply xm, broadcastTo_1b_ab_apply xb, broadcastTo_1b_ab_apply (rsqrt _)]
  rfl

variable (V : (c : Dev nD) → (b : Ref sig .tc) → Buf (Elt Ideal) ((c : Thread nD τ).loc b)) (c : Dev nD)

/-- Where the blocks sit at each of the ten grid points: the matrix blocks at block position (t, 0), the one-row blocks at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of the output's block at point t is entry (5000 t + p, q) of the array. -/
theorem emb3_5 (t : Fin cfg3.N) (p : Fin 5000) (q : Fin 128) (r : Fin 50000) (hr : r.val = 5000 * t.val + p.val) :
    ((cfg3.win 5).blk t).view.emb (ix2 p q) = (ix2 r q : S50000x128.Idx) := by
  obtain ⟨-, -, -, -, -, -, -, -, -, -, e0, e1⟩ := idx3 t
  funext a; apply Fin.ext
  match a with
  | ⟨0, _⟩ => show win3_5.index t (0 : Fin 2) * 5000 + 1 * p.val = r.val; omega
  | ⟨1, _⟩ => show win3_5.index t (1 : Fin 2) * 128 + 1 * q.val = q.val; omega

/-- Entry (p, q) of the matrix window's block at point t is entry (5000 t + p, q) of its array. -/
theorem blk3_0 (t : Fin cfg3.N) (p : Fin 5000) (q : Fin 128) (r : Fin 50000) (hr : r.val = 5000 * t.val + p.val) :
    (iblk3 V c 0 t : Vec Ideal S5000x128 .f32) (ix2 p q) = (V c (Pipeline.arrRef spec3 0) : S50000x128.Idx → EReal) (ix2 r q) := by
  obtain ⟨e0, e1, -⟩ := idx3 t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

/-- A row window's block is its whole one-row array. -/
theorem blk3_1 (t : Fin cfg3.N) (q : Fin 128) :
    (iblk3 V c 1 t : Vec Ideal S1x128 .f32) (ix2 (0 : Fin 1) q) = (V c (Pipeline.arrRef spec3 1) : S1x128.Idx → EReal) (ix2 (0 : Fin 1) q) := by
  obtain ⟨-, -, e0, e1, -⟩ := idx3 t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 1 + 1 * 0 = 0; omega
  | ⟨1, _⟩ => show win3_1.index t (1 : Fin 2) * 128 + 1 * q.val = q.val; omega
theorem blk3_2 (t : Fin cfg3.N) (q : Fin 128) :
    (iblk3 V c 2 t : Vec Ideal S1x128 .f32) (ix2 (0 : Fin 1) q) = (V c (Pipeline.arrRef spec3 2) : S1x128.Idx → EReal) (ix2 (0 : Fin 1) q) := by
  obtain ⟨-, -, -, -, e0, e1, -⟩ := idx3 t
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega
theorem blk3_3 (t : Fin cfg3.N) (q : Fin 128) :
    (iblk3 V c 3 t : Vec Ideal S1x128 .f32) (ix2 (0 : Fin 1) q) = (V c (Pipeline.arrRef spec3 3) : S1x128.Idx → EReal) (ix2 (0 : Fin 1) q) := by
  obtain ⟨-, -, -, -, -, -, e0, e1, -⟩ := idx3 t
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 1 + 1 * 0 = 0; omega
  | ⟨1, _⟩ => show win3_3.index t (1 : Fin 2) * 128 + 1 * q.val = q.val; omega
theorem blk3_4 (t : Fin cfg3.N) (q : Fin 128) :
    (iblk3 V c 4 t : Vec Ideal S1x128 .f32) (ix2 (0 : Fin 1) q) = (V c (Pipeline.arrRef spec3 4) : S1x128.Idx → EReal) (ix2 (0 : Fin 1) q) := by
  obtain ⟨-, -, -, -, -, -, -, -, e0, e1, -⟩ := idx3 t
  unfold iblk3
  rw [View.read_apply]
  show V c (Pipeline.arrRef spec3 4) _ = V c (Pipeline.arrRef spec3 4) _
  congr 1
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- The whole array the region leaves: the column normalisation of the matrix it finds, with the mean, variance, scale
    and shift rows it finds. -/
abbrev G3 : S50000x128.Idx → EReal :=
  Cert.Encoder.normWith (V c (Pipeline.arrRef spec3 0)) (fun q => V c (Pipeline.arrRef spec3 3) (ix2 0 q)) (fun q => V c (Pipeline.arrRef spec3 4) (ix2 0 q)) (fun q => V c (Pipeline.arrRef spec3 1) (ix2 0 q)) (fun q => V c (Pipeline.arrRef spec3 2) (ix2 0 q))

/-- What point t writes back is block t of that array. -/
theorem flushed3 (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S1x128) hz3]
  funext j
  obtain ⟨p, q, rfl⟩ : ∃ (p : Fin 5000) (q : Fin 128), j = ix2 p q := ⟨j 0, j 1, eq_ix2 j⟩
  have hN : cfg3.N = 10 := N_3
  have ht : t.val < 10 := hN ▸ t.isLt
  show k3_pay1 (F := Ideal) (iblk3 V c 0 t) (iblk3 V c 4 t) (iblk3 V c 3 t) (iblk3 V c 1 t) (iblk3 V c 2 t) (ix2 p q)
    = G3 V c (((cfg3.win 5).blk t).view.emb (ix2 p q))
  rw [emb3_5 t p q ⟨5000 * t.val + p.val, by omega⟩ rfl]
  refine (pay3_apply _ _ _ _ _ p q).trans ?_
  rw [blk3_0 V c t p q ⟨5000 * t.val + p.val, by omega⟩ rfl, blk3_1, blk3_2, blk3_3, blk3_4]
  rfl

/-- An index of the array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v63).slice (win3_5.rect t)).set ↔ _
  rw [View.set_slice_whole, Rect.mem_set_unit]
  exact Iff.rfl

/-- Row r of the array lies in the block of point r / 5000. -/
theorem cover3 (i : S50000x128.Idx) : ∃ t : Fin cfg3.N, (cfg3.win 5).flush t = true ∧ i ∈ ((cfg3.win 5).blk t).view.set := by
  have hN : cfg3.N = 10 := N_3
  have hi0 : (i 0).val < 50000 := idx2_lt0 i
  have hi1 : (i 1).val < 128 := idx2_lt1 i
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The region as one function of the arrays it finds: its output array is the column normalisation (scaled, shifted, rectified)
    of window 0's matrix with window 3's row as the means, window 4's as the variances, window 1's as the scales and
    window 2's as the shifts. -/
theorem arr3 : (dat3 (F := Ideal) V c).arrAt 5 cfg3.N
    = Cert.Encoder.normWith (V c (Pipeline.arrRef spec3 0)) (fun q => V c (Pipeline.arrRef spec3 3) (ix2 0 q)) (fun q => V c (Pipeline.arrRef spec3 4) (ix2 0 q)) (fun q => V c (Pipeline.arrRef spec3 1) (ix2 0 q)) (fun q => V c (Pipeline.arrRef spec3 2) (ix2 0 q)) :=
  (dat3 (F := Ideal) V c).arrAt_eq_of_cover 5 (G3 V c) (fun t _ => flushed3 V c t) cover3

end Cert.Enc.KRegions

end
-- ==== Proof.Region4.lean ====
/-
  The residual perceptron region of the encoder, as one function of the arrays it finds.

  The region walks two matrices of 50000 rows and 128 columns, x2 and x1, in ten blocks of 5000 rows, and at every block sees
  two weight matrices W1, W2 (128 by 128) and two biases kept as one-row matrices. At entry (p, q) of a block it forms
      x1(p, q) + ((sum over k of max ((sum over j of x2(p, j) * W1(j, k)) + b1(k)) 0 * W2(k, q)) + b2(q)).
  The products run into zero accumulators, the operands' change of float format is the identity on extended reals, and a
  one-row bias laid along the rows reads its row. Row p of the result depends only on row p of the block of x2 and on
  entry (p, q) of the block of x1; entry (p, q) of block t is entry (5000 t + p, q) of the matrix, and the weights and biases
  are the same at every block. The ten blocks of the output tile its 50000 rows (row r lies in block r / 5000), so the output
  array is x1 + (max (x2 · W1 + b1) 0 · W2 + b2) on the whole matrices. Only re-indexing is used: nothing needs finite
  entries.
-/
import proofs.«180070_j13675175870684_1_alg».proof.Proof.Gen.KernelIdeal.Frame
import proofs.«180070_j13675175870684_1_alg».proof.Proof.Spec
import proofs.«180070_j13675175870684_1_alg».proof.Proof.LibRowBias
import proofs.«180070_j13675175870684_1_alg».proof.Proof.LibPlainDot
import proofs.«180070_j13675175870684_1_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.Enc.KRegions

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets, spelt as a constant function. -/
theorem hz4 : (![0, 0] : Fin 2 → Nat) = fun _ => 0 := funext fun a => by fin_cases a <;> rfl

/-- The product's dimension record is the plain one: axis 1 of the left factor against axis 0 of the right. -/
theorem dot4 : dot_S5000x128_S128x128_S5000x128_1_0_0_1_n_n = DotDims.plain 5000 128 128 := rfl

open Cert.LibDenseLayers Cert.LibRowBias in
/-- The perceptron body at one entry: the residual entry plus row p of the rectified first layer against column q of the
    second weight matrix, plus the second bias at q. A change of float format is the identity on extended reals. -/
theorem pay4_apply (x0 : Vec Ideal S5000x128 .f32) (W1 : Vec Ideal S128x128 .f32) (B1 : Vec Ideal S1x128 .f32)
    (W2 : Vec Ideal S128x128 .f32) (B2 : Vec Ideal S1x128 .f32) (x5 : Vec Ideal S5000x128 .f32) (p : Fin 5000) (q : Fin 128) :
    k4_pay1 (F := Ideal) x0 W1 B1 W2 B2 x5 (ix2 p q)
      = x5 (ix2 p q) + affineAt (stage1 x0 W1 (rowOf B1)) W2 (rowOf B2) p q := by
  unfold k4_pay1
  simp only [addf_apply, shapeCast_self, dot4]
  rw [Cert.LibPlainDot.matmul_plain, broadcastTo_1b_ab_apply B2]
  refine congrArg (x5 (ix2 p q) + ·) ?_
  show _ = (∑ k : Fin 128, stage1 x0 W1 (rowOf B1) (ix2 p k) * W2 (ix2 k q)) + B2 (ix2 (0 : Fin 1) q)
  refine congrArg (· + B2 (ix2 (0 : Fin 1) q)) (Finset.sum_congr rfl fun k _ => ?_)
  refine congrArg (· * W2 (ix2 k q)) ?_
  show max (matmul (F := Ideal) (DotDims.plain 5000 128 128) none (truncf .bf16 x0 bitsLt_bf16_f32) (truncf .bf16 W1 bitsLt_bf16_f32) (constant S5000x128 .f32 0#32) (ix2 p k)
      + broadcastTo S5000x128 B1 broadcasts_S1x128_S5000x128 (ix2 p k)) _ = max (affineAt x0 W1 (rowOf B1) p k) _
  rw [Cert.LibPlainDot.matmul_plain, broadcastTo_1b_ab_apply B1]
  rfl

variable (V : (c : Dev nD) → (b : Ref sig .tc) → Buf (Elt Ideal) ((c : Thread nD τ).loc b)) (c : Dev nD)

/-- Where the blocks sit at each of the ten grid points: the three matrix blocks of 5000 rows at block position (t, 0),
    the weight matrices and the one-row biases at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Entry (p, q) of the output's block at point t is entry (5000 t + p, q) of the array. -/
theorem emb4_6 (t : Fin cfg4.N) (p : Fin 5000) (q : Fin 128) (r : Fin 50000) (hr : r.val = 5000 * t.val + p.val) :
    ((cfg4.win 6).blk t).view.emb (ix2 p q) = (ix2 r q : S50000x128.Idx) := by
  obtain ⟨-, -, -, -, -, -, -, -, -, -, -, -, e0, e1⟩ := idx4 t
  funext a; apply Fin.ext
  match a with
  | ⟨0, _⟩ => show win4_6.index t (0 : Fin 2) * 5000 + 1 * p.val = r.val; omega
  | ⟨1, _⟩ => show win4_6.index t (1 : Fin 2) * 128 + 1 * q.val = q.val; omega

/-- Entry (p, q) of the perceptron input's block at point t is entry (5000 t + p, q) of its array. -/
theorem blk4_0 (t : Fin cfg4.N) (p : Fin 5000) (q : Fin 128) (r : Fin 50000) (hr : r.val = 5000 * t.val + p.val) :
    (iblk4 V c 0 t : Vec Ideal S5000x128 .f32) (ix2 p q) = (V c (Pipeline.arrRef spec4 0) : S50000x128.Idx → EReal) (ix2 r q) := by
  obtain ⟨e0, e1, -⟩ := idx4 t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

/-- Entry (p, q) of the residual's block at point t is entry (5000 t + p, q) of its array. -/
theorem blk4_5 (t : Fin cfg4.N) (p : Fin 5000) (q : Fin 128) (r : Fin 50000) (hr : r.val = 5000 * t.val + p.val) :
    (iblk4 V c 5 t : Vec Ideal S5000x128 .f32) (ix2 p q) = (V c (Pipeline.arrRef spec4 5) : S50000x128.Idx → EReal) (ix2 r q) := by
  obtain ⟨-, -, -, -, -, -, -, -, -, -, e0, e1, -⟩ := idx4 t
  unfold iblk4
  rw [View.read_apply]
  show V c (Pipeline.arrRef spec4 5) _ = V c (Pipeline.arrRef spec4 5) _
  congr 1
  funext a; apply Fin.ext
  match a with
  | ⟨0, _⟩ => show win4_5.index t (0 : Fin 2) * 5000 + 1 * p.val = r.val; omega
  | ⟨1, _⟩ => show win4_5.index t (1 : Fin 2) * 128 + 1 * q.val = q.val; omega

/-! A weight matrix's or a bias row's block is its whole array, at every point. -/

theorem blk4_1 (t : Fin cfg4.N) :
    (iblk4 V c 1 t : Vec Ideal S128x128 .f32) = (V c (Pipeline.arrRef spec4 1) : S128x128.Idx → EReal) := by
  obtain ⟨-, -, e1a, e1b, e2a, e2b, e3a, e3b, e4a, e4b, -⟩ := idx4 t
  funext j
  obtain ⟨a, b, rfl⟩ : ∃ (a : Fin 128) (b : Fin 128), j = ix2 a b := ⟨j 0, j 1, eq_ix2 j⟩
  unfold iblk4
  rw [View.read_apply]
  show V c (Pipeline.arrRef spec4 1) _ = V c (Pipeline.arrRef spec4 1) _
  congr 1
  funext ax; apply Fin.ext
  match ax with
  | ⟨0, _⟩ => show win4_1.index t (0 : Fin 2) * 128 + 1 * a.val = a.val; omega
  | ⟨1, _⟩ => show win4_1.index t (1 : Fin 2) * 128 + 1 * b.val = b.val; omega

theorem blk4_2 (t : Fin cfg4.N) :
    (iblk4 V c 2 t : Vec Ideal S1x128 .f32) = (V c (Pipeline.arrRef spec4 2) : S1x128.Idx → EReal) := by
  obtain ⟨-, -, e1a, e1b, e2a, e2b, e3a, e3b, e4a, e4b, -⟩ := idx4 t
  funext j
  obtain ⟨a, b, rfl⟩ : ∃ (a : Fin 1) (b : Fin 128), j = ix2 a b := ⟨j 0, j 1, eq_ix2 j⟩
  unfold iblk4
  rw [View.read_apply]
  show V c (Pipeline.arrRef spec4 2) _ = V c (Pipeline.arrRef spec4 2) _
  congr 1
  funext ax; apply Fin.ext
  match ax with
  | ⟨0, _⟩ => show win4_2.index t (0 : Fin 2) * 1 + 1 * a.val = a.val; omega
  | ⟨1, _⟩ => show win4_2.index t (1 : Fin 2) * 128 + 1 * b.val = b.val; omega

theorem blk4_3 (t : Fin cfg4.N) :
    (iblk4 V c 3 t : Vec Ideal S128x128 .f32) = (V c (Pipeline.arrRef spec4 3) : S128x128.Idx → EReal) := by
  obtain ⟨-, -, e1a, e1b, e2a, e2b, e3a, e3b, e4a, e4b, -⟩ := idx4 t
  funext j
  obtain ⟨a, b, rfl⟩ : ∃ (a : Fin 128) (b : Fin 128), j = ix2 a b := ⟨j 0, j 1, eq_ix2 j⟩
  unfold iblk4
  rw [View.read_apply]
  show V c (Pipeline.arrRef spec4 3) _ = V c (Pipeline.arrRef spec4 3) _
  congr 1
  funext ax; apply Fin.ext
  match ax with
  | ⟨0, _⟩ => show win4_3.index t (0 : Fin 2) * 128 + 1 * a.val = a.val; omega
  | ⟨1, _⟩ => show win4_3.index t (1 : Fin 2) * 128 + 1 * b.val = b.val; omega

theorem blk4_4 (t : Fin cfg4.N) :
    (iblk4 V c 4 t : Vec Ideal S1x128 .f32) = (V c (Pipeline.arrRef spec4 4) : S1x128.Idx → EReal) := by
  obtain ⟨-, -, e1a, e1b, e2a, e2b, e3a, e3b, e4a, e4b, -⟩ := idx4 t
  funext j
  obtain ⟨a, b, rfl⟩ : ∃ (a : Fin 1) (b : Fin 128), j = ix2 a b := ⟨j 0, j 1, eq_ix2 j⟩
  unfold iblk4
  rw [View.read_apply]
  show V c (Pipeline.arrRef spec4 4) _ = V c (Pipeline.arrRef spec4 4) _
  congr 1
  funext ax; apply Fin.ext
  match ax with
  | ⟨0, _⟩ => show win4_4.index t (0 : Fin 2) * 1 + 1 * a.val = a.val; omega
  | ⟨1, _⟩ => show win4_4.index t (1 : Fin 2) * 128 + 1 * b.val = b.val; omega

/-- The whole array the region leaves: the residual perceptron of the matrices, weights and bias rows it finds. -/
abbrev G4 : S50000x128.Idx → EReal :=
  Cert.Encoder.mlp (V c (Pipeline.arrRef spec4 0)) (V c (Pipeline.arrRef spec4 1)) (Cert.LibRowBias.rowOf (V c (Pipeline.arrRef spec4 2))) (V c (Pipeline.arrRef spec4 3)) (Cert.LibRowBias.rowOf (V c (Pipeline.arrRef spec4 4))) (V c (Pipeline.arrRef spec4 5))

open Cert.LibDenseLayers Cert.LibRowBias in
/-- What point t writes back is block t of that array: row p of the block's perceptron is row 5000 t + p of the whole
    matrix's, because a row of an affine layer depends only on the same row of its input. -/
theorem flushed4 (t : Fin cfg4.N) :
    (dat4 (F := Ideal) V c).flushed 6 t = ((cfg4.win 6).blk t).view.read (Elt Ideal) (G4 V c) := by
  show (cfg4.win 6).cut (grid4.coords t) ((dat4 V c).after 6 t) = _
  rw [after4_6]
  unfold out4_6
  rw [View.canon_unit_zero hz4]
  simp only [View.ld_unit_zero (S := S5000x128) hz4, View.ld_unit_zero (S := S1x128) hz4, View.ld_unit_zero (S := S128x128) hz4]
  funext j
  obtain ⟨p, q, rfl⟩ : ∃ (p : Fin 5000) (q : Fin 128), j = ix2 p q := ⟨j 0, j 1, eq_ix2 j⟩
  have hN : cfg4.N = 10 := N_4
  have ht : t.val < 10 := hN ▸ t.isLt
  obtain ⟨r, hr⟩ : ∃ r : Fin 50000, r.val = 5000 * t.val + p.val := ⟨⟨5000 * t.val + p.val, by omega⟩, rfl⟩
  show k4_pay1 (F := Ideal) (iblk4 V c 0 t) (iblk4 V c 1 t) (iblk4 V c 2 t) (iblk4 V c 3 t) (iblk4 V c 4 t) (iblk4 V c 5 t) (ix2 p q)
    = G4 V c (((cfg4.win 6).blk t).view.emb (ix2 p q))
  rw [emb4_6 t p q r hr]
  refine (pay4_apply _ _ _ _ _ _ p q).trans ?_
  rw [blk4_1, blk4_2, blk4_3, blk4_4, blk4_5 V c t p q r hr]
  have hadd : ∀ a y y' : EReal, y = y' → a + y = a + y' := fun a y y' h => by rw [h]
  exact hadd _ _ _ (affineAt_congr _ _ _ _ p r (fun k => stage1_row _ _ _ _ p r (fun k' => blk4_0 V c t p k' r hr) k) q)

/-- An index of the array is in point t's block iff each coordinate is in the block's range on its axis. -/
theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v66).slice (win4_6.rect t)).set ↔ _
  rw [View.set_slice_whole, Rect.mem_set_unit]
  exact Iff.rfl

/-- Row r of the array lies in the block of point r / 5000. -/
theorem cover4 (i : S50000x128.Idx) : ∃ t : Fin cfg4.N, (cfg4.win 6).flush t = true ∧ i ∈ ((cfg4.win 6).blk t).view.set := by
  have hN : cfg4.N = 10 := N_4
  have hi0 : (i 0).val < 50000 := idx2_lt0 i
  have hi1 : (i 1).val < 128 := idx2_lt1 i
  obtain ⟨t, ht⟩ : ∃ t : Fin cfg4.N, t.val = (i 0).val / 5000 := ⟨⟨(i 0).val / 5000, by rw [hN]; omega⟩, rfl⟩
  obtain ⟨-, -, -, -, -, -, -, -, -, -, -, -, e0, e1⟩ := idx4 t
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The region as one function of the arrays it finds: its output array is the residual perceptron
    x1 + (max (x2 · W1 + b1) 0 · W2 + b2) with x2 window 0's matrix, W1 and W2 windows 1 and 3, b1 and b2 the rows of
    windows 2 and 4, and x1 window 5's matrix. -/
theorem arr4 : (dat4 (F := Ideal) V c).arrAt 6 cfg4.N
    = Cert.Encoder.mlp (V c (Pipeline.arrRef spec4 0)) (V c (Pipeline.arrRef spec4 1)) (Cert.LibRowBias.rowOf (V c (Pipeline.arrRef spec4 2))) (V c (Pipeline.arrRef spec4 3)) (Cert.LibRowBias.rowOf (V c (Pipeline.arrRef spec4 4))) (V c (Pipeline.arrRef spec4 5)) :=
  (dat4 (F := Ideal) V c).arrAt_eq_of_cover 6 (G4 V c) (fun t _ => flushed4 V c t) cover4

end Cert.Enc.KRegions

end
-- ==== Proof.Assemble.lean ====
/-
  The five claims of the certificate, assembled.

  The three frame claims are the runs of the three programs with the result dropped. The idealization rewrote no
  operation, so there is nothing to preserve. The algebraic claim: at the ideal instance, from memories that agree on
  the sixteen arguments, the kernel program ends with its result buffer at the last boundary valuation's value, and
  the reference program ends at the two-pass encoder of its arguments. The kernel's value is the one-pass encoder of
  the same arguments, with the same neighbour aggregation. The precondition makes every entry of the fifteen float
  arguments a real number; the aggregation of reals is real; and on real entries the one-pass variance
  ss/n - (s/n)² is the two-pass variance, so the two encoders agree.
-/
import proofs.«180070_j13675175870684_1_alg».proof.Defs
import proofs.«180070_j13675175870684_1_alg».proof.Proof.Gen.Kernel.Frame
import proofs.«180070_j13675175870684_1_alg».proof.Proof.Gen.KernelIdeal.Frame
import proofs.«180070_j13675175870684_1_alg».proof.Proof.Gen.ReferenceIdeal.Run
import proofs.«180070_j13675175870684_1_alg».proof.Proof.Gen.Pre_finite_inputs
import proofs.«180070_j13675175870684_1_alg».proof.Proof.KRun
import proofs.«180070_j13675175870684_1_alg».proof.Proof.RefValue
import proofs.«180070_j13675175870684_1_alg».proof.Proof.Law
import proofs.«180070_j13675175870684_1_alg».proof.Proof.Finite
import proofs.«180070_j13675175870684_1_alg».proof.Proof.KChain
import proofs.«180070_j13675175870684_1_alg».proof.Proof.AggEq
import proofs.«180070_j13675175870684_1_alg».proof.Proof.K0Value
import proofs.«180070_j13675175870684_1_alg».proof.Proof.K2Value
import proofs.«180070_j13675175870684_1_alg».proof.Proof.Region1
import proofs.«180070_j13675175870684_1_alg».proof.Proof.Region3
import proofs.«180070_j13675175870684_1_alg».proof.Proof.Region4

noncomputable section

open Idealize.ShloMosaic Idealize.ShloMosaic.TcCoe Idealize.SL.Sem

namespace Cert.Proof.Claims

open Cert.Encoder Cert.Enc.RefSide Cert.LibMoments

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the two-pass encoder of the kernel program's arguments is the one-pass encoder: every
    float argument has real entries, the aggregation keeps entries real, and on reals the two variances agree. -/
theorem netR_eq_netK_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    netR (aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0))
        (paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      = netK (aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0))
        (paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) := by
  obtain ⟨hx, hP⟩ := Cert.Enc.Finite.real_of_pre _ _ _ _ _ _ _ _ _ _ _ _ _ _ _ _ (hpre c)
  refine (netK_eq_netR (aggR _) (fun y hy => aggR_real _ y hy) _ hx _ ?_).symm
  exact hP

/-- The algebraic claim, from the kernel program's value: the last boundary valuation holds, for the result buffer,
    the one-pass encoder of the arguments (with the reference's aggregation and the weights in the program's order). -/
theorem algebraic_of
    (hK : ∀ (m : (ℓ : Loc Cert.KernelIdeal.nD Cert.KernelIdeal.τ Cert.KernelIdeal.sig) → Buf (Elt Ideal) ℓ)
        (ρ : Dev Cert.KernelIdeal.nD → PrngReg), Cert.Pre_KernelIdeal m → ∀ c : Dev Cert.KernelIdeal.nD,
        Cert.KernelIdeal.Gen.W10 m ρ c (Proc.devRef .tc Cert.KernelIdeal.main_v66)
          = netK (aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0))
              (paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
                (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))) :
    Cert.algebraic_KernelIdeal_ReferenceIdeal := by
  intro m ρ m' ρ' hpre hagree
  refine ⟨fun c => Cert.KernelIdeal.Gen.W10 m ρ c (Proc.devRef .tc Cert.KernelIdeal.main_v66), Cert.Enc.KRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [result_eq m' c, h0, h1, h2, h3, h4, h5, h6, h7, h8, h9, h10, h11, h12, h13, h14, h15]
  exact (netR_eq_netK_of_pre m hpre c).trans (hK m ρ hpre c).symm

/-- The algebraic claim: the kernel program's last boundary valuation holds the one-pass encoder for the result buffer
    (the five regions' arrays read through the host stretches between them), its aggregation is the reference's, and
    its weights are the arguments in the program's order. -/
theorem algebraic : Cert.algebraic_KernelIdeal_ReferenceIdeal :=
  algebraic_of fun m ρ _ c =>
    (Cert.Enc.KChain.W10_v66 m ρ c Cert.Enc.K0.arr5 Cert.Enc.K0.arr6 Cert.Enc.K0.arr7 Cert.Enc.KRegions.arr1
      Cert.Enc.K2.arr5 Cert.Enc.K2.arr6 Cert.Enc.K2.arr7 Cert.Enc.KRegions.arr3 Cert.Enc.KRegions.arr4).trans (by
      rw [show Cert.Enc.KChain.aggK (m ((c.tc : Thread Cert.KernelIdeal.nD Cert.KernelIdeal.τ).loc Cert.KernelIdeal.main_arg1))
          = aggR (m ((c.tc : Thread Cert.KernelIdeal.nD Cert.KernelIdeal.τ).loc Cert.KernelIdeal.main_arg1)) from funext (Cert.Enc.AggEq.agg_eq _)]
      rfl)

end Cert.Proof.Claims

end
-- ==== Proof.lean ====
/-
  A two-layer mean-aggregating graph encoder, computed two ways, is one function of its arguments on extended reals.

  For node features x (50000 rows, 128 columns), an edge list and fourteen weight arrays, a layer takes for every node the
  mean of the rows of its incoming neighbours (gather by source, add by destination, divide by the larger of the number of
  incoming edges and 1), forms A = mean · Wl + b + x · Wr, normalises every column of A over the 50000 rows (subtract the
  column's mean, multiply by the reciprocal root of the column's variance plus 1e-5, scale by gamma, shift by beta) and
  takes the larger of each entry and zero. The network is two such layers, and its result is the first layer's output
  plus max(X2 · Wm1 + bm1, 0) · Wm2 + bm2 of the second's.
  One program accumulates, over blocks of rows, each column's sum s and sum of squares ss and takes the variance in one
  pass as ss/n - (s/n)²; the other takes it in two passes as the mean of the squared deviations from the mean. Everything
  else agrees entry by entry with exact operations: the aggregation is the same chain of operations, a block of rows of a
  matrix product is the product of the block, sums over blocks of rows add up to the sum over all rows, and
  g · ((A - μ) · r) = (g · (A - μ)) · r since multiplication of extended reals is associative.
  The two variances are equal when the column's entries are real numbers (expand the square; the deviations sum to
  zero) and not in general: at an infinite entry ⊤ - ⊤ reads ⊥. So the equality is claimed for arguments whose float
  entries are all finite. Then every intermediate array has real entries, layer after layer: the aggregation is finite
  sums of reals over a real divisor that is at least 1, the pre-activation is sums of products of reals, the variance
  plus the positive offset is a positive real, so its reciprocal root is real; and the law applies at both layers.
-/
import proofs.«180070_j13675175870684_1_alg».proof.Defs
import proofs.«180070_j13675175870684_1_alg».proof.Proof.Gen.Kernel
import proofs.«180070_j13675175870684_1_alg».proof.Proof.Gen.Kernel.Skeleton
import proofs.«180070_j13675175870684_1_alg».proof.Proof.Gen.Kernel.Launch
import proofs.«180070_j13675175870684_1_alg».proof.Proof.Gen.Kernel.Points
import proofs.«180070_j13675175870684_1_alg».proof.Proof.Gen.Kernel.Frame
import proofs.«180070_j13675175870684_1_alg».proof.Proof.Gen.KernelIdeal
import proofs.«180070_j13675175870684_1_alg».proof.Proof.Gen.KernelIdeal.Skeleton
import proofs.«180070_j13675175870684_1_alg».proof.Proof.Gen.KernelIdeal.Launch
import proofs.«180070_j13675175870684_1_alg».proof.Proof.Gen.KernelIdeal.Points
import proofs.«180070_j13675175870684_1_alg».proof.Proof.Gen.KernelIdeal.Frame
import proofs.«180070_j13675175870684_1_alg».proof.Proof.Gen.ReferenceIdeal
import proofs.«180070_j13675175870684_1_alg».proof.Proof.Gen.Pre_finite_inputs
import proofs.«180070_j13675175870684_1_alg».proof.Proof.Gen.ReferenceIdeal.Run
import proofs.«180070_j13675175870684_1_alg».proof.Proof.Gen.ReferenceIdeal.Read
import Idealize.ShloMosaic.Adequacy
import Idealize.ShloMosaic.Init
import proofs.«180070_j13675175870684_1_alg».proof.Proof.Assemble

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
